-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S16 : Shape := ⟨1, ![16]⟩
abbrev S128x512 : Shape := ⟨2, ![128, 512]⟩
abbrev S1x4x128 : Shape := ⟨3, ![1, 4, 128]⟩
abbrev S512 : Shape := ⟨1, ![512]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S1x4x128 : S_.BroadcastsInDim S1x4x128 (![] : Fin 0 → Fin S1x4x128.rank)
  reducesTo_S1x4x128_S_d0_1_2 : S1x4x128.ReducesTo [0, 1, 2] S_
  bcast_S_S512 : S_.BroadcastsInDim S512 (![] : Fin 0 → Fin S512.rank)
  reducesTo_S512_S_d0 : S512.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg1 : IVec S16 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 1#32
  let main_v19 : IVec S16 32 := broadcastInDim S16 ![] bcast_S_S16 main_c_6
  let main_v20 : IVec S16 1 := cmpi .sge main_arg1 main_v19
  let main_c_7 : IVec S_ 1 := constantI S_ 1 1#1
  let main_v21 : IVec S_ 1 := (fun x v => Host.reduce IntOp.andi x v reducesTo_S16_S_d0 h_S_) main_v20 main_c_7
  let main_v22 : IVec S_ 1 := andi main_v18 main_v21
  main_v22

def fn {F : FTy → Type} [FloatOps F] (main_arg0 : FVec F S16x4096x128 .f32) (main_arg1 : IVec S16 32) (main_arg2 : FVec F S128x512 .f32) (main_arg3 : FVec F S1x4x128 .f32) (main_arg4 : FVec F S512 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S1x4x128 .f32 := Host.absf main_arg3
  let main_cst_2 : FVec F S_ .f32 := constant S_ .f32 0x7F800000#32
  let main_v10 : FVec F S1x4x128 .f32 := broadcastInDim S1x4x128 ![] bcast_S_S1x4x128 main_cst_2
  let main_v11 : IVec S1x4x128 1 := cmpf .olt main_v9 main_v10
  let main_c_3 : IVec S_ 1 := constantI S_ 1 1#1
  let main_v12 : IVec S_ 1 := (fun x v => Host.reduce IntOp.andi x v reducesTo_S1x4x128_S_d0_1_2 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_v13 main_v16
-- ==== Kernel.lean ====
abbrev S16x4096x128 : Shape := ⟨3, ![16, 4096, 128]⟩
abbrev S16 : Shape := ⟨1, ![16]⟩
abbrev S128x512 : Shape := ⟨2, ![128, 512]⟩
abbrev S1x4x128 : Shape := ⟨3, ![1, 4, 128]⟩
abbrev S512 : Shape := ⟨1, ![512]⟩
abbrev S512x1 : Shape := ⟨2, ![512, 1]⟩
abbrev S_ : Shape := ⟨0, ![]⟩
abbrev S4 : Shape := ⟨1, ![4]⟩
abbrev S1x4 : Shape := ⟨2, ![1, 4]⟩
abbrev S512x4 : Shape := ⟨2, ![512, 4]⟩
abbrev S1x512 : Shape := ⟨2, ![1, 512]⟩
abbrev S16x1x512 : Shape := ⟨3, ![16, 1, 512]⟩
abbrev S16x512 : Shape := ⟨2, ![16, 512]⟩
abbrev S1x4096x128 : Shape := ⟨3, ![1, 4096, 128]⟩
abbrev S1x1x512 : Shape := ⟨3, ![1, 1, 512]⟩
abbrev S1 : Shape := ⟨1, ![1]⟩
abbrev S4096x128 : Shape := ⟨2, ![4096, 128]⟩
abbrev S128x4 : Shape := ⟨2, ![128, 4]⟩
abbrev S4096x4 : Shape := ⟨2, ![4096, 4]⟩
abbrev S4x4096 : Shape := ⟨2, ![4, 4096]⟩
abbrev S4x1 : Shape := ⟨2, ![4, 1]⟩
abbrev S4x128 : Shape := ⟨2, ![4, 128]⟩
abbrev S4x512 : Shape := ⟨2, ![4, 512]⟩

abbrev nBuf : Space → Nat
  | .hbm => 40
  | .vmem => 7
  | .smem => 1
  | _ => 0

abbrev bufTy : (tb : Table) → Fin (tcTables nBuf tb) → BufTy
  | .hbm, ⟨0, _⟩ => ⟨S16x4096x128, .f32⟩
  | .hbm, ⟨1, _⟩ => ⟨S16, .i32⟩
  | .hbm, ⟨2, _⟩ => ⟨S128x512, .f32⟩
  | .hbm, ⟨3, _⟩ => ⟨S1x4x128, .f32⟩
  | .hbm, ⟨4, _⟩ => ⟨S512, .f32⟩
  | .hbm, ⟨5, _⟩ => ⟨S512, .f32⟩
  | .hbm, ⟨6, _⟩ => ⟨S512, .i32⟩
  | .hbm, ⟨7, _⟩ => ⟨S512x1, .i32⟩
  | .hbm, ⟨8, _⟩ => ⟨S_, .i32⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S512x1, .i32⟩
  | .hbm, ⟨17, _⟩ => ⟨S512x1, .i32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i32⟩
  | .hbm, ⟨25, _⟩ => ⟨S512x1, .i32⟩
  | .hbm, ⟨26, _⟩ => ⟨S4, .i32⟩
  | .hbm, ⟨27, _⟩ => ⟨S1x4, .i32⟩
  | .hbm, ⟨28, _⟩ => ⟨S512x4, .i32⟩
  | .hbm, ⟨29, _⟩ => ⟨S512x4, .i32⟩
  | .hbm, ⟨30, _⟩ => ⟨S512x4, .i1⟩
  | .hbm, ⟨31, _⟩ => ⟨S512x1, .f32⟩
  | .hbm, ⟨32, _⟩ => ⟨S_, .f32⟩
  | .hbm, ⟨33, _⟩ => ⟨S_, .f32⟩
  | .hbm, ⟨34, _⟩ => ⟨S512x4, .f32⟩
  | .hbm, ⟨35, _⟩ => ⟨S512x4, .f32⟩
  | .hbm, ⟨36, _⟩ => ⟨S512x4, .f32⟩
  | .hbm, ⟨37, _⟩ => ⟨S1x512, .f32⟩
  | .hbm, ⟨38, _⟩ => ⟨S16x1x512, .f32⟩
  | .hbm, ⟨39, _⟩ => ⟨S16x512, .f32⟩
  | .local _ .vmem, ⟨0, _⟩ => ⟨S1x4096x128, .f32⟩
  | .local _ .vmem, ⟨1, _⟩ => ⟨S1x4096x128, .f32⟩
  | .local _ .vmem, ⟨2, _⟩ => ⟨S128x512, .f32⟩
  | .local _ .vmem, ⟨3, _⟩ => ⟨S512x4, .f32⟩
  | .local _ .vmem, ⟨4, _⟩ => ⟨S1x512, .f32⟩
  | .local _ .vmem, ⟨5, _⟩ => ⟨S1x1x512, .f32⟩
  | .local _ .vmem, ⟨6, _⟩ => ⟨S1x1x512, .f32⟩
  | .local _ .smem, ⟨0, _⟩ => ⟨S16, .i32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_c : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_call0_c_0 : Ref sig .tc := ⟨.hbm, 22, rfl⟩
abbrev main_call0_call0_v12 : Ref sig .tc := ⟨.hbm, 23, rfl⟩
abbrev main_call0_call0_v13 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_cst : Ref sig .tc := ⟨.hbm, 32, rfl⟩
abbrev main_call0_call1_v0 : Ref sig .tc := ⟨.hbm, 33, rfl⟩
abbrev main_call0_call1_v1 : Ref sig .tc := ⟨.hbm, 34, rfl⟩
abbrev main_call0_call1_v2 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_v0 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x4x128_S512 : S1x4x128.ShapeCasts S512
  bcast_S512_S512x1_0 : S512.BroadcastsInDim S512x1 (![0] : Fin 1 → Fin S512x1.rank)
  bcast_S_S512x1 : S_.BroadcastsInDim S512x1 (![] : Fin 0 → Fin S512x1.rank)
  bcast_S4_S1x4_1 : S4.BroadcastsInDim S1x4 (![1] : Fin 1 → Fin S1x4.rank)
  bcast_S512x1_S512x4_0_1 : S512x1.BroadcastsInDim S512x4 (![0, 1] : Fin 2 → Fin S512x4.rank)
  bcast_S1x4_S512x4_0_1 : S1x4.BroadcastsInDim S512x4 (![0, 1] : Fin 2 → Fin S512x4.rank)
  bcast_S_S512x4 : S_.BroadcastsInDim S512x4 (![] : Fin 0 → Fin S512x4.rank)
  shapeCasts_S512_S1x512 : S512.ShapeCasts S1x512
  shapeCasts_S16x1x512_S16x512 : S16x1x512.ShapeCasts S16x512
  numel1_S1 : S1.numel = 1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x512_S128x512_0_0 : ∀ a, (![0, 0] : Fin 2 → Nat) a + S128x512.size a ≤ S128x512.size a
  h_S128x512 : 0 < S128x512.numel
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x4_S4096x4 : S1x4.Broadcasts S4096x4
  transposes_S4096x4_p1_0_S4x4096 : S4096x4.Transposes [1, 0] S4x4096
  iota_S4x4096_d1_w32 : S4x4096.Iotas .tc 32 [1]
  reduces_S4x4096_S4 : S4x4096.Reduces [1] S4
  shapeCasts_S4_S4x1 : S4.ShapeCasts S4x1
  broadcasts_S4x1_S4x4096 : S4x1.Broadcasts S4x4096
  broadcasts_S4x1_S4x128 : S4x1.Broadcasts S4x128
  iota_S4x512_d1_w32 : S4x512.Iotas .tc 32 [1]
  natLt_1_32 : 1 < 32
  iota_S4x512_d0_w32 : S4x512.Iotas .tc 32 [0]
  reduces_S4x512_S512 : S4x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  dot_S128x512_S512x4_S128x4_1_0_0_1_n_n_wf : DotDims.WF S128x512 S512x4 S128x4 [1] [0] [0] [1] [] []
  dot_S1x512_S512x4_S1x4_1_0_0_1_n_n_wf : DotDims.WF S1x512 S512x4 S1x4 [1] [0] [0] [1] [] []
  dot_S4096x128_S128x4_S4096x4_1_0_0_1_n_n_wf : DotDims.WF S4096x128 S128x4 S4096x4 [1] [0] [0] [1] [] []
  dot_S4x4096_S4096x128_S4x128_1_0_0_1_n_n_wf : DotDims.WF S4x4096 S4096x128 S4x128 [1] [0] [0] [1] [] []
  dot_S4x128_S128x512_S4x512_1_0_0_1_n_n_wf : DotDims.WF S4x128 S128x512 S4x512 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S16.size a ≤ S16.size a
  hwx0_0 : ∀ i : grid0.Coords, EltTy.bits .i32 = 32 ∨ (Rect.block (s := S16) S16.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S16x4096x128.size a
  hwx0_1 : ∀ i : grid0.Coords, EltTy.bits .f32 = 32 ∨ (Rect.block (s := S16x4096x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4.size a ≤ S512x4.size a
  hwx0_3 : ∀ i : grid0.Coords, EltTy.bits .f32 = 32 ∨ (Rect.block (s := S512x4) S512x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S16x1x512.size a
  hwx0_5 : ∀ i : grid0.Coords, EltTy.bits .f32 = 32 ∨ (Rect.block (s := S16x1x512) S1x1x512.size (cc0_transform_5 i) (hinb0_5 i)).WholeWords (EltTy.packing .f32)

variable [Facts₀]

def dot_S128x512_S512x4_S128x4_1_0_0_1_n_n : DotDims S128x512 S512x4 S128x4 where
  lhsContracting := [1]
  rhsContracting := [0]
  lhsNonContracting := [0]
  rhsNonContracting := [1]
  lhsBatch := []
  rhsBatch := []
  wf := dot_S128x512_S512x4_S128x4_1_0_0_1_n_n_wf
def dot_S1x512_S512x4_S1x4_1_0_0_1_n_n : DotDims S1x512 S512x4 S1x4 where
  lhsContracting := [1]
  rhsContracting := [0]
  lhsNonContracting := [0]
  rhsNonContracting := [1]
  lhsBatch := []
  rhsBatch := []
  wf := dot_S1x512_S512x4_S1x4_1_0_0_1_n_n_wf
def dot_S4096x128_S128x4_S4096x4_1_0_0_1_n_n : DotDims S4096x128 S128x4 S4096x4 where
  lhsContracting := [1]
  rhsContracting := [0]
  lhsNonContracting := [0]
  rhsNonContracting := [1]
  lhsBatch := []
  rhsBatch := []
  wf := dot_S4096x128_S128x4_S4096x4_1_0_0_1_n_n_wf
def dot_S4x4096_S4096x128_S4x128_1_0_0_1_n_n : DotDims S4x4096 S4096x128 S4x128 where
  lhsContracting := [1]
  rhsContracting := [0]
  lhsNonContracting := [0]
  rhsNonContracting := [1]
  lhsBatch := []
  rhsBatch := []
  wf := dot_S4x4096_S4096x128_S4x128_1_0_0_1_n_n_wf
def dot_S4x128_S128x512_S4x512_1_0_0_1_n_n : DotDims S4x128 S128x512 S4x512 where
  lhsContracting := [1]
  rhsContracting := [0]
  lhsNonContracting := [0]
  rhsNonContracting := [1]
  lhsBatch := []
  rhsBatch := []
  wf := dot_S4x128_S128x512_S4x512_1_0_0_1_n_n_wf

abbrev win0_0 : Pipeline.Window sig grid0 :=
  Pipeline.Window.ofSpec (Memref.whole main_arg1) S16.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S512x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v12) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S16 : Shape := ⟨1, ![16]⟩
abbrev S128x512 : Shape := ⟨2, ![128, 512]⟩
abbrev S1x4x128 : Shape := ⟨3, ![1, 4, 128]⟩
abbrev S512 : Shape := ⟨1, ![512]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S65536x128 : Shape := ⟨2, ![65536, 128]⟩
abbrev S65536x512 : Shape := ⟨2, ![65536, 512]⟩
abbrev S1x512 : Shape := ⟨2, ![1, 512]⟩
abbrev S16x4096x4x128 : Shape := ⟨4, ![16, 4096, 4, 128]⟩
abbrev S1x1x4x128 : Shape := ⟨4, ![1, 1, 4, 128]⟩
abbrev S_ : Shape := ⟨0, ![]⟩
abbrev S16x4096x4 : Shape := ⟨3, ![16, 4096, 4]⟩
abbrev S16x4096x1 : Shape := ⟨3, ![16, 4096, 1]⟩
abbrev S16x4 : Shape := ⟨2, ![16, 4]⟩
abbrev S16x1x4 : Shape := ⟨3, ![16, 1, 4]⟩
abbrev S65536 : Shape := ⟨1, ![65536]⟩
abbrev S65536x4 : Shape := ⟨2, ![65536, 4]⟩
abbrev S65536x1 : Shape := ⟨2, ![65536, 1]⟩
abbrev S16x4096x4x1 : Shape := ⟨4, ![16, 4096, 4, 1]⟩
abbrev S65536x4x128 : Shape := ⟨3, ![65536, 4, 128]⟩
abbrev S16x4x128 : Shape := ⟨3, ![16, 4, 128]⟩
abbrev S16x512 : Shape := ⟨2, ![16, 512]⟩

abbrev nBuf : Space → Nat
  | .hbm => 68
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16, .i32⟩
  | .hbm, ⟨2, _⟩ => ⟨S128x512, .f32⟩
  | .hbm, ⟨3, _⟩ => ⟨S1x4x128, .f32⟩
  | .hbm, ⟨4, _⟩ => ⟨S512, .f32⟩
  | .hbm, ⟨5, _⟩ => ⟨S4096, .i32⟩
  | .hbm, ⟨6, _⟩ => ⟨S1x4096, .i32⟩
  | .hbm, ⟨7, _⟩ => ⟨S16x1, .i32⟩
  | .hbm, ⟨8, _⟩ => ⟨S16x4096, .i32⟩
  | .hbm, ⟨9, _⟩ => ⟨S16x4096, .i32⟩
  | .hbm, ⟨10, _⟩ => ⟨S16x4096, .i1⟩
  | .hbm, ⟨11, _⟩ => ⟨S65536x128, .f32⟩
  | .hbm, ⟨12, _⟩ => ⟨S65536x512, .f32⟩
  | .hbm, ⟨13, _⟩ => ⟨S1x512, .f32⟩
  | .hbm, ⟨14, _⟩ => ⟨S65536x512, .f32⟩
  | .hbm, ⟨15, _⟩ => ⟨S65536x512, .f32⟩
  | .hbm, ⟨16, _⟩ => ⟨S16x4096x4x128, .f32⟩
  | .hbm, ⟨17, _⟩ => ⟨S1x1x4x128, .f32⟩
  | .hbm, ⟨18, _⟩ => ⟨S16x4096x4x128, .f32⟩
  | .hbm, ⟨19, _⟩ => ⟨S16x4096x4x128, .f32⟩
  | .hbm, ⟨20, _⟩ => ⟨S_, .f32⟩
  | .hbm, ⟨21, _⟩ => ⟨S16x4096x4, .f32⟩
  | .hbm, ⟨22, _⟩ => ⟨S_, .f32⟩
  | .hbm, ⟨23, _⟩ => ⟨S_, .f32⟩
  | .hbm, ⟨24, _⟩ => ⟨S16x4096x4, .f32⟩
  | .hbm, ⟨25, _⟩ => ⟨S16x4096x4, .i1⟩
  | .hbm, ⟨26, _⟩ => ⟨S_, .f32⟩
  | .hbm, ⟨27, _⟩ => ⟨S16x4096x4, .f32⟩
  | .hbm, ⟨28, _⟩ => ⟨S16x4096x4, .f32⟩
  | .hbm, ⟨29, _⟩ => ⟨S16x4096x4, .f32⟩
  | .hbm, ⟨30, _⟩ => ⟨S16x4096x1, .i1⟩
  | .hbm, ⟨31, _⟩ => ⟨S_, .f32⟩
  | .hbm, ⟨32, _⟩ => ⟨S_, .f32⟩
  | .hbm, ⟨33, _⟩ => ⟨S16x4096x4, .i1⟩
  | .hbm, ⟨34, _⟩ => ⟨S16x4096x4, .f32⟩
  | .hbm, ⟨35, _⟩ => ⟨S16x4096x4, .f32⟩
  | .hbm, ⟨36, _⟩ => ⟨S_, .f32⟩
  | .hbm, ⟨37, _⟩ => ⟨S16x4, .f32⟩
  | .hbm, ⟨38, _⟩ => ⟨S16x1x4, .f32⟩
  | .hbm, ⟨39, _⟩ => ⟨S16x4096x4, .f32⟩
  | .hbm, ⟨40, _⟩ => ⟨S16x4096x4, .f32⟩
  | .hbm, ⟨41, _⟩ => ⟨S16x4096x1, .i1⟩
  | .hbm, ⟨42, _⟩ => ⟨S16x4096x4, .f32⟩
  | .hbm, ⟨43, _⟩ => ⟨S_, .f32⟩
  | .hbm, ⟨44, _⟩ => ⟨S_, .f32⟩
  | .hbm, ⟨45, _⟩ => ⟨S16x4096x4, .i1⟩
  | .hbm, ⟨46, _⟩ => ⟨S16x4096x4, .f32⟩
  | .hbm, ⟨47, _⟩ => ⟨S16x4096x4, .f32⟩
  | .hbm, ⟨48, _⟩ => ⟨S16, .i32⟩
  | .hbm, ⟨49, _⟩ => ⟨S16x4096, .i32⟩
  | .hbm, ⟨50, _⟩ => ⟨S65536, .i32⟩
  | .hbm, ⟨51, _⟩ => ⟨S65536x4, .f32⟩
  | .hbm, ⟨52, _⟩ => ⟨S_, .f32⟩
  | .hbm, ⟨53, _⟩ => ⟨S16x4, .f32⟩
  | .hbm, ⟨54, _⟩ => ⟨S65536x1, .i32⟩
  | .hbm, ⟨55, _⟩ => ⟨S16x4, .f32⟩
  | .hbm, ⟨56, _⟩ => ⟨S16x1x4, .f32⟩
  | .hbm, ⟨57, _⟩ => ⟨S16x4096x4, .f32⟩
  | .hbm, ⟨58, _⟩ => ⟨S16x4096x4, .f32⟩
  | .hbm, ⟨59, _⟩ => ⟨S16x4096x4x1, .f32⟩
  | .hbm, ⟨60, _⟩ => ⟨S16x4096x4x128, .f32⟩
  | .hbm, ⟨61, _⟩ => ⟨S16x4096x4x128, .f32⟩
  | .hbm, ⟨62, _⟩ => ⟨S65536x4x128, .f32⟩
  | .hbm, ⟨63, _⟩ => ⟨S_, .f32⟩
  | .hbm, ⟨64, _⟩ => ⟨S16x4x128, .f32⟩
  | .hbm, ⟨65, _⟩ => ⟨S65536x1, .i32⟩
  | .hbm, ⟨66, _⟩ => ⟨S16x4x128, .f32⟩
  | .hbm, ⟨67, _⟩ => ⟨S16x512, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_cst_0 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  shapeCasts_S16x4096x128_S65536x128 : S16x4096x128.ShapeCasts S65536x128
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S65536x512_S16x4096x4x128 : S65536x512.ShapeCasts S16x4096x4x128
  bcast_S1x4x128_S1x1x4x128_1_2_3 : S1x4x128.BroadcastsInDim S1x1x4x128 (![1, 2, 3] : Fin 3 → Fin S1x1x4x128.rank)
  bcast_S1x1x4x128_S16x4096x4x128_0_1_2_3 : S1x1x4x128.BroadcastsInDim S16x4096x4x128 (![0, 1, 2, 3] : Fin 4 → Fin S16x4096x4x128.rank)
  reducesTo_S16x4096x4x128_S16x4096x4_d3 : S16x4096x4x128.ReducesTo [3] S16x4096x4
  h_S_ : 0 < S_.numel
  bcast_S_S16x4096x4 : S_.BroadcastsInDim S16x4096x4 (![] : Fin 0 → Fin S16x4096x4.rank)
  bcast_S16x4096_S16x4096x1_0_1 : S16x4096.BroadcastsInDim S16x4096x1 (![0, 1] : Fin 2 → Fin S16x4096x1.rank)
  bcast_S16x4096x1_S16x4096x4_0_1_2 : S16x4096x1.BroadcastsInDim S16x4096x4 (![0, 1, 2] : Fin 3 → Fin S16x4096x4.rank)
  reducesTo_S16x4096x4_S16x4_d1 : S16x4096x4.ReducesTo [1] S16x4
  bcast_S16x4_S16x1x4_0_2 : S16x4.BroadcastsInDim S16x1x4 (![0, 2] : Fin 2 → Fin S16x1x4.rank)
  bcast_S16x1x4_S16x4096x4_0_1_2 : S16x1x4.BroadcastsInDim S16x4096x4 (![0, 1, 2] : Fin 3 → Fin S16x4096x4.rank)
  bcast_S16_S16x4096_0 : S16.BroadcastsInDim S16x4096 (![0] : Fin 1 → Fin S16x4096.rank)
  shapeCasts_S16x4096_S65536 : S16x4096.ShapeCasts S65536
  shapeCasts_S16x4096x4_S65536x4 : S16x4096x4.ShapeCasts S65536x4
  bcast_S_S16x4 : S_.BroadcastsInDim S16x4 (![] : Fin 0 → Fin S16x4.rank)
  bcast_S65536_S65536x1_0 : S65536.BroadcastsInDim S65536x1 (![0] : Fin 1 → Fin S65536x1.rank)
  bcast_S16x4096x4_S16x4096x4x1_0_1_2 : S16x4096x4.BroadcastsInDim S16x4096x4x1 (![0, 1, 2] : Fin 3 → Fin S16x4096x4x1.rank)
  bcast_S16x4096x4x1_S16x4096x4x128_0_1_2_3 : S16x4096x4x1.BroadcastsInDim S16x4096x4x128 (![0, 1, 2, 3] : Fin 4 → Fin S16x4096x4x128.rank)
  shapeCasts_S16x4096x4x128_S65536x4x128 : S16x4096x4x128.ShapeCasts S65536x4x128
  bcast_S_S16x4x128 : S_.BroadcastsInDim S16x4x128 (![] : Fin 0 → Fin S16x4x128.rank)
  shapeCasts_S16x4x128_S16x512 : S16x4x128.ShapeCasts S16x512
  dot_S65536x128_S128x512_S65536x512_1_0_0_1_n_n_wf : DotDims.WF S65536x128 S128x512 S65536x512 [1] [0] [0] [1] [] []
  scatter_S16x4_S65536x1_S65536x4_1_0_0_1_wf : ScatterDims.WF S16x4 S65536x1 S65536x4 [1] [0] [0] 1
  scatter_S16x4x128_S65536x1_S65536x4x128_12_0_0_1_wf : ScatterDims.WF S16x4x128 S65536x1 S65536x4x128 [1, 2] [0] [0] 1

variable [Facts₀]

def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf
def scatter_S16x4_S65536x1_S65536x4_1_0_0_1 : ScatterDims S16x4 S65536x1 S65536x4 where
  updateWindowDims := [1]
  insertedWindowDims := [0]
  scatterDimsToOperandDims := [0]
  indexVectorDim := 1
  wf := scatter_S16x4_S65536x1_S65536x4_1_0_0_1_wf
def scatter_S16x4x128_S65536x1_S65536x4x128_12_0_0_1 : ScatterDims S16x4x128 S65536x1 S65536x4x128 where
  updateWindowDims := [1, 2]
  insertedWindowDims := [0]
  scatterDimsToOperandDims := [0]
  indexVectorDim := 1
  wf := scatter_S16x4x128_S65536x1_S65536x4x128_12_0_0_1_wf

class Facts : Prop extends Facts₀ where

variable [Facts]
-- ==== Proof.KernelPieces.lean ====
/-
  What one grid point leaves in its output block.

  The body of the kernel loads the whole of its five input blocks (the graph's size word among the sixteen, the
  graph's 4096 × 128 rows, the weight matrix, the block-diagonal tuning matrix, the bias row) and stores ONE value
  over the whole 1 × 1 × 512 output block.  So after the body the output block holds that value computed from the
  input blocks, whatever it held before.
-/
import proofs.«160056_g68547678044319_fold_wed_c4_656_5_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The size word the body reads at grid coordinates `i`: the one element of the sixteen at the point's own offset. -/
def sizeWord (i : grid0.Coords) (x0 : Vec F S16 .i32) : Elt F .i32 :=
  View.ld x0 (Rect.unit (s := S16) (k0_off1 i) S1.size (k0_off1_inb i)) (Shape.Idx.first (numel1_S1.symm ▸ Nat.one_pos))

/-- The value the body stores, as a function of the input blocks. -/
def stored (i : grid0.Coords) (x0 : Vec F S16 .i32) (x1 : Vec F S1x4096x128 .f32) (x2 : Vec F S128x512 .f32) (x3 : Vec F S512x4 .f32)
    (x4 : Vec F S1x512 .f32) : Vec F S1x1x512 .f32 :=
  k0_pay1 (k0_pay2 x4) (k0_pay3 (sizeWord i x0) x1 x2 x3 x4) (iota .tc S4x512 32 [1] iota_S4x512_d1_w32) 128#32 k0_pay4

/-- The body's one store covers the output block: the block ends at the stored value of the input blocks. -/
theorem out_eq_stored (c : Dev nD) (i : grid0.Coords) (arg1 : Memref sig .tc .smem S16 .i32) (harg1 : arg1.IsWhole) (arg2 : Memref sig .tc .vmem S1x4096x128 .f32) (harg2 : arg2.IsWhole) (arg3 : Memref sig .tc .vmem S128x512 .f32) (harg3 : arg3.IsWhole) (arg4 : Memref sig .tc .vmem S512x4 .f32) (harg4 : arg4.IsWhole) (arg5 : Memref sig .tc .vmem S1x512 .f32) (harg5 : arg5.IsWhole) (arg6 : Memref sig .tc .vmem S1x1x512 .f32) (harg6 : arg6.IsWhole)
    (x0 : Vec F S16 .i32) (x1 : Vec F S1x4096x128 .f32) (x2 : Vec F S128x512 .f32) (x3 : Vec F S512x4 .f32) (x4 : Vec F S1x512 .f32) :
    out0_A_5 c i arg1 harg1 arg2 harg2 arg3 harg3 arg4 harg4 arg5 harg5 arg6 harg6 x0 x1 x2 x3 x4 = stored i x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero hz3]
  simp only [View.readAt_eq_ld, harg1.read_unread, harg2.read_unread, harg3.read_unread, harg4.read_unread, harg5.read_unread,
    View.ld_unit_zero (S := S1x4096x128) hz3, View.ld_unit_zero (S := S128x512) hz2, View.ld_unit_zero (S := S512x4) hz2,
    View.ld_unit_zero (S := S1x512) hz2]
  rfl

/-- The size word read at grid coordinates `i` is the word of graph `i 0`. -/
theorem sizeWord_eq (i : grid0.Coords) (x0 : Vec F S16 .i32) : sizeWord i x0 = x0 (ix1 (i 0)) := by
  unfold sizeWord
  show x0 _ = x0 _
  congr 1
  funext a
  apply Fin.ext
  match a with
  | ⟨0, _⟩ =>
    show k0_off1 i 0 + 1 * 0 = (i 0).val
    have h := congrFun (k0_off1_eq i) 0
    rw [h]; simp

variable (m : (ℓ : Loc nD τ sig) → Buf (Elt F) ℓ)

/-- After point `t` the output block holds the stored value of the point's input blocks. -/
theorem outsAt_eq (c : Dev nD) (t : Fin cfg0.N) :
    outsAt0 m c t = stored (grid0.coords t) (iblk m c 0 t) (iblk m c 1 t) (iblk m c 2 t) (iblk m c 3 t) (iblk m c 4 t) := by
  unfold outsAt0
  exact out_eq_stored c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)

end Cert.KernelIdeal.KValue

end
-- ==== Proof.KernelHostTerm.lean ====
/-
  What the kernel's host program prepares before the grid starts: the block-diagonal arrangement of the tuning vectors
  (row `k` of the 512 × 4 matrix holds the tuning entry of lane `k` in the column of the lane's head, zero elsewhere)
  and the bias laid out as one row.
-/
import proofs.«160056_g68547678044319_fold_wed_c4_656_5_alg».proof.Proof.Gen.KernelIdeal

noncomputable section

namespace Cert.KernelIdeal.HostTerm

open Cert.KernelIdeal Cert.KernelIdeal.Gen Idealize.ShloMosaic

variable {F : FTy → Type} [FloatOps F]

/-- The lane numbers 0 … 511 as a column of 32-bit words. -/
def laneColumn : IVec S512x1 32 := broadcastInDim S512x1 ![0] bcast_S512_S512x1_0 (iotaInDim S512 32 0)

/-- The divisor 128 as a 0-dimensional word. -/
def width : IVec S_ 32 := id (constantI S_ 32 128#32)

/-- The lane numbers divided by 128, rounding toward minus infinity: the truncated quotient, lowered by one where the
    signs differ and the remainder is not zero. -/
def laneHead : IVec S512x1 32 :=
  select
    (andi (cmpi .ne (signi laneColumn) (broadcastInDim S512x1 ![] bcast_S_S512x1 (signi width)))
      (cmpi .ne (Host.remsi laneColumn (broadcastInDim S512x1 ![] bcast_S_S512x1 width)) (broadcastInDim S512x1 ![] bcast_S_S512x1 (constantI S_ 32 0#32))))
    (subi (Host.divsi laneColumn (broadcastInDim S512x1 ![] bcast_S_S512x1 width)) (broadcastInDim S512x1 ![] bcast_S_S512x1 (constantI S_ 32 1#32)))
    (Host.divsi laneColumn (broadcastInDim S512x1 ![] bcast_S_S512x1 width))

/-- Where lane `k`'s head is column `h`. -/
def onDiagonal : IVec S512x4 1 :=
  cmpi .eq (broadcastInDim S512x4 ![0, 1] bcast_S512x1_S512x4_0_1 laneHead)
    (broadcastInDim S512x4 ![0, 1] bcast_S1x4_S512x4_0_1 (broadcastInDim S1x4 ![1] bcast_S4_S1x4_1 (iotaInDim S4 32 0)))

/-- The block-diagonal arrangement of the tuning vectors. -/
def tuneMat (a3 : FVec F S1x4x128 .f32) : FVec F S512x4 .f32 :=
  select onDiagonal
    (broadcastInDim S512x4 ![0, 1] bcast_S512x1_S512x4_0_1 (broadcastInDim S512x1 ![0] bcast_S512_S512x1_0 (shapeCast S512 a3 shapeCasts_S1x4x128_S512)))
    (broadcastInDim S512x4 ![] bcast_S_S512x4 (id (constant S_ .f32 0x00000000#32)))

/-- The bias as one row. -/
def biasRow (a4 : FVec F S512 .f32) : FVec F S1x512 .f32 := shapeCast S1x512 a4 shapeCasts_S512_S1x512

end Cert.KernelIdeal.HostTerm

end
-- ==== Proof.KernelBlocks.lean ====
/-
  The input blocks of one grid point, read at an index.

  Point `t` of the sixteen sees: all sixteen size words, the 4096 × 128 rows of graph `t`, the whole weight matrix, the
  whole block-diagonal tuning matrix, and the bias row.  Each block's entry is the array's entry at the block's offset
  plus the coordinate inside the block; only the rows' block moves with the point.
-/
import proofs.«160056_g68547678044319_fold_wed_c4_656_5_alg».proof.Proof.Gen.KernelIdeal.Frame
import proofs.«160056_g68547678044319_fold_wed_c4_656_5_alg».proof.Proof.KernelHostTerm
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem

namespace Cert.KernelIdeal.KValue

open Cert.KernelIdeal Cert.KernelIdeal.Gen Cert.KernelIdeal.HostTerm Idealize.ShloMosaic.ValueIdx

variable {F : FTy → Type} [FloatOps F]
variable (m : (ℓ : Loc nD τ sig) → Buf (Elt F) ℓ)

/-- The graph a grid point works on. -/
def graphOf (t : Fin cfg0.N) : Fin 16 := ⟨t.val, by have h : cfg0.N = 16 := N_0; have := t.isLt; omega⟩

/-- The windows' block indices at every point: only the rows' window and the output's move, along their first axis,
    with the point; and the point's grid coordinate is its number. -/
theorem block_indices : ∀ t : Fin cfg0.N,
    win0_0.index t (0 : Fin 1) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ ((grid0.coords t) 0).val = t.val :=
  (by decide +kernel : ∀ t : Fin grid0.N, _)

/-- The size words' block is all sixteen words. -/
theorem sizes_apply (c : Dev nD) (t : Fin cfg0.N) (b : Fin 16) : iblk m c 0 t (ix1 b) = V m c main_arg1 (ix1 b) := by
  obtain ⟨e0, -⟩ := block_indices t
  show V m c main_arg1 (((cfg0.win 0).blk t).view.emb (ix1 b)) = V m c main_arg1 (ix1 b)
  congr 1
  funext a; apply Fin.ext
  match a with
  | ⟨0, _⟩ => show win0_0.index t (0 : Fin 1) * 16 + 1 * b.val = b.val; omega

/-- The rows' block at point `t` is graph `t`'s rows. -/
theorem rows_apply (c : Dev nD) (t : Fin cfg0.N) (s : Fin 4096) (cc : Fin 128) :
    iblk m c 1 t (ix3 (0 : Fin 1) s cc) = V m c main_arg0 (ix3 (graphOf t) s cc) := by
  obtain ⟨-, e0, e1, e2, -⟩ := block_indices t
  show V m c main_arg0 (((cfg0.win 1).blk t).view.emb (ix3 (0 : Fin 1) s cc)) = V m c main_arg0 (ix3 (graphOf t) s cc)
  congr 1
  funext a; apply Fin.ext
  match a with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 128 + 1 * cc.val = cc.val; omega

/-- The weight block is the whole matrix. -/
theorem weight_apply (c : Dev nD) (t : Fin cfg0.N) (cc : Fin 128) (k : Fin 512) :
    iblk m c 2 t (ix2 cc k) = V m c main_arg2 (ix2 cc k) := by
  obtain ⟨-, -, -, -, e0, e1, -⟩ := block_indices t
  show V m c main_arg2 (((cfg0.win 2).blk t).view.emb (ix2 cc k)) = V m c main_arg2 (ix2 cc k)
  congr 1
  funext a; apply Fin.ext
  match a with
  | ⟨0, _⟩ => show win0_2.index t (0 : Fin 2) * 128 + 1 * cc.val = cc.val; omega
  | ⟨1, _⟩ => show win0_2.index t (1 : Fin 2) * 512 + 1 * k.val = k.val; omega

/-- The tuning block is the whole block-diagonal matrix. -/
theorem tune_apply (c : Dev nD) (t : Fin cfg0.N) (k : Fin 512) (h : Fin 4) :
    iblk m c 3 t (ix2 k h) = V m c main_call0_v10 (ix2 k h) := by
  obtain ⟨-, -, -, -, -, -, e0, e1, -⟩ := block_indices t
  show V m c main_call0_v10 (((cfg0.win 3).blk t).view.emb (ix2 k h)) = V m c main_call0_v10 (ix2 k h)
  congr 1
  funext a; apply Fin.ext
  match a with
  | ⟨0, _⟩ => show win0_3.index t (0 : Fin 2) * 512 + 1 * k.val = k.val; omega
  | ⟨1, _⟩ => show win0_3.index t (1 : Fin 2) * 4 + 1 * h.val = h.val; omega

/-- The bias block is the whole bias row. -/
theorem bias_apply (c : Dev nD) (t : Fin cfg0.N) (k : Fin 512) :
    iblk m c 4 t (ix2 (0 : Fin 1) k) = V m c main_call0_v11 (ix2 (0 : Fin 1) k) := by
  obtain ⟨-, -, -, -, -, -, -, -, e0, e1, -⟩ := block_indices t
  show V m c main_call0_v11 (((cfg0.win 4).blk t).view.emb (ix2 (0 : Fin 1) k)) = V m c main_call0_v11 (ix2 (0 : Fin 1) k)
  congr 1
  funext a; apply Fin.ext
  match a with
  | ⟨0, _⟩ => show win0_4.index t (0 : Fin 2) * 1 + 1 * 0 = 0; omega
  | ⟨1, _⟩ => show win0_4.index t (1 : Fin 2) * 512 + 1 * k.val = k.val; omega

/-- The grid coordinate of point `t` is its graph. -/
theorem coord_eq (t : Fin cfg0.N) : (grid0.coords t) 0 = graphOf t := by
  obtain ⟨-, -, -, -, -, -, -, -, -, -, -, -, -, e⟩ := block_indices t
  exact Fin.ext e

/-- When the grid starts the bias window's array holds the bias laid out as one row. -/
theorem entry_bias (c : Dev nD) : (V m c main_call0_v11 : S1x512.Idx → Elt F .f32) = biasRow (m ((c : Thread nD τ).loc main_arg4)) := by
  show StableHlo.after (List.flatten [hostOps0]) (fun b => m (c, b)) (Proc.devRef .tc main_call0_v11) = _
  simp only [hostOps0, List.flatten_cons, List.flatten_nil, List.append_nil, List.cons_append, List.nil_append]
  after_results
  rfl

end Cert.KernelIdeal.KValue

end
-- ==== Proof.KernelEntry.lean ====
/-
  What the tuning window's array holds when the grid starts.

  Before the grid the kernel's program runs a straight line of tensor operations on the host side: it numbers the 512
  lanes, divides each number by 128 rounding toward minus infinity (the truncated quotient, corrected where the signs
  differ and the remainder is not zero), compares the quotient with the column number, and selects, for lane `k` and
  column `h`, the tuning entry of lane `k` where `h` is the lane's head and zero elsewhere.  Each operation writes a
  buffer of its own, so the contents of the last buffer after the line is the composition of those operations applied
  to the contents the tuning argument had at the start: the block-diagonal arrangement of the tuning vectors.
-/
import proofs.«160056_g68547678044319_fold_wed_c4_656_5_alg».proof.Proof.Gen.KernelIdeal.Frame
import proofs.«160056_g68547678044319_fold_wed_c4_656_5_alg».proof.Proof.KernelHostTerm
import Idealize.ShloMosaic.Lib.StableHlo.Run
import Idealize.ShloMosaic.Lib.Tactic

noncomputable section

namespace Cert.KernelIdeal.KValue

open Cert.KernelIdeal Cert.KernelIdeal.Gen Cert.KernelIdeal.HostTerm Idealize.ShloMosaic Idealize.ShloMosaic.TcCoe Idealize.SL.Sem

/-- When the grid starts, the tuning window's array is the block-diagonal arrangement of the tuning argument as it was
    at the start: the fold of the host operations read at that buffer, each operation's result at its own buffer being
    its function of its operands' contents and every other buffer keeping what it held. -/
theorem entry_tune {F : FTy → Type} [FloatOps F] (m : (ℓ : Loc nD τ sig) → Buf (Elt F) ℓ) (c : Dev nD) :
    (V m c main_call0_v10 : S512x4.Idx → Elt F .f32) = tuneMat (m ((c : Thread nD τ).loc main_arg3)) := by
  show StableHlo.after (List.flatten [hostOps0]) (fun b => m (c, b)) (Proc.devRef .tc main_call0_v10) = _
  simp only [hostOps0, List.flatten_cons, List.flatten_nil, List.append_nil, List.cons_append, List.nil_append]
  after_results_simp
  rfl

end Cert.KernelIdeal.KValue

end
-- ==== Proof.Spec.lean ====
/-
  Masked soft-max pooling of one graph, written twice.

  One graph has 4096 rows `x s : Fin 128 → EReal`, of which the rows with `valid s` count.  With a weight matrix
  `w : 128 × 512`, a bias `bi : 512`, four tuning vectors `tw h : 128` and a slope `l`, write lane `k = 128·h + c'`
  (head `h`, feature `c'`).

  * `pooledFirst`: the score of row `s` for head `h` is taken through the folded matrix `w · T` (`T` the block-diagonal
    arrangement of `tw`), the rows are pooled with the un-normalised soft-max weights, the pooled row is divided by the
    weights' total and only then projected by `w`; the bias is added once at the end.
  * `projectedFirst`: every row is first projected and biased (`x s · w + bi`), scored against `tw h`, and the
    projected rows are summed with the normalised weights.

  Both are the same function when every entry is a real number and at least one row is valid: the normalised weights sum
  to one, which is what lets the bias leave the sum.  (Module Algebra proves it.)
-/
import Idealize.ShloMosaic.PureOps.Ideal

noncomputable section

namespace Cert.Pooling

open Idealize.ShloMosaic

/-- Lane `128·h + c'` of head `h`, feature `c'`. -/
def lane (h : Fin 4) (c' : Fin 128) : Fin 512 := ⟨128 * h.val + c'.val, by omega⟩

/-- The head of a lane. -/
def headOf (k : Fin 512) : Fin 4 := ⟨k.val / 128, by omega⟩

/-- The feature of a lane inside its head. -/
def featOf (k : Fin 512) : Fin 128 := ⟨k.val % 128, by omega⟩

theorem lane_headOf_featOf (k : Fin 512) : lane (headOf k) (featOf k) = k := by
  apply Fin.ext; simp only [lane, headOf, featOf]; omega

theorem headOf_lane (h : Fin 4) (c' : Fin 128) : headOf (lane h c') = h := by
  apply Fin.ext; simp only [lane, headOf]; omega

theorem featOf_lane (h : Fin 4) (c' : Fin 128) : featOf (lane h c') = c' := by
  apply Fin.ext; simp only [lane, featOf]; omega

/-- Row `s` of a graph counts when its number is below the graph's size word, read as a signed 32-bit integer. -/
def validRow (g : BitVec 32) (s : Fin 4096) : Prop := (BitVec.ofNat 32 s.val).slt g = true

instance (g : BitVec 32) : DecidablePred (validRow g) := fun s => inferInstanceAs (Decidable ((BitVec.ofNat 32 s.val).slt g = true))

/-- A graph of size at least one has a row that counts: row 0. -/
theorem validRow_zero {g : BitVec 32} (hg : (1#32).sle g = true) : validRow g 0 := by
  unfold validRow
  show (BitVec.ofNat 32 0).slt g = true
  simp only [BitVec.slt, BitVec.sle, decide_eq_true_eq] at hg ⊢
  have : (1#32 : BitVec 32).toInt = 1 := by decide
  have h0 : (BitVec.ofNat 32 0).toInt = 0 := by decide
  omega

variable (x : Fin 4096 → Fin 128 → EReal) (w : Fin 128 → Fin 512 → EReal) (tw : Fin 4 → Fin 128 → EReal)
  (bi : Fin 512 → EReal) (l : EReal) (valid : Fin 4096 → Prop) [DecidablePred valid]

/-! ## Pooled first, projected last -/

/-- The block-diagonal arrangement of the tuning vectors: row `k` holds `tw (head k) (feature k)` in column `head k`. -/
def tmat (k : Fin 512) (h : Fin 4) : EReal := if headOf k = h then tw (headOf k) (featOf k) else 0

/-- The weight matrix folded with the tuning vectors. -/
def foldedW (c : Fin 128) (h : Fin 4) : EReal := ∑ k : Fin 512, w c k * tmat tw k h

/-- The bias folded with the tuning vectors. -/
def foldedB (h : Fin 4) : EReal := ∑ k : Fin 512, bi k * tmat tw k h

/-- The score of row `s` for head `h`, through the folded matrix. -/
def scoreP (s : Fin 4096) (h : Fin 4) : EReal := (∑ c : Fin 128, x s c * foldedW w tw c h) + foldedB tw bi h

/-- The leaky rectifier, the identity on the positive numbers. -/
def leakyPos (a : EReal) : EReal := if 0 < a then a else l * a

/-- The rectified score, `-∞` on the rows that do not count. -/
def maskedP (s : Fin 4096) (h : Fin 4) : EReal := if valid s then leakyPos l (scoreP x w tw bi s h) else ⊥

/-- The largest rectified score of head `h`. -/
def maxP (h : Fin 4) : EReal := (Finset.univ : Finset (Fin 4096)).fold max ⊥ (fun s => maskedP x w tw bi l valid s h)

/-- The un-normalised soft-max weight of row `s` for head `h`. -/
def expP (s : Fin 4096) (h : Fin 4) : EReal := Ideal.exp (maskedP x w tw bi l valid s h - maxP x w tw bi l valid h)

/-- The weights' total. -/
def totalP (h : Fin 4) : EReal := ∑ s : Fin 4096, expP x w tw bi l valid s h

/-- The pooled row of head `h`, normalised. -/
def pooledP (h : Fin 4) (c : Fin 128) : EReal :=
  Ideal.div (∑ s : Fin 4096, expP x w tw bi l valid s h * x s c) (totalP x w tw bi l valid h)

/-- The pooled row of head `h` projected by `w`. -/
def projP (h : Fin 4) (k : Fin 512) : EReal := ∑ c : Fin 128, pooledP x w tw bi l valid h c * w c k

/-- Lane `k` of the result: the projection of the lane's own head, plus the bias. -/
def pooledFirst (k : Fin 512) : EReal :=
  (∑ h : Fin 4, (if headOf k = h then projP x w tw bi l valid h k else 0)) + bi k

/-! ## Projected first, pooled last -/

/-- Row `s` projected and biased. -/
def projR (s : Fin 4096) (k : Fin 512) : EReal := (∑ c : Fin 128, x s c * w c k) + bi k

/-- The score of row `s` for head `h`: the projected row against the head's tuning vector. -/
def scoreR (s : Fin 4096) (h : Fin 4) : EReal := ∑ c' : Fin 128, tw h c' * projR x w bi s (lane h c')

/-- The leaky rectifier, the identity on the non-negative numbers. -/
def leakyNonneg (a : EReal) : EReal := if 0 ≤ a then a else l * a

/-- The rectified score, `-∞` on the rows that do not count. -/
def maskedR (s : Fin 4096) (h : Fin 4) : EReal := if valid s then leakyNonneg l (scoreR x w tw bi s h) else ⊥

/-- The largest rectified score of head `h`. -/
def maxR (h : Fin 4) : EReal := (Finset.univ : Finset (Fin 4096)).fold max ⊥ (fun s => maskedR x w tw bi l valid s h)

/-- The un-normalised soft-max weight of row `s` for head `h`, zero on the rows that do not count. -/
def expR (s : Fin 4096) (h : Fin 4) : EReal :=
  if valid s then Ideal.exp (leakyNonneg l (scoreR x w tw bi s h) - maxR x w tw bi l valid h) else 0

/-- The weights' total. -/
def totalR (h : Fin 4) : EReal := ∑ s : Fin 4096, expR x w tw bi l valid s h

/-- The normalised weight of row `s` for head `h`. -/
def weightR (s : Fin 4096) (h : Fin 4) : EReal := Ideal.div (expR x w tw bi l valid s h) (totalR x w tw bi l valid h)

/-- Head `h`, feature `c'` of the result: the projected rows summed with their weights. -/
def projectedFirst (h : Fin 4) (c' : Fin 128) : EReal :=
  ∑ s : Fin 4096, projR x w bi s (lane h c') * weightR x w tw bi l valid s h

end Cert.Pooling

end
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.KernelHostValue.lean ====
/-
  The kernel's host-prepared arrays read at an index.

  Before the grid starts the host lays the four tuning vectors out as a 512 × 4 matrix: row `k` (a lane) holds, in the
  column of the lane's head `k / 128`, the tuning entry of that head at feature `k % 128`, and zero in the other three
  columns.  The head of a lane is computed on 32-bit words as a floor division by 128 (a truncated signed quotient,
  lowered by one where the signs of dividend and divisor differ and the remainder is not zero); for the lane numbers
  0 … 511, which are not negative, it is the natural-number quotient.  The bias is the same 512 numbers viewed as one row.
-/
import proofs.«160056_g68547678044319_fold_wed_c4_656_5_alg».proof.Proof.KernelHostTerm
import proofs.«160056_g68547678044319_fold_wed_c4_656_5_alg».proof.Proof.Spec
import proofs.«160056_g68547678044319_fold_wed_c4_656_5_alg».proof.Proof.LibHostLayout
import Idealize.ShloMosaic.Lib.IdealHost
import Idealize.ShloMosaic.Lib.Pipeline.Value
import Idealize.ShloMosaic.Lib.ValueIdx
import Idealize.ShloMosaic.PureOps.Ideal.Laws

noncomputable section

namespace Cert.KernelIdeal.HostValue

open Idealize.ShloMosaic Idealize.ShloMosaic.ValueIdx Cert.KernelIdeal Cert.KernelIdeal.Gen Cert.KernelIdeal.HostTerm Cert.Pooling

/-! ## The head of a lane, on words -/

/-- The sign of a word read as a two's-complement integer: 0, -1 or 1. -/
def signWord (x : BitVec 32) : BitVec 32 := if x = 0 then 0 else if x.msb then -1 else 1

/-- Floor division of a word by 128: the truncated signed quotient, lowered by one where the signs of the dividend
    and of 128 differ and the remainder is not zero. -/
def headWord (x : BitVec 32) : BitVec 32 :=
  Scalar.select
    (IntOp.andi (IntOp.cmpi .ne (signWord x) (signWord 128#32)) (IntOp.cmpi .ne (IntOp.remsi .host x 128#32) 0#32))
    (IntOp.subi (IntOp.divsi .host x 128#32) 1#32)
    (IntOp.divsi .host x 128#32)

/-- The lane column at row `k` is the word of `k`. -/
theorem laneColumn_apply (k : Fin 512) (u : Fin 1) : laneColumn (ix2 k u) = BitVec.ofNat 32 k.val := by
  unfold laneColumn
  exact broadcastInDim_vec_col_apply _ _ k u

/-- Every operation in the head's definition acts word by word, and the scalars broadcast along the column are the same
    at every row: the head at row `k` is the word function above at the lane column's entry. -/
theorem laneHead_word (k : Fin 512) : laneHead (ix2 k (0 : Fin 1)) = headWord (laneColumn (ix2 k (0 : Fin 1))) := rfl

/-- For the 512 lane numbers the word computation is the natural-number quotient by 128 (checked lane by lane). -/
theorem headWord_lane : ∀ k : Fin 512, headWord (BitVec.ofNat 32 k.val) = BitVec.ofNat 32 (k.val / 128) := by
  decide +kernel

/-- The head at row `k` is the word of `k / 128`. -/
theorem laneHead_apply (k : Fin 512) : laneHead (ix2 k (0 : Fin 1)) = BitVec.ofNat 32 (k.val / 128) := by
  rw [laneHead_word, laneColumn_apply, headWord_lane]

/-! ## The diagonal mask -/

/-- Comparing the word of a lane's head with the word of a column number is comparing the head with the column. -/
theorem cmp_head : ∀ (k : Fin 512) (h : Fin 4),
    IntOp.cmpi .eq (BitVec.ofNat 32 (k.val / 128)) (BitVec.ofNat 32 h.val) = if headOf k = h then 1#1 else 0#1 := by
  decide +kernel

/-- The mask at `(k, h)` is set exactly when lane `k`'s head is `h`. -/
theorem onDiagonal_apply (k : Fin 512) (h : Fin 4) : onDiagonal (ix2 k h) = if headOf k = h then 1#1 else 0#1 := by
  unfold onDiagonal
  show IntOp.cmpi .eq (broadcastInDim S512x4 ![0, 1] bcast_S512x1_S512x4_0_1 laneHead (ix2 k h))
    (broadcastInDim S512x4 ![0, 1] bcast_S1x4_S512x4_0_1 (broadcastInDim S1x4 ![1] bcast_S4_S1x4_1 (iotaInDim S4 32 0)) (ix2 k h)) = _
  rw [broadcastInDim_col_apply, broadcastInDim_vec_rows_apply, laneHead_apply]
  exact cmp_head k h

/-! ## The two prepared arrays -/

/-- The flattened tuning vectors at lane `k`: head `k / 128`, feature `k % 128`. -/
theorem flat_apply {α : Type} (a3 : S1x4x128.Idx → α) (k : Fin 512) :
    shapeCast S512 a3 shapeCasts_S1x4x128_S512 (ix1 k) = a3 (ix3 (0 : Fin 1) (headOf k) (featOf k)) := by
  refine shapeCast_apply a3 _ (ix1 k) (ix3 (0 : Fin 1) (headOf k) (featOf k)) ?_
  rw [Shape.rowMajor_val_three, Shape.rowMajor_val_one]
  show ((0 : ℕ) * 4 + k.val / 128) * 128 + k.val % 128 = k.val
  omega

theorem tuneMat_apply (a3 : FVec Ideal S1x4x128 .f32) (k : Fin 512) (h : Fin 4) :
    tuneMat (F := Ideal) a3 (ix2 k h) = tmat (fun h c' => a3 (ix3 (0 : Fin 1) h c')) k h := by
  unfold tuneMat
  show Scalar.select (onDiagonal (ix2 k h))
    (broadcastInDim S512x4 ![0, 1] bcast_S512x1_S512x4_0_1
      (broadcastInDim S512x1 ![0] bcast_S512_S512x1_0 (shapeCast S512 a3 shapeCasts_S1x4x128_S512)) (ix2 k h))
    (broadcastInDim S512x4 ![] bcast_S_S512x4 (id (constant (F := Ideal) S_ .f32 0x00000000#32)) (ix2 k h)) = _
  rw [onDiagonal_apply, broadcastInDim_col_apply, broadcastInDim_vec_col_apply, flat_apply, broadcastInDim_scalar_apply]
  show Scalar.select _ _ (Ideal.ofBits .f32 0x00000000#32) = _
  rw [Ideal.ofBits_zero_f32]
  unfold tmat
  by_cases e : headOf k = h
  · rw [if_pos e, if_pos e]; exact select_one _ _
  · rw [if_neg e, if_neg e]; exact select_zero _ _

theorem biasRow_apply (a4 : FVec Ideal S512 .f32) (k : Fin 512) : biasRow (F := Ideal) a4 (ix2 (0 : Fin 1) k) = a4 (ix1 k) := by
  unfold biasRow
  refine shapeCast_apply a4 _ (ix2 (0 : Fin 1) k) (ix1 k) ?_
  rw [Shape.rowMajor_val_one, Shape.rowMajor_val_two]
  show k.val = (0 : ℕ) * 512 + k.val
  omega

end Cert.KernelIdeal.HostValue

end
-- ==== Proof.KernelPayload2.lean ====
/-
  The body's last step read at a lane.  The kernel keeps, of the four heads' projections, the one whose head owns
  the lane: it compares the lane number divided by 128 (rounded down, spelt with a truncating division and a
  correction for operands of opposite signs) with the head number.  For the 512 lanes and 4 heads that occur, the
  comparison holds exactly when the lane's head is that head; this is a finite fact about 32-bit words and is decided.
  Summed over the heads and with the bias added, the stored value at lane `k` follows.
-/
import proofs.«160056_g68547678044319_fold_wed_c4_656_5_alg».proof.Proof.Gen.KernelIdeal.Skeleton
import proofs.«160056_g68547678044319_fold_wed_c4_656_5_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Pooling

/-- The word comparison made at a lane whose number is the word `kw`, for the head whose number is the word `hw`:
    the quotient of `kw` by 128 rounded toward zero, lowered by one when the operands' signs differ and the
    remainder is not zero, compared with `hw`. -/
def headBit (kw hw : BitVec 32) : BitVec 1 :=
  IntOp.cmpi .eq
    (Scalar.select
      (IntOp.andi
        (IntOp.cmpi .ne
          (IntOp.subi ((IntOp.cmpi .sgt kw 0#32).setWidth 32) ((IntOp.cmpi .slt kw 0#32).setWidth 32))
          (Scalar.subi (Scalar.extui (Scalar.cmpi .sgt 128#32 0#32)) (Scalar.extui (Scalar.cmpi .slt 128#32 0#32))))
        (IntOp.cmpi .ne (IntOp.remsi .vector kw 128#32) 0#32))
      (IntOp.subi (IntOp.divsi .vector kw 128#32) 1#32)
      (IntOp.divsi .vector kw 128#32))
    hw

/-- On the lanes and heads that occur the comparison holds exactly when the lane's head is the head. -/
theorem headBit_lane : ∀ (k : Fin 512) (h : Fin 4),
    headBit (BitVec.ofNat 32 k.val) (BitVec.ofNat 32 h.val) = if headOf k = h then 1#1 else 0#1 := by
  decide +kernel

/-- Head `h` put back into lane `k` of the reduced vector is the index `(h, k)`. -/
theorem lift_heads (k : Fin 512) (h : Fin (S4x512.size 0)) :
    reduces_S4x512_S512.lift (ix1 k) h = ix2 (⟨h.val, h.isLt⟩ : Fin 4) k := by
  funext c; apply Fin.ext
  fin_cases c <;> rfl

/-- The stored value at lane `k`: the projection of the lane's own head, plus the bias. -/
theorem pay1_apply (v8 : FVec Ideal S1x512 .f32) (v35 : FVec Ideal S4x512 .f32) (k : Fin 512) :
    k0_pay1 (F := Ideal) v8 v35 (iota .tc S4x512 32 [1] iota_S4x512_d1_w32) 128#32 k0_pay4 (ix3 (0 : Fin 1) (0 : Fin 1) k)
      = (∑ h : Fin 4, (if headOf k = h then v35 (ix2 h k) else 0)) + v8 (ix2 (0 : Fin 1) k) := by
  unfold k0_pay1
  refine (shapeCast_ab_1ab_apply _ _ (0 : Fin 1) (0 : Fin 1) k).trans ?_
  refine (addf_apply _ _ _).trans ?_
  refine congrArg (· + v8 (ix2 (0 : Fin 1) k)) ?_
  refine (shapeCast_a_1a_apply _ _ (0 : Fin 1) k).trans ?_
  refine (Ideal.multiReduction_add_single _ _ reduces_S4x512_S512 _ _ (ix1 k)).trans ?_
  show ∑ h : Fin 4, _ = _
  refine Finset.sum_congr rfl fun h _ => ?_
  rw [lift_heads k h]
  show Scalar.select (headBit (iota .tc S4x512 32 [1] iota_S4x512_d1_w32 (ix2 h k)) (iota .tc S4x512 32 [0] iota_S4x512_d0_w32 (ix2 h k)))
      (v35 (ix2 h k)) (Ideal.ofBits .f32 0x00000000#32) = _
  rw [iota_single_apply, iota_single_apply]
  show Scalar.select (headBit (BitVec.ofNat 32 k.val) (BitVec.ofNat 32 h.val)) _ _ = _
  rw [headBit_lane k h, Ideal.ofBits_zero_f32]
  by_cases hk : headOf k = h
  · rw [if_pos hk, if_pos hk]; exact select_one _ _
  · rw [if_neg hk, if_neg hk]; exact select_zero _ _

end Cert.KernelIdeal.Payload

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.KernelPayload1.lean ====
/-
  The five matrix products of the kernel body, each read at an index: a product into a zero accumulator is,
  at the ideal values, the textbook sum over the contracted index.
-/
import proofs.«160056_g68547678044319_fold_wed_c4_656_5_alg».proof.Proof.Gen.KernelIdeal.Skeleton
import proofs.«160056_g68547678044319_fold_wed_c4_656_5_alg».proof.Proof.Spec
import proofs.«160056_g68547678044319_fold_wed_c4_656_5_alg».proof.Proof.LibDotRows

noncomputable section

open scoped BigOperators

namespace Cert.KernelIdeal.Payload

open Idealize.ShloMosaic Idealize.ShloMosaic.ValueIdx Cert.KernelIdeal Cert.KernelIdeal.Gen Cert.Pooling

/-- The weight matrix times the tuning matrix: `[128,512] · [512,4]`. -/
theorem matmul_fold_apply (l : FVec Ideal S128x512 .f32) (r : FVec Ideal S512x4 .f32) (c : Fin 128) (h : Fin 4) :
    matmul (F := Ideal) dot_S128x512_S512x4_S128x4_1_0_0_1_n_n none l r (constant (F := Ideal) S128x4 .f32 0x00000000#32) (ix2 c h)
      = ∑ k : Fin 512, l (ix2 c k) * r (ix2 k h) :=
  matmul_zero_rows dot_S128x512_S512x4_S128x4_1_0_0_1_n_n none rfl rfl (fun _ _ => rfl) (fun _ _ => rfl) (fun _ _ => rfl) (fun _ _ => rfl) l r c h

/-- The bias row times the tuning matrix: `[1,512] · [512,4]`. -/
theorem matmul_bias_apply (l : FVec Ideal S1x512 .f32) (r : FVec Ideal S512x4 .f32) (u : Fin 1) (h : Fin 4) :
    matmul (F := Ideal) dot_S1x512_S512x4_S1x4_1_0_0_1_n_n none l r (constant (F := Ideal) S1x4 .f32 0x00000000#32) (ix2 u h)
      = ∑ k : Fin 512, l (ix2 u k) * r (ix2 k h) :=
  matmul_zero_rows dot_S1x512_S512x4_S1x4_1_0_0_1_n_n none rfl rfl (fun _ _ => rfl) (fun _ _ => rfl) (fun _ _ => rfl) (fun _ _ => rfl) l r u h

/-- The rows times the folded matrix: `[4096,128] · [128,4]`. -/
theorem matmul_score_apply (l : FVec Ideal S4096x128 .f32) (r : FVec Ideal S128x4 .f32) (s : Fin 4096) (h : Fin 4) :
    matmul (F := Ideal) dot_S4096x128_S128x4_S4096x4_1_0_0_1_n_n none l r (constant (F := Ideal) S4096x4 .f32 0x00000000#32) (ix2 s h)
      = ∑ c : Fin 128, l (ix2 s c) * r (ix2 c h) :=
  matmul_zero_rows dot_S4096x128_S128x4_S4096x4_1_0_0_1_n_n none rfl rfl (fun _ _ => rfl) (fun _ _ => rfl) (fun _ _ => rfl) (fun _ _ => rfl) l r s h

/-- The weights times the rows: `[4,4096] · [4096,128]`. -/
theorem matmul_pool_apply (l : FVec Ideal S4x4096 .f32) (r : FVec Ideal S4096x128 .f32) (h : Fin 4) (c : Fin 128) :
    matmul (F := Ideal) dot_S4x4096_S4096x128_S4x128_1_0_0_1_n_n none l r (constant (F := Ideal) S4x128 .f32 0x00000000#32) (ix2 h c)
      = ∑ s : Fin 4096, l (ix2 h s) * r (ix2 s c) :=
  matmul_zero_rows dot_S4x4096_S4096x128_S4x128_1_0_0_1_n_n none rfl rfl (fun _ _ => rfl) (fun _ _ => rfl) (fun _ _ => rfl) (fun _ _ => rfl) l r h c

/-- The pooled rows times the weight matrix: `[4,128] · [128,512]`. -/
theorem matmul_proj_apply (l : FVec Ideal S4x128 .f32) (r : FVec Ideal S128x512 .f32) (h : Fin 4) (k : Fin 512) :
    matmul (F := Ideal) dot_S4x128_S128x512_S4x512_1_0_0_1_n_n none l r (constant (F := Ideal) S4x512 .f32 0x00000000#32) (ix2 h k)
      = ∑ c : Fin 128, l (ix2 h c) * r (ix2 c k) :=
  matmul_zero_rows dot_S4x128_S128x512_S4x512_1_0_0_1_n_n none rfl rfl (fun _ _ => rfl) (fun _ _ => rfl) (fun _ _ => rfl) (fun _ _ => rfl) l r h k

end Cert.KernelIdeal.Payload

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibRowMax.lean ====
import Idealize.ShloMosaic.Lib.ValueIdx
import Idealize.ShloMosaic.PureOps.Ideal.Laws

/-!
  A ROW MAXIMUM AS A FOLD.

  The host's reduction with a maximum body over the LAST axis of a rank-2 array `x : [N, J]` is, at the ideal
  values and at row `r`, the fold of `max` from the initial value over the row's entries `x (r, c')`, `c' < J`.
  The maximum is commutative and associative, so the order in which the host visits the row does not matter.
  The f32 word `0xFF800000` reads as `-∞`, the least extended real, so a fold of `max` from it is the maximum of
  the entries alone; the f32 word `0x00000000` reads as `0`.
-/

open Idealize.ShloMosaic Idealize.ShloMosaic.ValueIdx

namespace RowMax

variable {N J : Nat}

/-- Dropping the last axis of `[N, J]` leaves `[N]`, a shape with an axis: the host's shape fact gives the
    vector reduction's. -/
theorem reduces_of_reducesTo (h' : (⟨2, ![N, J]⟩ : Shape).ReducesTo [1] (⟨1, ![N]⟩ : Shape)) :
    (⟨2, ![N, J]⟩ : Shape).Reduces [1] (⟨1, ![N]⟩ : Shape) :=
  ⟨h'.1, Nat.one_pos, h'.2⟩

/-- Row `r` with column `k` put back is `(r, k)`. -/
theorem lift_ix2 (h : (⟨2, ![N, J]⟩ : Shape).Reduces [1] (⟨1, ![N]⟩ : Shape)) (r : Fin N)
    (k : Fin ((⟨2, ![N, J]⟩ : Shape).size 1)) :
    h.lift (ix1 r) k = ix2 r (⟨k.val, k.isLt⟩ : Fin J) := by
  funext c; apply Fin.ext
  fin_cases c <;> rfl

/-- THE ROW MAXIMUM AT A ROW: the fold of `max` from the initial value's element over the row's entries. -/
theorem hostReduce_maximumf_rows {φ : FTy} {u : Shape} (x : FVec Ideal ⟨2, ![N, J]⟩ φ) (init : u.Idx → Ideal φ)
    (h' : (⟨2, ![N, J]⟩ : Shape).ReducesTo [1] (⟨1, ![N]⟩ : Shape)) (hu : 0 < u.numel) (r : Fin N) :
    Host.reduce FloatOps.maximumf x init h' hu (ix1 r)
      = (Finset.univ : Finset (Fin J)).fold max (init (Shape.Idx.first hu)) (fun c' => x (ix2 r c')) := by
  have h := reduces_of_reducesTo h'
  rw [Host.reduce_eq_fold_single FloatOps.maximumf x init h' h hu]
  have hf : (x ∘ h.lift (ix1 r)) = fun c' : Fin J => x (ix2 r c') :=
    funext fun k => congrArg x (lift_ix2 h r k)
  exact congrArg (fun f => Finset.fold max (init (Shape.Idx.first hu)) f (Finset.univ : Finset (Fin J))) hf

/-- The same from a constant initial value `v`. -/
theorem hostReduce_maximumf_rows_const {φ : FTy} {u : Shape} (x : FVec Ideal ⟨2, ![N, J]⟩ φ) (v : Ideal φ)
    (h' : (⟨2, ![N, J]⟩ : Shape).ReducesTo [1] (⟨1, ![N]⟩ : Shape)) (hu : 0 < u.numel) (r : Fin N) :
    Host.reduce FloatOps.maximumf x (fun _ : u.Idx => v) h' hu (ix1 r)
      = (Finset.univ : Finset (Fin J)).fold max v (fun c' => x (ix2 r c')) :=
  hostReduce_maximumf_rows x (fun _ : u.Idx => v) h' hu r

/-- The same from a constant array holding the word `b`: the fold starts from what `b` reads as. -/
theorem hostReduce_maximumf_rows_constant {φ : FTy} {u : Shape} (x : FVec Ideal ⟨2, ![N, J]⟩ φ) (b : BitVec φ.bits)
    (h' : (⟨2, ![N, J]⟩ : Shape).ReducesTo [1] (⟨1, ![N]⟩ : Shape)) (hu : 0 < u.numel) (r : Fin N) :
    Host.reduce FloatOps.maximumf x (constant (F := Ideal) u φ b) h' hu (ix1 r)
      = (Finset.univ : Finset (Fin J)).fold max (Ideal.ofBits φ b) (fun c' => x (ix2 r c')) :=
  hostReduce_maximumf_rows x (constant (F := Ideal) u φ b) h' hu r

/-! ## Two f32 words -/

/-- The f32 word `0xFF800000` is `-∞`, the least extended real. -/
theorem ofBits_ninf_f32 : Ideal.ofBits .f32 0xFF800000#32 = ⊥ := by
  simp [Ideal.ofBits, Ideal.ieee]

/-- So the maximum of it with anything is that thing. -/
theorem max_ninf_left (y : EReal) : max (Ideal.ofBits .f32 0xFF800000#32) y = y := by
  rw [ofBits_ninf_f32]; exact max_bot_left y

theorem max_ninf_right (y : EReal) : max y (Ideal.ofBits .f32 0xFF800000#32) = y := by
  rw [ofBits_ninf_f32]; exact max_bot_right y

/-- The f32 word `0x00000000` is `0`. -/
theorem ofBits_zero_f32 : Ideal.ofBits .f32 0x00000000#32 = 0 := Ideal.ofBits_zero_f32

end RowMax
-- ==== Proof.KernelPayload3.lean ====
/-
  The body's projection read at an index.  The body computes, for each of the four heads: the scores of the 4096 rows
  through the folded matrix; the leaky rectifier; `-∞` on the rows past the graph's size; the largest rectified
  score; the exponentials of the differences; their total; the rows pooled with those weights and divided by the
  total; and the pooled row times the weight matrix.  Each stage is named here as a function of the stage before it
  and read at an index; composed, they are the specification's `projP`.
-/
import proofs.«160056_g68547678044319_fold_wed_c4_656_5_alg».proof.Proof.Gen.KernelIdeal.Skeleton
import proofs.«160056_g68547678044319_fold_wed_c4_656_5_alg».proof.Proof.Spec
import proofs.«160056_g68547678044319_fold_wed_c4_656_5_alg».proof.Proof.KernelPayload1
import proofs.«160056_g68547678044319_fold_wed_c4_656_5_alg».proof.Proof.LibLayout
import proofs.«160056_g68547678044319_fold_wed_c4_656_5_alg».proof.Proof.LibRowMax
import Idealize.ShloMosaic.Lib.ValueLayout

noncomputable section

open scoped BigOperators

namespace Cert.KernelIdeal.Payload

open Idealize.ShloMosaic Idealize.ShloMosaic.ValueIdx Cert.KernelIdeal Cert.KernelIdeal.Gen Cert.Pooling

/-! ## The scores -/

/-- The scores: rows times (weights times tuning matrix), plus the bias row times the tuning matrix on every row. -/
def scoreV (v3 : FVec Ideal S4096x128 .f32) (x2 : FVec Ideal S128x512 .f32) (v6 : FVec Ideal S512x4 .f32)
    (b : FVec Ideal S1x512 .f32) : FVec Ideal S4096x4 .f32 :=
  addf
    (matmul (F := Ideal) dot_S4096x128_S128x4_S4096x4_1_0_0_1_n_n none v3
      (matmul (F := Ideal) dot_S128x512_S512x4_S128x4_1_0_0_1_n_n none x2 v6 (constant (F := Ideal) S128x4 .f32 0x00000000#32))
      (constant (F := Ideal) S4096x4 .f32 0x00000000#32))
    (broadcastTo S4096x4
      (matmul (F := Ideal) dot_S1x512_S512x4_S1x4_1_0_0_1_n_n none b v6 (constant (F := Ideal) S1x4 .f32 0x00000000#32))
      broadcasts_S1x4_S4096x4)

theorem scoreV_apply (v3 : FVec Ideal S4096x128 .f32) (x2 : FVec Ideal S128x512 .f32) (v6 : FVec Ideal S512x4 .f32)
    (b : FVec Ideal S1x512 .f32) (s : Fin 4096) (h : Fin 4) :
    scoreV v3 x2 v6 b (ix2 s h)
      = (∑ c : Fin 128, v3 (ix2 s c) * ∑ k : Fin 512, x2 (ix2 c k) * v6 (ix2 k h))
        + ∑ k : Fin 512, b (ix2 (0 : Fin 1) k) * v6 (ix2 k h) := by
  unfold scoreV
  refine (addf_apply _ _ _).trans ?_
  refine congrArg₂ (· + ·) ?_ ?_
  · refine (matmul_score_apply _ _ s h).trans ?_
    exact Finset.sum_congr rfl fun c _ => congrArg (v3 (ix2 s c) * ·) (matmul_fold_apply x2 v6 c h)
  · refine (broadcastTo_1b_ab_apply _ _ s h).trans ?_
    exact matmul_bias_apply b v6 (0 : Fin 1) h

/-! ## The rectifier and the mask -/

/-- A choice by the word of a truth value is the choice by the truth value. -/
theorem select_ofBool {α : Type} (b : Bool) (x y : α) :
    Scalar.select (BitVec.ofBool b) x y = if b = true then x else y := by
  cases b <;> rfl

/-- The scores with heads along the rows, rectified, and `-∞` where the row number is not below `g`. -/
def maskedV (g : BitVec 32) (v13 : FVec Ideal S4096x4 .f32) : FVec Ideal S4x4096 .f32 :=
  select (cmpi .slt (iota .tc S4x4096 32 [1] iota_S4x4096_d1_w32) (broadcast S4x4096 g))
    (select
      (cmpf .ogt (transpose S4x4096 [1, 0] v13 transposes_S4096x4_p1_0_S4x4096)
        (broadcast S4x4096 (Scalar.ofBits .f32 0x00000000#32 : Ideal .f32)))
      (transpose S4x4096 [1, 0] v13 transposes_S4096x4_p1_0_S4x4096)
      (mulf (broadcast S4x4096 (Scalar.ofBits .f32 0x3E4CCCCD#32 : Ideal .f32))
        (transpose S4x4096 [1, 0] v13 transposes_S4096x4_p1_0_S4x4096)))
    (broadcast S4x4096 (Scalar.ofBits .f32 0xFF800000#32 : Ideal .f32))

theorem maskedV_apply (g : BitVec 32) (v13 : FVec Ideal S4096x4 .f32) (h : Fin 4) (s : Fin 4096) :
    maskedV g v13 (ix2 h s)
      = if validRow g s then leakyPos (Ideal.ofBits .f32 0x3E4CCCCD#32) (v13 (ix2 s h)) else ⊥ := by
  show Scalar.select (IntOp.cmpi .slt (iota .tc S4x4096 32 [1] iota_S4x4096_d1_w32 (ix2 h s)) g)
      (Scalar.select
        (Ideal.cmp .ogt (transpose S4x4096 [1, 0] v13 transposes_S4096x4_p1_0_S4x4096 (ix2 h s)) (Ideal.ofBits .f32 0x00000000#32))
        (transpose S4x4096 [1, 0] v13 transposes_S4096x4_p1_0_S4x4096 (ix2 h s))
        (Ideal.ofBits .f32 0x3E4CCCCD#32 * transpose S4x4096 [1, 0] v13 transposes_S4096x4_p1_0_S4x4096 (ix2 h s)))
      (Ideal.ofBits .f32 0xFF800000#32) = _
  rw [iota_single_apply, transpose_ix2_apply, Ideal.ofBits_zero_f32, RowMax.ofBits_ninf_f32]
  show Scalar.select (BitVec.ofBool ((BitVec.ofNat 32 s.val).slt g))
      (Scalar.select (BitVec.ofBool (decide (0 < v13 (ix2 s h)))) (v13 (ix2 s h))
        (Ideal.ofBits .f32 0x3E4CCCCD#32 * v13 (ix2 s h))) ⊥ = _
  rw [select_ofBool, select_ofBool]
  unfold leakyPos
  by_cases hv : validRow g s
  · have hv' : (BitVec.ofNat 32 s.val).slt g = true := hv
    rw [if_pos hv, if_pos hv']
    by_cases ha : 0 < v13 (ix2 s h)
    · rw [if_pos ha, if_pos (decide_eq_true ha)]
    · rw [if_neg ha, if_neg (fun hd => ha (of_decide_eq_true hd))]
  · have hv' : ¬ (BitVec.ofNat 32 s.val).slt g = true := hv
    rw [if_neg hv, if_neg hv']

/-! ## The largest score, the weights, their total -/

/-- The largest entry of each row. -/
def maxV (v24 : FVec Ideal S4x4096 .f32) : FVec Ideal S4 .f32 :=
  multiReduction (F := Ideal) .maximumf [1] S4 v24 0xFF800000#32 reduces_S4x4096_S4 (.inl rfl) rfl

theorem maxV_apply (v24 : FVec Ideal S4x4096 .f32) (h : Fin 4) :
    maxV v24 (ix1 h) = (Finset.univ : Finset (Fin 4096)).fold max ⊥ (fun s => v24 (ix2 h s)) := by
  unfold maxV
  refine (Ideal.multiReduction_maximumf_single v24 _ reduces_S4x4096_S4 _ _ (ix1 h)).trans ?_
  have hf : (v24 ∘ reduces_S4x4096_S4.lift (ix1 h)) = fun s : Fin 4096 => v24 (ix2 h s) :=
    funext fun k => congrArg v24 (RowMax.lift_ix2 reduces_S4x4096_S4 h k)
  show Finset.fold max (Ideal.ofBits .f32 0xFF800000#32) (v24 ∘ reduces_S4x4096_S4.lift (ix1 h)) (Finset.univ : Finset (Fin 4096)) = _
  rw [RowMax.ofBits_ninf_f32, hf]
  rfl

/-- The exponential of each entry less its row's largest. -/
def expV (v24 : FVec Ideal S4x4096 .f32) : FVec Ideal S4x4096 .f32 :=
  exp (subf v24 (broadcastTo S4x4096 (shapeCast S4x1 (maxV v24) shapeCasts_S4_S4x1) broadcasts_S4x1_S4x4096))

theorem expV_apply (v24 : FVec Ideal S4x4096 .f32) (h : Fin 4) (s : Fin 4096) :
    expV v24 (ix2 h s)
      = Ideal.exp (v24 (ix2 h s) - (Finset.univ : Finset (Fin 4096)).fold max ⊥ (fun s' => v24 (ix2 h s'))) := by
  show Ideal.exp (v24 (ix2 h s)
      - broadcastTo S4x4096 (shapeCast S4x1 (maxV v24) shapeCasts_S4_S4x1) broadcasts_S4x1_S4x4096 (ix2 h s)) = _
  rw [broadcastTo_a1_ab_apply, shapeCast_a_a1_apply, maxV_apply]

/-- Each row's total. -/
def totalV (e : FVec Ideal S4x4096 .f32) : FVec Ideal S4 .f32 :=
  multiReduction (F := Ideal) .add [1] S4 e 0x00000000#32 reduces_S4x4096_S4 (.inl rfl) rfl

theorem totalV_apply (e : FVec Ideal S4x4096 .f32) (h : Fin 4) :
    totalV e (ix1 h) = ∑ s : Fin 4096, e (ix2 h s) := by
  unfold totalV
  refine (Ideal.multiReduction_add_single e _ reduces_S4x4096_S4 _ _ (ix1 h)).trans ?_
  show ∑ k : Fin 4096, e (reduces_S4x4096_S4.lift (ix1 h) k) = _
  exact Finset.sum_congr rfl fun k _ => congrArg e (RowMax.lift_ix2 reduces_S4x4096_S4 h k)

/-! ## The pooled rows and their projection -/

/-- The rows pooled with the weights, divided by the weights' total, times the weight matrix. -/
def projV (v24 : FVec Ideal S4x4096 .f32) (v3 : FVec Ideal S4096x128 .f32) (x2 : FVec Ideal S128x512 .f32) :
    FVec Ideal S4x512 .f32 :=
  matmul (F := Ideal) dot_S4x128_S128x512_S4x512_1_0_0_1_n_n none
    (divf
      (matmul (F := Ideal) dot_S4x4096_S4096x128_S4x128_1_0_0_1_n_n none (expV v24) v3 (constant (F := Ideal) S4x128 .f32 0x00000000#32))
      (broadcastTo S4x128 (shapeCast S4x1 (totalV (expV v24)) shapeCasts_S4_S4x1) broadcasts_S4x1_S4x128))
    x2 (constant (F := Ideal) S4x512 .f32 0x00000000#32)

theorem projV_apply (v24 : FVec Ideal S4x4096 .f32) (v3 : FVec Ideal S4096x128 .f32) (x2 : FVec Ideal S128x512 .f32)
    (h : Fin 4) (k : Fin 512) :
    projV v24 v3 x2 (ix2 h k)
      = ∑ c : Fin 128, Ideal.div (∑ s : Fin 4096, expV v24 (ix2 h s) * v3 (ix2 s c)) (∑ s : Fin 4096, expV v24 (ix2 h s))
          * x2 (ix2 c k) := by
  unfold projV
  refine (matmul_proj_apply _ x2 h k).trans ?_
  refine Finset.sum_congr rfl fun c _ => congrArg (· * x2 (ix2 c k)) ?_
  refine (divf_apply _ _ _).trans ?_
  refine congrArg₂ Ideal.div (matmul_pool_apply (expV v24) v3 h c) ?_
  refine (broadcastTo_a1_ab_apply _ _ h c).trans ?_
  refine (shapeCast_a_a1_apply _ _ h (0 : Fin 1)).trans ?_
  exact totalV_apply (expV v24) h

/-! ## The body's projection is the composition -/

theorem k0_pay3_eq (g : BitVec 32) (x1 : Vec Ideal S1x4096x128 .f32) (x2 : Vec Ideal S128x512 .f32)
    (x3 : Vec Ideal S512x4 .f32) (x4 : Vec Ideal S1x512 .f32) :
    k0_pay3 (F := Ideal) g x1 x2 x3 x4
      = projV
          (maskedV g (scoreV (shapeCast S4096x128 x1 shapeCasts_S1x4096x128_S4096x128) x2
            (shapeCast S512x4 x3 shapeCasts_S512x4_S512x4) (k0_pay2 x4)))
          (shapeCast S4096x128 x1 shapeCasts_S1x4096x128_S4096x128) x2 := rfl

/-- The body's projection at head `h`, lane `k` is the specification's. -/
theorem pay3_apply (g : BitVec 32) (x1 : Vec Ideal S1x4096x128 .f32) (x2 : Vec Ideal S128x512 .f32)
    (x3 : Vec Ideal S512x4 .f32) (x4 : Vec Ideal S1x512 .f32)
    (tw : Fin 4 → Fin 128 → EReal) (hT : ∀ (k : Fin 512) (h : Fin 4), x3 (ix2 k h) = tmat tw k h) (h : Fin 4) (k : Fin 512) :
    k0_pay3 (F := Ideal) g x1 x2 x3 x4 (ix2 h k)
      = projP (fun s c => x1 (ix3 (0 : Fin 1) s c)) (fun c k => x2 (ix2 c k)) tw (fun k => x4 (ix2 (0 : Fin 1) k))
          (Ideal.ofBits .f32 0x3E4CCCCD#32) (validRow g) h k := by
  have hv3 : ∀ (s : Fin 4096) (c : Fin 128),
      shapeCast S4096x128 x1 shapeCasts_S1x4096x128_S4096x128 (ix2 s c) = x1 (ix3 (0 : Fin 1) s c) :=
    fun s c => shapeCast_1ab_ab_apply x1 _ s c
  have hv24 : ∀ (h : Fin 4) (s : Fin 4096),
      maskedV g (scoreV (shapeCast S4096x128 x1 shapeCasts_S1x4096x128_S4096x128) x2
          (shapeCast S512x4 x3 shapeCasts_S512x4_S512x4) (k0_pay2 x4)) (ix2 h s)
        = maskedP (fun s c => x1 (ix3 (0 : Fin 1) s c)) (fun c k => x2 (ix2 c k)) tw (fun k => x4 (ix2 (0 : Fin 1) k))
            (Ideal.ofBits .f32 0x3E4CCCCD#32) (validRow g) s h := by
    intro h s
    rw [maskedV_apply, scoreV_apply]
    unfold maskedP scoreP foldedW foldedB k0_pay2
    simp only [hv3, shapeCast_self, hT]
  rw [k0_pay3_eq, projV_apply]
  unfold projP pooledP totalP expP maxP
  simp only [expV_apply, hv24, hv3]

end Cert.KernelIdeal.Payload

end
-- ==== Proof.KernelPayload.lean ====
/-
  The value the kernel body stores at lane `k` of its output block is the specification's `pooledFirst` at `k`:
  the stored value is the projection of the lane's own head plus the bias, and the body's projection is the
  specification's.
-/
import proofs.«160056_g68547678044319_fold_wed_c4_656_5_alg».proof.Proof.Gen.KernelIdeal.Skeleton
import proofs.«160056_g68547678044319_fold_wed_c4_656_5_alg».proof.Proof.Spec
import proofs.«160056_g68547678044319_fold_wed_c4_656_5_alg».proof.Proof.KernelPayload2
import proofs.«160056_g68547678044319_fold_wed_c4_656_5_alg».proof.Proof.KernelPayload3

noncomputable section

open scoped BigOperators

namespace Cert.KernelIdeal.Payload

open Idealize.ShloMosaic Idealize.ShloMosaic.ValueIdx Cert.KernelIdeal Cert.KernelIdeal.Gen Cert.Pooling

theorem payload_apply (g : Elt Ideal .i32) (x1 : Vec Ideal S1x4096x128 .f32) (x2 : Vec Ideal S128x512 .f32)
    (x3 : Vec Ideal S512x4 .f32) (x4 : Vec Ideal S1x512 .f32)
    (tw : Fin 4 → Fin 128 → EReal) (hT : ∀ (k : Fin 512) (h : Fin 4), x3 (ix2 k h) = tmat tw k h) (k : Fin 512) :
    k0_pay1 (F := Ideal) (k0_pay2 x4) (k0_pay3 g x1 x2 x3 x4) (iota .tc S4x512 32 [1] iota_S4x512_d1_w32) 128#32 k0_pay4
        (ix3 (0 : Fin 1) (0 : Fin 1) k)
      = pooledFirst (fun s c => x1 (ix3 (0 : Fin 1) s c)) (fun c k => x2 (ix2 c k)) tw (fun k => x4 (ix2 (0 : Fin 1) k))
          (Ideal.ofBits .f32 0x3E4CCCCD#32) (validRow g) k := by
  refine (pay1_apply (k0_pay2 x4) (k0_pay3 g x1 x2 x3 x4) k).trans ?_
  unfold pooledFirst
  refine congrArg₂ (· + ·) ?_ ?_
  · refine Finset.sum_congr rfl fun h _ => ?_
    rw [pay3_apply g x1 x2 x3 x4 tw hT h k]
  · unfold k0_pay2
    rw [shapeCast_self]

end Cert.KernelIdeal.Payload

end
-- ==== Proof.KernelCover.lean ====
/-
  The kernel's output array is written whole.

  The array has shape [16, 1, 512] and is written back in sixteen blocks of shape [1, 1, 512]: the point numbered
  t writes the block at block position (t, 0, 0), that is the indices whose first coordinate is t.  Every index of
  the array therefore lies in the block of the point numbered by its first coordinate, so once each point's
  written-back block is known to be the matching block of one function G of the whole array, the array ends
  holding G.
-/
import proofs.«160056_g68547678044319_fold_wed_c4_656_5_alg».proof.Proof.Gen.KernelIdeal.Frame
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

/-- The output window's index map, decided over the sixteen points: point t writes block position (t, 0, 0). -/
theorem out_block_position : ∀ t : Fin cfg0.N,
    win0_5.index t (0 : Fin 3) = t.val ∧ win0_5.index t (1 : Fin 3) = 0 ∧ win0_5.index t (2 : Fin 3) = 0 :=
  (by decide +kernel : ∀ t : Fin grid0.N,
    win0_5.index t (0 : Fin 3) = t.val ∧ win0_5.index t (1 : Fin 3) = 0 ∧ win0_5.index t (2 : Fin 3) = 0)

/-- An index of the output array is in point t's block exactly when each coordinate lies in the block's range on
    its axis: from block position times block size, for block size many steps. -/
theorem mem_out_block (t : Fin cfg0.N) (i : S16x1x512.Idx) :
    i ∈ ((cfg0.win 5).blk t).view.set ↔ ∀ a : Fin 3,
      win0_5.index t a * S1x1x512.size a ≤ (i a).val ∧ (i a).val < win0_5.index t a * S1x1x512.size a + S1x1x512.size a := by
  show i ∈ ((View.whole main_call0_v12).slice (win0_5.rect t)).set ↔ _
  rw [View.set_slice_whole, Rect.mem_set_unit]
  exact Iff.rfl

/-- Every index of the output array is in the block of a point that writes back: the point numbered by the
    index's first coordinate. -/
theorem out_blocks_cover (i : S16x1x512.Idx) :
    ∃ t : Fin cfg0.N, (cfg0.win 5).flush t = true ∧ i ∈ ((cfg0.win 5).blk t).view.set := by
  have hi0 : (i 0).val < 16 := (i 0).isLt
  have hi1 : (i 1).val < 1 := (i 1).isLt
  have hi2 : (i 2).val < 512 := (i 2).isLt
  have hN : (i 0).val < cfg0.N := by
    show (i 0).val < grid0.N
    rw [N_0]; exact hi0
  obtain ⟨p0, p1, p2⟩ := out_block_position ⟨(i 0).val, hN⟩
  have q0 : win0_5.index ⟨(i 0).val, hN⟩ (0 : Fin 3) = (i 0).val := p0
  refine ⟨⟨(i 0).val, hN⟩, flush0_5 _, ?_⟩
  rw [mem_out_block]
  intro a
  match a with
  | ⟨0, _⟩ =>
    show win0_5.index ⟨(i 0).val, hN⟩ (0 : Fin 3) * 1 ≤ (i 0).val
      ∧ (i 0).val < win0_5.index ⟨(i 0).val, hN⟩ (0 : Fin 3) * 1 + 1
    omega
  | ⟨1, _⟩ =>
    show win0_5.index ⟨(i 0).val, hN⟩ (1 : Fin 3) * 1 ≤ (i 1).val
      ∧ (i 1).val < win0_5.index ⟨(i 0).val, hN⟩ (1 : Fin 3) * 1 + 1
    omega
  | ⟨2, _⟩ =>
    show win0_5.index ⟨(i 0).val, hN⟩ (2 : Fin 3) * 512 ≤ (i 2).val
      ∧ (i 2).val < win0_5.index ⟨(i 0).val, hN⟩ (2 : Fin 3) * 512 + 512
    omega

/-- When every point's written-back block is the matching block of G, the output array ends holding G. -/
theorem arr_of_flushed {F : FTy → Type} [FloatOps F] (m : (ℓ : Loc nD τ sig) → Buf (Elt F) ℓ) (c : Dev nD) (G : S16x1x512.Idx → Elt F .f32)
    (hfl : ∀ t : Fin cfg0.N, (dats m 0 c).flushed 5 t = ((cfg0.win 5).blk t).view.read (Elt F) G) :
    (dats m 0 c).arrAt 5 cfg0.N = G :=
  (dats m 0 c).arrAt_eq_of_cover 5 G (fun t _ => hfl t) out_blocks_cover

end Cert.KernelIdeal.KValue

end
-- ==== Proof.KernelTail.lean ====
/-
  The kernel's run with its result named.

  The program is one region over a grid followed by one host operation: the region's output is an array of shape
  [16, 1, 512], and the host operation lays it out as [16, 512], which is the program's result. The run of the whole
  program terminates and leaves every array of the region at the contents computed from the per-point data, and every
  other buffer at what the host operation after the region leaves. So if the region's output array ends at G, the
  result at (b, k) is G at (b, 0, k) — the two arrays have the same elements in the same row-major order — and the
  five arguments end as they were launched.
-/
import proofs.«160056_g68547678044319_fold_wed_c4_656_5_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.KValue

open Cert.KernelIdeal Cert.KernelIdeal.Gen Idealize.ShloMosaic Idealize.ShloMosaic.ValueIdx Idealize.ShloMosaic.TcCoe
  Idealize.SL.Sem

/-- A [16, 1, 512] array laid out as [16, 512] reads at (b, k) the array at (b, 0, k): position (b · 1 + 0) · 512 + k
    is position b · 512 + k. -/
theorem dropMiddle_apply {α : Type} (X : S16x1x512.Idx → α) (j : S16x512.Idx) :
    shapeCast S16x512 X shapeCasts_S16x1x512_S16x512 j = X (ix3 (j 0) (0 : Fin 1) (j 1)) :=
  shapeCast_apply X _ j (ix3 (j 0) (0 : Fin 1) (j 1)) (by
    rw [Shape.rowMajor_val_three, Shape.rowMajor_val_two]
    show ((j 0).val * 1 + 0) * 512 + (j 1).val = (j 0).val * 512 + (j 1).val
    omega)

/-- What the host operation after the region leaves in the result buffer: the region's output array, which ends at
    G, laid out as [16, 512]. The operation reads the output array out of the contents the region leaves (the arrays
    at their final contents, every other buffer as before the region), and writes only the result buffer. -/
theorem tail_v0 (m : (ℓ : Loc nD τ sig) → Buf (Elt Ideal) ℓ) (G : Dev nD → S16x1x512.Idx → EReal)
    (hfinal : ∀ c : Dev nD, (dats m 0 c).arrAt 5 cfg0.N = G c) (c : Dev nD) :
    Pipeline.afterTail₀ cfgs (dats m) 0 (V0 m) [hostOps1] c main_v0
      = (fun j : S16x512.Idx => G c (ix3 (j 0) (0 : Fin 1) (j 1))) := by
  unfold Pipeline.afterTail₀
  show StableHlo.after hostOps1 _ (Proc.devRef .tc main_v0) = _
  after_results
  have hw : Pipeline.withArrays (cfgs 0).spec c (V0 m c) (fun w => (dats m 0 c).arrAt w (cfgs 0).N)
      (Proc.devRef .tc main_call0_v12) = G c :=
    (Pipeline.withArrays_arr spec0 launch0.win.arr_inj c _ _ 5).trans (hfinal c)
  refine funext fun (j : S16x512.Idx) => ?_
  show shapeCast S16x512 (Pipeline.withArrays (cfgs 0).spec c (V0 m c) (fun w => (dats m 0 c).arrAt w (cfgs 0).N)
      (Proc.devRef .tc main_call0_v12)) shapeCasts_S16x1x512_S16x512 j = _
  rw [hw]
  exact dropMiddle_apply (G c) j

/-- THE RUN WITH THE RESULT NAMED: from any memory with zero counters every weakly fair execution of the program
    terminates, and in every final state the result buffer holds, at (b, k), the region's final output array G at
    (b, 0, k), and the five arguments hold what they were launched with. The result and the two arguments no window
    stages are read off the run's statement about the buffers outside the region; the three staged arguments off its
    statement about the region's arrays (an input array ends as the region found it). -/
theorem run_named (m : (ℓ : Loc nD τ sig) → Buf (Elt Ideal) ℓ) (ρ : Dev nD → PrngReg) (G : Dev nD → S16x1x512.Idx → EReal)
    (hfinal : ∀ c : Dev nD, (dats m 0 c).arrAt 5 cfg0.N = G c) :
    θ_run (defs (F := Ideal)) (onTc (τ := τ) (main (F := Ideal))) ⟨m, fun _ => 0, ρ⟩ (fun r => ∀ c : Dev nD,
      r.2.mem ((c.tc : Thread nD τ).loc main_v0) = (fun j : S16x512.Idx => G c (ix3 (j 0) (0 : Fin 1) (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (tail_v0 m G hfinal c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.KernelValue.lean ====
/-
  The kernel's result array as one function of its arguments.

  Point `t` of the grid works on graph `t`: the value it stores, read at lane `k`, is the pooled-first formula of the
  graph's rows, the weight matrix, the tuning vectors, the bias, the slope 0.2 and the graph's size word.  The sixteen
  output blocks tile the 16 × 1 × 512 array, and the host's last step drops the unit axis.
-/
import proofs.«160056_g68547678044319_fold_wed_c4_656_5_alg».proof.Proof.KernelPieces
import proofs.«160056_g68547678044319_fold_wed_c4_656_5_alg».proof.Proof.KernelBlocks
import proofs.«160056_g68547678044319_fold_wed_c4_656_5_alg».proof.Proof.KernelEntry
import proofs.«160056_g68547678044319_fold_wed_c4_656_5_alg».proof.Proof.KernelHostValue
import proofs.«160056_g68547678044319_fold_wed_c4_656_5_alg».proof.Proof.KernelPayload
import proofs.«160056_g68547678044319_fold_wed_c4_656_5_alg».proof.Proof.KernelCover
import proofs.«160056_g68547678044319_fold_wed_c4_656_5_alg».proof.Proof.KernelTail
import proofs.«160056_g68547678044319_fold_wed_c4_656_5_alg».proof.Proof.Spec

noncomputable section

open Idealize.ShloMosaic Idealize.ShloMosaic.TcCoe Idealize.SL.Sem

namespace Cert.KernelIdeal.KValue

open Cert.KernelIdeal Cert.KernelIdeal.Gen Cert.KernelIdeal.HostTerm Cert.KernelIdeal.HostValue Cert.KernelIdeal.Payload
open Idealize.ShloMosaic.ValueIdx Cert.Pooling

/-- The slope of the leaky rectifier, as the kernel's literal. -/
def slopeK : EReal := Ideal.ofBits .f32 0x3E4CCCCD#32

/-- Graph `b`, lane `k` of the kernel's result, from the five argument arrays. -/
def laneValue (a0 : FVec Ideal S16x4096x128 .f32) (a1 : IVec S16 32) (a2 : FVec Ideal S128x512 .f32) (a3 : FVec Ideal S1x4x128 .f32)
    (a4 : FVec Ideal S512 .f32) (b : Fin 16) (k : Fin 512) : EReal :=
  pooledFirst (fun s cc => a0 (ix3 b s cc)) (fun cc k => a2 (ix2 cc k)) (fun h c' => a3 (ix3 (0 : Fin 1) h c')) (fun k => a4 (ix1 k))
    slopeK (validRow (a1 (ix1 b))) k

/-- The output window's array after the grid: graph × 1 × lane. -/
def outArray (a0 : FVec Ideal S16x4096x128 .f32) (a1 : IVec S16 32) (a2 : FVec Ideal S128x512 .f32) (a3 : FVec Ideal S1x4x128 .f32)
    (a4 : FVec Ideal S512 .f32) : S16x1x512.Idx → EReal :=
  fun j => laneValue a0 a1 a2 a3 a4 (j 0) (j 2)

variable (m : (ℓ : Loc nD τ sig) → Buf (Elt Ideal) ℓ) (ρ : Dev nD → PrngReg)

/-- What point `t` stores, read at lane `k`: the pooled-first formula of graph `t`. -/
theorem stored_apply (c : Dev nD) (t : Fin cfg0.N) (k : Fin 512) :
    stored (F := Ideal) (grid0.coords t) (iblk m c 0 t) (iblk m c 1 t) (iblk m c 2 t) (iblk m c 3 t) (iblk m c 4 t) (ix3 (0 : Fin 1) (0 : Fin 1) k)
      = laneValue (m ((c : Thread nD τ).loc main_arg0)) (m ((c : Thread nD τ).loc main_arg1)) (m ((c : Thread nD τ).loc main_arg2))
          (m ((c : Thread nD τ).loc main_arg3)) (m ((c : Thread nD τ).loc main_arg4)) (graphOf t) k := by
  have hT : ∀ (k : Fin 512) (h : Fin 4), iblk m c 3 t (ix2 k h)
      = tmat (fun h c' => (m ((c : Thread nD τ).loc main_arg3)) (ix3 (0 : Fin 1) h c')) k h := by
    intro k h
    rw [tune_apply, entry_tune, tuneMat_apply]
  have e1 : (fun (s : Fin 4096) (cc : Fin 128) => iblk m c 1 t (ix3 (0 : Fin 1) s cc))
      = fun s cc => (m ((c : Thread nD τ).loc main_arg0)) (ix3 (graphOf t) s cc) := by
    funext s cc; rw [rows_apply, V_main_arg0]
  have e2 : (fun (cc : Fin 128) (k : Fin 512) => iblk m c 2 t (ix2 cc k))
      = fun cc k => (m ((c : Thread nD τ).loc main_arg2)) (ix2 cc k) := by
    funext cc k; rw [weight_apply, V_main_arg2]
  have e4 : (fun (k : Fin 512) => iblk m c 4 t (ix2 (0 : Fin 1) k))
      = fun k => (m ((c : Thread nD τ).loc main_arg4)) (ix1 k) := by
    funext k; rw [bias_apply, entry_bias, biasRow_apply]
  have e0 : sizeWord (F := Ideal) (grid0.coords t) (iblk m c 0 t) = (m ((c : Thread nD τ).loc main_arg1)) (ix1 (graphOf t)) := by
    rw [sizeWord_eq, coord_eq, sizes_apply, V_main_arg1]
  unfold stored
  rw [payload_apply _ _ _ _ _ _ hT k, e1, e2, e4, e0]
  rfl

/-- What point `t` writes back is block `t` of the output array. -/
theorem flushed_eq (c : Dev nD) (t : Fin cfg0.N) :
    (dats m 0 c).flushed 5 t = ((cfg0.win 5).blk t).view.read (Elt Ideal)
      (outArray (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  rw [after0_5, outsAt_eq]
  funext y
  obtain ⟨p, q, k, rfl⟩ : ∃ (p : Fin 1) (q : Fin 1) (k : Fin 512), y = ix3 p q k := ⟨y 0, y 1, y 2, eq_ix3 y⟩
  obtain rfl : p = 0 := Subsingleton.elim _ _
  obtain rfl : q = 0 := Subsingleton.elim _ _
  have hemb : ((cfg0.win 5).blk t).view.emb (ix3 (0 : Fin 1) (0 : Fin 1) k) = ix3 (graphOf t) (0 : Fin 1) k := by
    obtain ⟨e0, e1, e2⟩ := out_block_position t
    funext a; apply Fin.ext
    match a with
    | ⟨0, _⟩ => show win0_5.index t (0 : Fin 3) * 1 + 1 * 0 = t.val; omega
    | ⟨1, _⟩ => show win0_5.index t (1 : Fin 3) * 1 + 1 * 0 = 0; omega
    | ⟨2, _⟩ => show win0_5.index t (2 : Fin 3) * 512 + 1 * k.val = k.val; omega
  show stored (F := Ideal) (grid0.coords t) (iblk m c 0 t) (iblk m c 1 t) (iblk m c 2 t) (iblk m c 3 t) (iblk m c 4 t) (ix3 (0 : Fin 1) (0 : Fin 1) k)
    = outArray _ _ _ _ _ (((cfg0.win 5).blk t).view.emb (ix3 (0 : Fin 1) (0 : Fin 1) k))
  rw [stored_apply, hemb]
  rfl

/-- After the grid the output window's array is the output array of the arguments. -/
theorem final (c : Dev nD) : (dats m 0 c).arrAt 5 cfg0.N
    = outArray (m ((c : Thread nD τ).loc main_arg0)) (m ((c : Thread nD τ).loc main_arg1)) (m ((c : Thread nD τ).loc main_arg2))
        (m ((c : Thread nD τ).loc main_arg3)) (m ((c : Thread nD τ).loc main_arg4)) :=
  arr_of_flushed m c _ (flushed_eq m c)

/-- The kernel's run: it ends with the result at graph × lane the pooled-first formula, the arguments unchanged. -/
theorem run : θ_run (defs (F := Ideal)) (onTc (τ := τ) (main (F := Ideal))) ⟨m, fun _ => 0, ρ⟩ (fun r => ∀ c : Dev nD,
      r.2.mem ((c.tc : Thread nD τ).loc main_v0)
        = (fun j : S16x512.Idx => outArray (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (ix3 (j 0) (0 : Fin 1) (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_named m ρ (fun c => outArray (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
    (fun c => final m c)

end Cert.KernelIdeal.KValue

end
-- ==== Proof.RefTerm.lean ====
/-
  The reference's result as a pure function of its five arguments, stage by stage, in the order the program computes
  them: which rows count, every row projected and biased, the scores, the rectified scores, their maxima over the rows
  that count, the soft-max weights, their totals per graph, the normalised weights, and the weighted sum of the
  projected rows of each graph.
-/
import proofs.«160056_g68547678044319_fold_wed_c4_656_5_alg».proof.Proof.Gen.ReferenceIdeal

noncomputable section

namespace Cert.ReferenceIdeal.RefTerm

open Cert.ReferenceIdeal Cert.ReferenceIdeal.Gen Idealize.ShloMosaic

variable {F : FTy → Type} [FloatOps F]

/-- Row `s` of graph `b` counts when `s` is below the graph's size (signed comparison of 32-bit words). -/
def rowMask (a1 : IVec S16 32) : IVec S16x4096 1 :=
  cmpi .slt
    (broadcastInDim S16x4096 ![0, 1] bcast_S1x4096_S16x4096_0_1 (broadcastInDim S1x4096 ![1] bcast_S4096_S1x4096_1 (iotaInDim S4096 32 0)))
    (broadcastInDim S16x4096 ![0, 1] bcast_S16x1_S16x4096_0_1 (broadcastInDim S16x1 ![0] bcast_S16_S16x1_0 a1))

/-- Every row of every graph projected by the weight matrix and biased, laid out as graph × row × head × feature. -/
def projected (a0 : FVec F S16x4096x128 .f32) (a2 : FVec F S128x512 .f32) (a4 : FVec F S512 .f32) : FVec F S16x4096x4x128 .f32 :=
  shapeCast S16x4096x4x128
    (addf (Host.dotGeneral dot_S65536x128_S128x512_S65536x512_1_0_0_1_n_n none (shapeCast S65536x128 a0 shapeCasts_S16x4096x128_S65536x128) a2)
      (broadcastInDim S65536x512 ![0, 1] bcast_S1x512_S65536x512_0_1 (broadcastInDim S1x512 ![1] bcast_S512_S1x512_1 a4)))
    shapeCasts_S65536x512_S16x4096x4x128

/-- The score of each row for each head: the projected row against the head's tuning vector, summed over the features. -/
def scores (a3 : FVec F S1x4x128 .f32) (p : FVec F S16x4096x4x128 .f32) : FVec F S16x4096x4 .f32 :=
  Host.reduceAdd
    (mulf (broadcastInDim S16x4096x4x128 ![0, 1, 2, 3] bcast_S1x1x4x128_S16x4096x4x128_0_1_2_3 (broadcastInDim S1x1x4x128 ![1, 2, 3] bcast_S1x4x128_S1x1x4x128_1_2_3 a3)) p)
    (constant S_ .f32 0x00000000#32) reducesTo_S16x4096x4x128_S16x4096x4_d3 h_S_

/-- The leaky rectifier of slope 0.2, the identity on the non-negative scores. -/
def rectified (sc : FVec F S16x4096x4 .f32) : FVec F S16x4096x4 .f32 :=
  select (cmpf .oge sc (broadcastInDim S16x4096x4 ![] bcast_S_S16x4096x4 (constant S_ .f32 0x00000000#32))) sc
    (mulf (broadcastInDim S16x4096x4 ![] bcast_S_S16x4096x4 (id (constant S_ .f32 0x3E4CCCCD#32))) sc)

/-- The row mask copied along the heads. -/
def maskHeads (mk : IVec S16x4096 1) : IVec S16x4096x4 1 :=
  broadcastInDim S16x4096x4 ![0, 1, 2] bcast_S16x4096x1_S16x4096x4_0_1_2 (broadcastInDim S16x4096x1 ![0, 1] bcast_S16x4096_S16x4096x1_0_1 mk)

/-- The rectified scores, `-∞` on the rows that do not count. -/
def maskedScores (mk : IVec S16x4096 1) (r : FVec F S16x4096x4 .f32) : FVec F S16x4096x4 .f32 :=
  select (maskHeads mk) r (broadcastInDim S16x4096x4 ![] bcast_S_S16x4096x4 (id (constant S_ .f32 0xFF800000#32)))

/-- The largest masked score of each graph and head. -/
def rowMax (ms : FVec F S16x4096x4 .f32) : FVec F S16x4 .f32 :=
  Host.reduce FloatOps.maximumf ms (constant S_ .f32 0xFF800000#32) reducesTo_S16x4096x4_S16x4_d1 h_S_

/-- A per-graph, per-head quantity copied along the rows. -/
def alongRows (q : FVec F S16x4 .f32) : FVec F S16x4096x4 .f32 :=
  broadcastInDim S16x4096x4 ![0, 1, 2] bcast_S16x1x4_S16x4096x4_0_1_2 (broadcastInDim S16x1x4 ![0, 2] bcast_S16x4_S16x1x4_0_2 q)

/-- The un-normalised soft-max weights, zero on the rows that do not count. -/
def expWeights (mk : IVec S16x4096 1) (r : FVec F S16x4096x4 .f32) (mx : FVec F S16x4 .f32) : FVec F S16x4096x4 .f32 :=
  select (maskHeads mk) (Host.exp (subf r (alongRows mx))) (broadcastInDim S16x4096x4 ![] bcast_S_S16x4096x4 (id (constant S_ .f32 0x00000000#32)))

/-- The graph of each of the 65536 rows, as a column of indices. -/
def segIds : IVec S65536x1 32 :=
  broadcastInDim S65536x1 ![0] bcast_S65536_S65536x1_0
    (shapeCast S65536 (broadcastInDim S16x4096 ![0] bcast_S16_S16x4096_0 (iotaInDim S16 32 0)) shapeCasts_S16x4096_S65536)

/-- The weights' total per graph and head: the rows' weights added into their graph's cell. -/
def totals (e : FVec F S16x4096x4 .f32) : FVec F S16x4 .f32 :=
  Host.scatterAdd scatter_S16x4_S65536x1_S65536x4_1_0_0_1 (broadcastInDim S16x4 ![] bcast_S_S16x4 (constant S_ .f32 0x00000000#32)) segIds
    (shapeCast S65536x4 e shapeCasts_S16x4096x4_S65536x4)

/-- The normalised weights. -/
def weights (e : FVec F S16x4096x4 .f32) (tot : FVec F S16x4 .f32) : FVec F S16x4096x4 .f32 :=
  Host.divf e (alongRows tot)

/-- The projected rows multiplied by their weights. -/
def weighted (p : FVec F S16x4096x4x128 .f32) (wt : FVec F S16x4096x4 .f32) : FVec F S16x4096x4x128 .f32 :=
  mulf p (broadcastInDim S16x4096x4x128 ![0, 1, 2, 3] bcast_S16x4096x4x1_S16x4096x4x128_0_1_2_3 (broadcastInDim S16x4096x4x1 ![0, 1, 2] bcast_S16x4096x4_S16x4096x4x1_0_1_2 wt))

/-- The weighted rows added into their graph's cells, per head and feature. -/
def pooled (wp : FVec F S16x4096x4x128 .f32) : FVec F S16x4x128 .f32 :=
  Host.scatterAdd scatter_S16x4x128_S65536x1_S65536x4x128_12_0_0_1 (broadcastInDim S16x4x128 ![] bcast_S_S16x4x128 (constant S_ .f32 0x00000000#32)) segIds
    (shapeCast S65536x4x128 wp shapeCasts_S16x4096x4x128_S65536x4x128)

/-- The part of the computation after the weights and the projected rows are known: totals, normalised weights, the
    weighted sum per graph, and the final layout graph × lane. -/
def tail (p : FVec F S16x4096x4x128 .f32) (e : FVec F S16x4096x4 .f32) : FVec F S16x512 .f32 :=
  shapeCast S16x512 (pooled (weighted p (weights e (totals e)))) shapeCasts_S16x4x128_S16x512

/-- The soft-max weights from the arguments. -/
def headWeights (a1 : IVec S16 32) (a3 : FVec F S1x4x128 .f32) (p : FVec F S16x4096x4x128 .f32) : FVec F S16x4096x4 .f32 :=
  expWeights (rowMask a1) (rectified (scores a3 p)) (rowMax (maskedScores (rowMask a1) (rectified (scores a3 p))))

/-- The reference's result. -/
def refOut (a0 : FVec F S16x4096x128 .f32) (a1 : IVec S16 32) (a2 : FVec F S128x512 .f32) (a3 : FVec F S1x4x128 .f32) (a4 : FVec F S512 .f32) :
    FVec F S16x512 .f32 :=
  tail (projected a0 a2 a4) (headWeights a1 a3 (projected a0 a2 a4))

end Cert.ReferenceIdeal.RefTerm

end
-- ==== Proof.RefRun.lean ====
/-
  The reference program's run, read back as a value.

  The program is a straight line of tensor operations: its three local functions (the leaky rectifier, and the masked
  selection used twice) are run in place at their calls, so the whole of it is one list of operations, each writing
  one buffer of its own.  Running such a list from any memory ends with every buffer at the fold of the operations'
  results; at the result buffer that fold is the composition of the operations in order, applied to the contents the
  five argument buffers had at the start, and the argument buffers themselves are written by no operation.
-/
import proofs.«160056_g68547678044319_fold_wed_c4_656_5_alg».proof.Proof.Gen.ReferenceIdeal
import proofs.«160056_g68547678044319_fold_wed_c4_656_5_alg».proof.Proof.RefTerm
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 63 operations in order, the local functions' operations in place of their calls: the rectifier's
    seven after the slope constant, the masked selection's four after each of the two constants it fills with. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_arg1 main_v2 (broadcastInDim S16x1 ![0] bcast_S16_S16x1_0 : (⟨S16, .i32⟩ : BufTy).Contents (Elt F) → (⟨S16x1, .i32⟩ : BufTy).Contents (Elt F)),
    unary main_v1 main_v3 (broadcastInDim S16x4096 ![0, 1] bcast_S1x4096_S16x4096_0_1 : (⟨S1x4096, .i32⟩ : BufTy).Contents (Elt F) → (⟨S16x4096, .i32⟩ : BufTy).Contents (Elt F)),
    unary main_v2 main_v4 (broadcastInDim S16x4096 ![0, 1] bcast_S16x1_S16x4096_0_1 : (⟨S16x1, .i32⟩ : BufTy).Contents (Elt F) → (⟨S16x4096, .i32⟩ : BufTy).Contents (Elt F)),
    binary main_v3 main_v4 main_v5 (cmpi .slt : (⟨S16x4096, .i32⟩ : BufTy).Contents (Elt F) → (⟨S16x4096, .i32⟩ : BufTy).Contents (Elt F) → (⟨S16x4096, .i1⟩ : BufTy).Contents (Elt F)),
    reshape main_arg0 main_v6 rfl shapeCasts_S16x4096x128_S65536x128,
    binary main_v6 main_arg2 main_v7 ((fun l r => Host.dotGeneral dot_S65536x128_S128x512_S65536x512_1_0_0_1_n_n none l r) : (⟨S65536x128, .f32⟩ : BufTy).Contents (Elt F) → (⟨S128x512, .f32⟩ : BufTy).Contents (Elt F) → (⟨S65536x512, .f32⟩ : BufTy).Contents (Elt F)),
    unary main_arg4 main_v8 (broadcastInDim S1x512 ![1] bcast_S512_S1x512_1 : (⟨S512, .f32⟩ : BufTy).Contents (Elt F) → (⟨S1x512, .f32⟩ : BufTy).Contents (Elt F)),
    unary main_v8 main_v9 (broadcastInDim S65536x512 ![0, 1] bcast_S1x512_S65536x512_0_1 : (⟨S1x512, .f32⟩ : BufTy).Contents (Elt F) → (⟨S65536x512, .f32⟩ : BufTy).Contents (Elt F)),
    binary main_v7 main_v9 main_v10 (addf : (⟨S65536x512, .f32⟩ : BufTy).Contents (Elt F) → (⟨S65536x512, .f32⟩ : BufTy).Contents (Elt F) → (⟨S65536x512, .f32⟩ : BufTy).Contents (Elt F)),
    reshape main_v10 main_v11 rfl shapeCasts_S65536x512_S16x4096x4x128,
    unary main_arg3 main_v12 (broadcastInDim S1x1x4x128 ![1, 2, 3] bcast_S1x4x128_S1x1x4x128_1_2_3 : (⟨S1x4x128, .f32⟩ : BufTy).Contents (Elt F) → (⟨S1x1x4x128, .f32⟩ : BufTy).Contents (Elt F)),
    unary main_v12 main_v13 (broadcastInDim S16x4096x4x128 ![0, 1, 2, 3] bcast_S1x1x4x128_S16x4096x4x128_0_1_2_3 : (⟨S1x1x4x128, .f32⟩ : BufTy).Contents (Elt F) → (⟨S16x4096x4x128, .f32⟩ : BufTy).Contents (Elt F)),
    binary main_v13 main_v11 main_v14 (mulf : (⟨S16x4096x4x128, .f32⟩ : BufTy).Contents (Elt F) → (⟨S16x4096x4x128, .f32⟩ : BufTy).Contents (Elt F) → (⟨S16x4096x4x128, .f32⟩ : BufTy).Contents (Elt F)),
    nullary main_cst (constant S_ .f32 0x00000000#32),
    binary main_v14 main_cst main_v15 ((fun x v => Host.reduceAdd x v reducesTo_S16x4096x4x128_S16x4096x4_d3 h_S_) : (⟨S16x4096x4x128, .f32⟩ : BufTy).Contents (Elt F) → (⟨S_, .f32⟩ : BufTy).Contents (Elt F) → (⟨S16x4096x4, .f32⟩ : BufTy).Contents (Elt F)),
    nullary main_cst_0 (constant S_ .f32 0x3E4CCCCD#32),
    TRef.nullary main_call0.cst (constant S_ .f32 0x00000000#32),
    TRef.unary main_call0.cst main_call0.v0 (broadcastInDim S16x4096x4 ![] bcast_S_S16x4096x4),
    TRef.binary (.of main_v15 : TRef sig ⟨S16x4096x4, .f32⟩) main_call0.v0 main_call0.v1 (cmpf .oge),
    TRef.unary (.of main_cst_0 : TRef sig ⟨S_, .f32⟩) main_call0.v2 id,
    TRef.unary main_call0.v2 main_call0.v3 (broadcastInDim S16x4096x4 ![] bcast_S_S16x4096x4),
    TRef.binary main_call0.v3 (.of main_v15 : TRef sig ⟨S16x4096x4, .f32⟩) main_call0.v4 mulf,
    TRef.ternary main_call0.v1 (.of main_v15 : TRef sig ⟨S16x4096x4, .f32⟩) main_call0.v4 main_call0.call0.v0 select,
    unary main_v5 main_v17 (broadcastInDim S16x4096x1 ![0, 1] bcast_S16x4096_S16x4096x1_0_1 : (⟨S16x4096, .i1⟩ : BufTy).Contents (Elt F) → (⟨S16x4096x1, .i1⟩ : BufTy).Contents (Elt F)),
    nullary main_cst_1 (constant S_ .f32 0xFF800000#32),
    TRef.unary (.of main_cst_1 : TRef sig ⟨S_, .f32⟩) main_call1.v0 id,
    TRef.unary (.of main_v17 : TRef sig ⟨S16x4096x1, .i1⟩) main_call1.v1 (broadcastInDim S16x4096x4 ![0, 1, 2] bcast_S16x4096x1_S16x4096x4_0_1_2),
    TRef.unary main_call1.v0 main_call1.v2 (broadcastInDim S16x4096x4 ![] bcast_S_S16x4096x4),
    TRef.ternary main_call1.v1 (.of main_v16 : TRef sig ⟨S16x4096x4, .f32⟩) main_call1.v2 main_call1.v3 select,
    nullary main_cst_2 (constant S_ .f32 0xFF800000#32),
    binary main_v18 main_cst_2 main_v19 ((fun x v => Host.reduce FloatOps.maximumf x v reducesTo_S16x4096x4_S16x4_d1 h_S_) : (⟨S16x4096x4, .f32⟩ : BufTy).Contents (Elt F) → (⟨S_, .f32⟩ : BufTy).Contents (Elt F) → (⟨S16x4, .f32⟩ : BufTy).Contents (Elt F)),
    unary main_v19 main_v20 (broadcastInDim S16x1x4 ![0, 2] bcast_S16x4_S16x1x4_0_2 : (⟨S16x4, .f32⟩ : BufTy).Contents (Elt F) → (⟨S16x1x4, .f32⟩ : BufTy).Contents (Elt F)),
    unary main_v20 main_v21 (broadcastInDim S16x4096x4 ![0, 1, 2] bcast_S16x1x4_S16x4096x4_0_1_2 : (⟨S16x1x4, .f32⟩ : BufTy).Contents (Elt F) → (⟨S16x4096x4, .f32⟩ : BufTy).Contents (Elt F)),
    binary main_v16 main_v21 main_v22 (subf : (⟨S16x4096x4, .f32⟩ : BufTy).Contents (Elt F) → (⟨S16x4096x4, .f32⟩ : BufTy).Contents (Elt F) → (⟨S16x4096x4, .f32⟩ : BufTy).Contents (Elt F)),
    unary main_v5 main_v23 (broadcastInDim S16x4096x1 ![0, 1] bcast_S16x4096_S16x4096x1_0_1 : (⟨S16x4096, .i1⟩ : BufTy).Contents (Elt F) → (⟨S16x4096x1, .i1⟩ : BufTy).Contents (Elt F)),
    unary main_v22 main_v24 (Host.exp : (⟨S16x4096x4, .f32⟩ : BufTy).Contents (Elt F) → (⟨S16x4096x4, .f32⟩ : BufTy).Contents (Elt F)),
    nullary main_cst_3 (constant S_ .f32 0x00000000#32),
    TRef.unary (.of main_cst_3 : TRef sig ⟨S_, .f32⟩) main_call2.v0 id,
    TRef.unary (.of main_v23 : TRef sig ⟨S16x4096x1, .i1⟩) main_call2.v1 (broadcastInDim S16x4096x4 ![0, 1, 2] bcast_S16x4096x1_S16x4096x4_0_1_2),
    TRef.unary main_call2.v0 main_call2.v2 (broadcastInDim S16x4096x4 ![] bcast_S_S16x4096x4),
    TRef.ternary main_call2.v1 (.of main_v24 : TRef sig ⟨S16x4096x4, .f32⟩) main_call2.v2 main_call2.v3 select,
    nullary main_v26 (iotaInDim S16 32 0),
    unary main_v26 main_v27 (broadcastInDim S16x4096 ![0] bcast_S16_S16x4096_0 : (⟨S16, .i32⟩ : BufTy).Contents (Elt F) → (⟨S16x4096, .i32⟩ : BufTy).Contents (Elt F)),
    reshape main_v27 main_v28 rfl shapeCasts_S16x4096_S65536,
    reshape main_v25 main_v29 rfl shapeCasts_S16x4096x4_S65536x4,
    nullary main_cst_4 (constant S_ .f32 0x00000000#32),
    unary main_cst_4 main_v30 (broadcastInDim S16x4 ![] bcast_S_S16x4 : (⟨S_, .f32⟩ : BufTy).Contents (Elt F) → (⟨S16x4, .f32⟩ : BufTy).Contents (Elt F)),
    unary main_v28 main_v31 (broadcastInDim S65536x1 ![0] bcast_S65536_S65536x1_0 : (⟨S65536, .i32⟩ : BufTy).Contents (Elt F) → (⟨S65536x1, .i32⟩ : BufTy).Contents (Elt F)),
    ternary main_v30 main_v31 main_v29 main_v32 ((fun x i u => Host.scatterAdd scatter_S16x4_S65536x1_S65536x4_1_0_0_1 x i u) : (⟨S16x4, .f32⟩ : BufTy).Contents (Elt F) → (⟨S65536x1, .i32⟩ : BufTy).Contents (Elt F) → (⟨S65536x4, .f32⟩ : BufTy).Contents (Elt F) → (⟨S16x4, .f32⟩ : BufTy).Contents (Elt F)),
    unary main_v32 main_v33 (broadcastInDim S16x1x4 ![0, 2] bcast_S16x4_S16x1x4_0_2 : (⟨S16x4, .f32⟩ : BufTy).Contents (Elt F) → (⟨S16x1x4, .f32⟩ : BufTy).Contents (Elt F)),
    unary main_v33 main_v34 (broadcastInDim S16x4096x4 ![0, 1, 2] bcast_S16x1x4_S16x4096x4_0_1_2 : (⟨S16x1x4, .f32⟩ : BufTy).Contents (Elt F) → (⟨S16x4096x4, .f32⟩ : BufTy).Contents (Elt F)),
    binary main_v25 main_v34 main_v35 (Host.divf : (⟨S16x4096x4, .f32⟩ : BufTy).Contents (Elt F) → (⟨S16x4096x4, .f32⟩ : BufTy).Contents (Elt F) → (⟨S16x4096x4, .f32⟩ : BufTy).Contents (Elt F)),
    unary main_v35 main_v36 (broadcastInDim S16x4096x4x1 ![0, 1, 2] bcast_S16x4096x4_S16x4096x4x1_0_1_2 : (⟨S16x4096x4, .f32⟩ : BufTy).Contents (Elt F) → (⟨S16x4096x4x1, .f32⟩ : BufTy).Contents (Elt F)),
    unary main_v36 main_v37 (broadcastInDim S16x4096x4x128 ![0, 1, 2, 3] bcast_S16x4096x4x1_S16x4096x4x128_0_1_2_3 : (⟨S16x4096x4x1, .f32⟩ : BufTy).Contents (Elt F) → (⟨S16x4096x4x128, .f32⟩ : BufTy).Contents (Elt F)),
    binary main_v11 main_v37 main_v38 (mulf : (⟨S16x4096x4x128, .f32⟩ : BufTy).Contents (Elt F) → (⟨S16x4096x4x128, .f32⟩ : BufTy).Contents (Elt F) → (⟨S16x4096x4x128, .f32⟩ : BufTy).Contents (Elt F)),
    reshape main_v38 main_v39 rfl shapeCasts_S16x4096x4x128_S65536x4x128,
    nullary main_cst_5 (constant S_ .f32 0x00000000#32),
    unary main_cst_5 main_v40 (broadcastInDim S16x4x128 ![] bcast_S_S16x4x128 : (⟨S_, .f32⟩ : BufTy).Contents (Elt F) → (⟨S16x4x128, .f32⟩ : BufTy).Contents (Elt F)),
    unary main_v28 main_v41 (broadcastInDim S65536x1 ![0] bcast_S65536_S65536x1_0 : (⟨S65536, .i32⟩ : BufTy).Contents (Elt F) → (⟨S65536x1, .i32⟩ : BufTy).Contents (Elt F)),
    ternary main_v40 main_v41 main_v39 main_v42 ((fun x i u => Host.scatterAdd scatter_S16x4x128_S65536x1_S65536x4x128_12_0_0_1 x i u) : (⟨S16x4x128, .f32⟩ : BufTy).Contents (Elt F) → (⟨S65536x1, .i32⟩ : BufTy).Contents (Elt F) → (⟨S65536x4x128, .f32⟩ : BufTy).Contents (Elt F) → (⟨S16x4x128, .f32⟩ : BufTy).Contents (Elt F)),
    reshape main_v42 main_v43 rfl shapeCasts_S16x4x128_S16x512 ]

-- the chain of binds is re-associated once per statement
set_option maxRecDepth 2048 in
/-- The program is that straight line: the local functions unfolded at their calls, and sequencing re-associated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    reshape_bufs_sub .., binary_bufs_sub .., unary_bufs_sub .., unary_bufs_sub .., binary_bufs_sub .., reshape_bufs_sub ..,
    unary_bufs_sub .., unary_bufs_sub .., binary_bufs_sub .., nullary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., nullary_bufs_sub .., unary_bufs_sub .., unary_bufs_sub .., unary_bufs_sub ..,
    ternary_bufs_sub .., nullary_bufs_sub .., binary_bufs_sub .., unary_bufs_sub .., unary_bufs_sub .., binary_bufs_sub ..,
    unary_bufs_sub .., unary_bufs_sub .., nullary_bufs_sub .., unary_bufs_sub .., unary_bufs_sub .., unary_bufs_sub ..,
    ternary_bufs_sub .., nullary_bufs_sub .., unary_bufs_sub .., reshape_bufs_sub .., reshape_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., reshape_bufs_sub .., nullary_bufs_sub .., unary_bufs_sub ..,
    unary_bufs_sub .., ternary_bufs_sub .., reshape_bufs_sub ..⟩

/-- On every device, for any float values, from any memory with zero counters: every weakly fair execution of the
    program terminates with the result buffer at the reference's value of the five arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v43) = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v43).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

/-- The same at the exact instance: floats read as extended reals. -/
theorem run_ideal (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = RefTerm.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.ReferenceIdeal.RefRun

end
-- ==== Proof.RefArgs.lean ====
/-
  The five arguments of the reference, each read as a plain function of coordinates, so that the formulas of the
  shared specification (which speak of one graph's rows, the weight matrix, the tuning vectors and the bias over
  plain indices) can be applied to them.
-/
import proofs.«160056_g68547678044319_fold_wed_c4_656_5_alg».proof.Proof.Gen.ReferenceIdeal
import proofs.«160056_g68547678044319_fold_wed_c4_656_5_alg».proof.Proof.Spec
import Idealize.ShloMosaic.Lib.ValueIdx

noncomputable section

namespace Cert.ReferenceIdeal.RefHead

open Idealize.ShloMosaic Idealize.ShloMosaic.ValueIdx Cert.ReferenceIdeal

/-- The rows of graph `b`: row `s`, feature `c`. -/
def gx (a0 : FVec Ideal S16x4096x128 .f32) (b : Fin 16) : Fin 4096 → Fin 128 → EReal := fun s c => a0 (ix3 b s c)

/-- The weight matrix: feature `c`, lane `k`. -/
def gw (a2 : FVec Ideal S128x512 .f32) : Fin 128 → Fin 512 → EReal := fun c k => a2 (ix2 c k)

/-- The tuning vectors: head `h`, feature `c'`. -/
def gtw (a3 : FVec Ideal S1x4x128 .f32) : Fin 4 → Fin 128 → EReal := fun h c' => a3 (ix3 (0 : Fin 1) h c')

/-- The bias: lane `k`. -/
def gbi (a4 : FVec Ideal S512 .f32) : Fin 512 → EReal := fun k => a4 (ix1 k)

/-- The slope of the leaky rectifier: the number the 32-bit word `0x3E4CCCCD` stands for (0.2 rounded to single precision). -/
def slope : EReal := Ideal.ofBits .f32 0x3E4CCCCD#32

end Cert.ReferenceIdeal.RefHead

end
-- ==== Proof.LibMergeRows.lean ====
/-
  Reshapes that merge or split the two LEADING axes of a rank-3 array, read at an index written by coordinates,
  for any element type and any extents.  A `[p, q, m]` array and the `[P, m]` array with the same row-major order
  (`P = p * q`) hold the same element at `(b, s, k)` and at `(b * q + s, k)`.  Each is the library's
  read-at-an-index lemma for a shape cast with the row-major arithmetic done.
-/
import Idealize.ShloMosaic.Lib.Pipeline.Value
import Idealize.ShloMosaic.Lib.ValueIdx

namespace Idealize.ShloMosaic.ValueIdx

open Idealize.ShloMosaic

variable {α : Type}

/-- A `[p, q, m]` array cast to `[P, m]` reads, at `(r, k)` with `r = b * q + s`, the operand at `(b, s, k)`. -/
theorem shapeCast_mergeRows_apply {p q P m : ℕ} (x : (⟨3, ![p, q, m]⟩ : Shape).Idx → α)
    (hc : (⟨3, ![p, q, m]⟩ : Shape).ShapeCasts ⟨2, ![P, m]⟩)
    (b : Fin p) (s : Fin q) (r : Fin P) (k : Fin m) (hr : r.val = b.val * q + s.val) :
    shapeCast ⟨2, ![P, m]⟩ x hc (ix2 r k) = x (ix3 b s k) :=
  shapeCast_apply x hc _ _ (by
    rw [Shape.rowMajor_val_three, Shape.rowMajor_val_two]
    show (b.val * q + s.val) * m + k.val = r.val * m + k.val
    rw [hr])

/-- A `[P, m]` array cast to `[p, q, m]` reads, at `(b, s, k)`, the operand at `(r, k)` with `r = b * q + s`. -/
theorem shapeCast_splitRows_apply {p q P m : ℕ} (y : (⟨2, ![P, m]⟩ : Shape).Idx → α)
    (hc : (⟨2, ![P, m]⟩ : Shape).ShapeCasts ⟨3, ![p, q, m]⟩)
    (b : Fin p) (s : Fin q) (r : Fin P) (k : Fin m) (hr : r.val = b.val * q + s.val) :
    shapeCast ⟨3, ![p, q, m]⟩ y hc (ix3 b s k) = y (ix2 r k) :=
  shapeCast_apply y hc _ _ (by
    rw [Shape.rowMajor_val_three, Shape.rowMajor_val_two]
    show r.val * m + k.val = (b.val * q + s.val) * m + k.val
    rw [hr])

end Idealize.ShloMosaic.ValueIdx
-- ==== Proof.RefHead1.lean ====
/-
  The reference's projected rows read at an index.

  The reference lays its 16 graphs of 4096 rows end to end as 65536 rows, multiplies them by the weight matrix, adds
  the bias to every row, and reads the 512 lanes of each row as 4 heads of 128 features.  At (graph b, row s, head h,
  feature c') the result is therefore the row `4096·b + s` of the product at lane `128·h + c'`, that is the sum over the
  input features c of x(b, s, c)·w(c, 128·h + c') plus the bias of that lane.
-/
import proofs.«160056_g68547678044319_fold_wed_c4_656_5_alg».proof.Proof.RefTerm
import proofs.«160056_g68547678044319_fold_wed_c4_656_5_alg».proof.Proof.RefArgs
import proofs.«160056_g68547678044319_fold_wed_c4_656_5_alg».proof.Proof.LibDotRows
import proofs.«160056_g68547678044319_fold_wed_c4_656_5_alg».proof.Proof.LibMergeRows
import Idealize.ShloMosaic.Lib.IdealHost
import Idealize.ShloMosaic.Lib.Pipeline.Value

noncomputable section

open scoped BigOperators

namespace Cert.ReferenceIdeal.RefHead

open Idealize.ShloMosaic Idealize.ShloMosaic.ValueIdx Cert.ReferenceIdeal Cert.ReferenceIdeal.Gen Cert.ReferenceIdeal.RefTerm
  Cert.Pooling

/-- A `[P, M]` matrix cast to `[p, q, n, m]` (both axes split, `M = n·m`) reads, at `(b, s, h, c)`, the matrix at
    `(b·q + s, h·m + c)`: the two indices have the same row-major position. -/
theorem shapeCast_splitBoth_apply {α : Type} {p q n m P M : ℕ} (y : (⟨2, ![P, M]⟩ : Shape).Idx → α)
    (hc : (⟨2, ![P, M]⟩ : Shape).ShapeCasts ⟨4, ![p, q, n, m]⟩) (hM : M = n * m)
    (b : Fin p) (s : Fin q) (h : Fin n) (c : Fin m) (r : Fin P) (k : Fin M)
    (hr : r.val = b.val * q + s.val) (hk : k.val = h.val * m + c.val) :
    shapeCast ⟨4, ![p, q, n, m]⟩ y hc (ix4 b s h c) = y (ix2 r k) :=
  shapeCast_apply y hc _ _ (by
    rw [Shape.rowMajor_val_two, Shape.rowMajor_val_four]
    show r.val * M + k.val = ((b.val * q + s.val) * n + h.val) * m + c.val
    rw [hr, hk, hM]; ring)

/-- A vector broadcast to one row and then down `P` rows reads, at `(r, k)`, the vector at `k`. -/
theorem rowBroadcast_apply {α : Type} {P M : ℕ} (v : (⟨1, ![M]⟩ : Shape).Idx → α)
    (h1 : (⟨1, ![M]⟩ : Shape).BroadcastsInDim ⟨2, ![1, M]⟩ (![1] : Fin 1 → Fin 2))
    (h2 : (⟨2, ![1, M]⟩ : Shape).BroadcastsInDim ⟨2, ![P, M]⟩ (![0, 1] : Fin 2 → Fin 2))
    (r : Fin P) (k : Fin M) :
    broadcastInDim ⟨2, ![P, M]⟩ ![0, 1] h2 (broadcastInDim ⟨2, ![1, M]⟩ ![1] h1 v) (ix2 r k) = v (ix1 k) := by
  refine (broadcastInDim_apply _ h2 _ (ix2 r k) (ix2 (0 : Fin 1) k) fun a => ?_).trans ?_
  · match a with
    | ⟨0, _⟩ => rfl
    | ⟨1, _⟩ =>
      show k.val = if M = 1 then 0 else k.val
      split
      · have := k.isLt; omega
      · rfl
  · refine broadcastInDim_apply _ h1 _ (ix2 (0 : Fin 1) k) (ix1 k) fun a => ?_
    match a with
    | ⟨0, _⟩ =>
      show k.val = if M = 1 then 0 else k.val
      split
      · have := k.isLt; omega
      · rfl

/-- THE PROJECTED ROWS AT AN INDEX: row `s` of graph `b` times the weight matrix, plus the bias, at the lane of head `h`
    and feature `c'`. -/
theorem projected_apply (a0 : FVec Ideal S16x4096x128 .f32) (a2 : FVec Ideal S128x512 .f32) (a4 : FVec Ideal S512 .f32)
    (b : Fin 16) (s : Fin 4096) (h : Fin 4) (c' : Fin 128) :
    projected (F := Ideal) a0 a2 a4 (ix4 b s h c') = projR (gx a0 b) (gw a2) (gbi a4) s (lane h c') := by
  unfold projected
  have hrlt : b.val * 4096 + s.val < 65536 := by have := b.isLt; have := s.isLt; omega
  refine (shapeCast_splitBoth_apply _ shapeCasts_S65536x512_S16x4096x4x128 (by norm_num) b s h c'
    (⟨b.val * 4096 + s.val, hrlt⟩ : Fin 65536) (lane h c') rfl (by show 128 * h.val + c'.val = _; omega)).trans ?_
  rw [addf_apply, rowBroadcast_apply]
  unfold projR gbi
  refine congrArg (· + a4 (ix1 (lane h c'))) ?_
  refine (dotGeneral_rows dot_S65536x128_S128x512_S65536x512_1_0_0_1_n_n none .single rfl rfl
    (fun _ _ => rfl) (fun _ _ => rfl) (fun _ _ => rfl) (fun _ _ => rfl) _ a2 _ _).trans ?_
  refine Finset.sum_congr rfl fun c _ => ?_
  rw [shapeCast_mergeRows_apply a0 shapeCasts_S16x4096x128_S65536x128 b s _ c rfl]
  rfl

end Cert.ReferenceIdeal.RefHead

end
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.RefHead2.lean ====
/-
  The reference's soft-max weights read at an index.

  Each stage of the reference between the projected rows and the un-normalised weights is read at one index over
  VARIABLE arrays: which rows count (a signed comparison of the row number with the graph's size), the score of a row
  for a head (a sum over the 128 features), the leaky rectifier, the fill with `-∞` on the rows that do not count, the
  maximum over the rows of one graph (a fold of `max` over the middle axis), and the exponential of the difference,
  zero on the rows that do not count.  Composed, they are the shared specification's `expR`.
-/
import proofs.«160056_g68547678044319_fold_wed_c4_656_5_alg».proof.Proof.RefHead1
import proofs.«160056_g68547678044319_fold_wed_c4_656_5_alg».proof.Proof.LibRowMax
import proofs.«160056_g68547678044319_fold_wed_c4_656_5_alg».proof.Proof.LibLayout3

noncomputable section

open scoped BigOperators

namespace Cert.ReferenceIdeal.RefHead

open Idealize.ShloMosaic Idealize.ShloMosaic.ValueIdx Cert.ReferenceIdeal Cert.ReferenceIdeal.Gen Cert.ReferenceIdeal.RefTerm
  Cert.Pooling

/-! ## Layout steps read at an index, any element type and extents -/

section Layout
variable {α : Type}

/-- A vector of `P` entries broadcast to one column and then along `M` columns reads, at `(r, k)`, the vector at `r`. -/
theorem colBroadcast_apply {P M : ℕ} (v : (⟨1, ![P]⟩ : Shape).Idx → α)
    (h1 : (⟨1, ![P]⟩ : Shape).BroadcastsInDim ⟨2, ![P, 1]⟩ (![0] : Fin 1 → Fin 2))
    (h2 : (⟨2, ![P, 1]⟩ : Shape).BroadcastsInDim ⟨2, ![P, M]⟩ (![0, 1] : Fin 2 → Fin 2))
    (r : Fin P) (k : Fin M) :
    broadcastInDim ⟨2, ![P, M]⟩ ![0, 1] h2 (broadcastInDim ⟨2, ![P, 1]⟩ ![0] h1 v) (ix2 r k) = v (ix1 r) := by
  refine (broadcastInDim_apply _ h2 _ (ix2 r k) (ix2 r (0 : Fin 1)) fun a => ?_).trans ?_
  · match a with
    | ⟨0, _⟩ =>
      show r.val = if P = 1 then 0 else r.val
      split
      · have := r.isLt; omega
      · rfl
    | ⟨1, _⟩ => rfl
  · refine broadcastInDim_apply _ h1 _ (ix2 r (0 : Fin 1)) (ix1 r) fun a => ?_
    match a with
    | ⟨0, _⟩ =>
      show r.val = if P = 1 then 0 else r.val
      split
      · have := r.isLt; omega
      · rfl

/-- An `[A, B]` array given a trailing unit axis and copied along `C` reads, at `(i, j, k)`, the array at `(i, j)`. -/
theorem alongLast_apply {A B C : ℕ} (v : (⟨2, ![A, B]⟩ : Shape).Idx → α)
    (h1 : (⟨2, ![A, B]⟩ : Shape).BroadcastsInDim ⟨3, ![A, B, 1]⟩ (![0, 1] : Fin 2 → Fin 3))
    (h2 : (⟨3, ![A, B, 1]⟩ : Shape).BroadcastsInDim ⟨3, ![A, B, C]⟩ (![0, 1, 2] : Fin 3 → Fin 3))
    (i : Fin A) (j : Fin B) (k : Fin C) :
    broadcastInDim ⟨3, ![A, B, C]⟩ ![0, 1, 2] h2 (broadcastInDim ⟨3, ![A, B, 1]⟩ ![0, 1] h1 v) (ix3 i j k) = v (ix2 i j) := by
  refine (broadcastInDim_apply _ h2 _ (ix3 i j k) (ix3 i j (0 : Fin 1)) fun a => ?_).trans ?_
  · match a with
    | ⟨0, _⟩ =>
      show i.val = if A = 1 then 0 else i.val
      split
      · have := i.isLt; omega
      · rfl
    | ⟨1, _⟩ =>
      show j.val = if B = 1 then 0 else j.val
      split
      · have := j.isLt; omega
      · rfl
    | ⟨2, _⟩ => rfl
  · refine broadcastInDim_apply _ h1 _ (ix3 i j (0 : Fin 1)) (ix2 i j) fun a => ?_
    match a with
    | ⟨0, _⟩ =>
      show i.val = if A = 1 then 0 else i.val
      split
      · have := i.isLt; omega
      · rfl
    | ⟨1, _⟩ =>
      show j.val = if B = 1 then 0 else j.val
      split
      · have := j.isLt; omega
      · rfl

/-- An `[A, C]` array given a middle unit axis and copied along `B` reads, at `(i, j, k)`, the array at `(i, k)`. -/
theorem alongMiddle_apply {A B C : ℕ} (v : (⟨2, ![A, C]⟩ : Shape).Idx → α)
    (h1 : (⟨2, ![A, C]⟩ : Shape).BroadcastsInDim ⟨3, ![A, 1, C]⟩ (![0, 2] : Fin 2 → Fin 3))
    (h2 : (⟨3, ![A, 1, C]⟩ : Shape).BroadcastsInDim ⟨3, ![A, B, C]⟩ (![0, 1, 2] : Fin 3 → Fin 3))
    (i : Fin A) (j : Fin B) (k : Fin C) :
    broadcastInDim ⟨3, ![A, B, C]⟩ ![0, 1, 2] h2 (broadcastInDim ⟨3, ![A, 1, C]⟩ ![0, 2] h1 v) (ix3 i j k) = v (ix2 i k) := by
  refine (broadcastInDim_apply _ h2 _ (ix3 i j k) (ix3 i (0 : Fin 1) k) fun a => ?_).trans ?_
  · match a with
    | ⟨0, _⟩ =>
      show i.val = if A = 1 then 0 else i.val
      split
      · have := i.isLt; omega
      · rfl
    | ⟨1, _⟩ => rfl
    | ⟨2, _⟩ =>
      show k.val = if C = 1 then 0 else k.val
      split
      · have := k.isLt; omega
      · rfl
  · refine broadcastInDim_apply _ h1 _ (ix3 i (0 : Fin 1) k) (ix2 i k) fun a => ?_
    match a with
    | ⟨0, _⟩ =>
      show i.val = if A = 1 then 0 else i.val
      split
      · have := i.isLt; omega
      · rfl
    | ⟨1, _⟩ =>
      show k.val = if C = 1 then 0 else k.val
      split
      · have := k.isLt; omega
      · rfl

/-- A `[1, C, D]` array given a second leading unit axis and copied along `A` and `B` reads, at `(i, j, k, l)`, the array
    at `(0, k, l)`. -/
theorem overRows_apply {A B C D : ℕ} (v : (⟨3, ![1, C, D]⟩ : Shape).Idx → α)
    (h1 : (⟨3, ![1, C, D]⟩ : Shape).BroadcastsInDim ⟨4, ![1, 1, C, D]⟩ (![1, 2, 3] : Fin 3 → Fin 4))
    (h2 : (⟨4, ![1, 1, C, D]⟩ : Shape).BroadcastsInDim ⟨4, ![A, B, C, D]⟩ (![0, 1, 2, 3] : Fin 4 → Fin 4))
    (i : Fin A) (j : Fin B) (k : Fin C) (l : Fin D) :
    broadcastInDim ⟨4, ![A, B, C, D]⟩ ![0, 1, 2, 3] h2 (broadcastInDim ⟨4, ![1, 1, C, D]⟩ ![1, 2, 3] h1 v) (ix4 i j k l)
      = v (ix3 (0 : Fin 1) k l) := by
  refine (broadcastInDim_apply _ h2 _ (ix4 i j k l) (ix4 (0 : Fin 1) (0 : Fin 1) k l) fun a => ?_).trans ?_
  · match a with
    | ⟨0, _⟩ => rfl
    | ⟨1, _⟩ => rfl
    | ⟨2, _⟩ =>
      show k.val = if C = 1 then 0 else k.val
      split
      · have := k.isLt; omega
      · rfl
    | ⟨3, _⟩ =>
      show l.val = if D = 1 then 0 else l.val
      split
      · have := l.isLt; omega
      · rfl
  · refine broadcastInDim_apply _ h1 _ (ix4 (0 : Fin 1) (0 : Fin 1) k l) (ix3 (0 : Fin 1) k l) fun a => ?_
    match a with
    | ⟨0, _⟩ => rfl
    | ⟨1, _⟩ =>
      show k.val = if C = 1 then 0 else k.val
      split
      · have := k.isLt; omega
      · rfl
    | ⟨2, _⟩ =>
      show l.val = if D = 1 then 0 else l.val
      split
      · have := l.isLt; omega
      · rfl

end Layout

/-! ## Two reductions over one axis read at an index -/

/-- Dropping the LAST axis of `[A, B, C, D]`: the index over `(i, j, k)` whose last coordinate is `d` is `(i, j, k, d)`. -/
theorem lift_last_ix3 {A B C D : ℕ} (h : (⟨4, ![A, B, C, D]⟩ : Shape).Reduces [3] (⟨3, ![A, B, C]⟩ : Shape))
    (i : Fin A) (j : Fin B) (k : Fin C) (d : Fin ((⟨4, ![A, B, C, D]⟩ : Shape).size 3)) :
    h.lift (ix3 i j k) d = ix4 i j k (⟨d.val, d.isLt⟩ : Fin D) := by
  funext ax; apply Fin.ext
  fin_cases ax <;> rfl

/-- The host's sum over the LAST axis of a rank-4 array, at the ideal values and at `(i, j, k)`: the initial value plus
    the sum of the entries `x (i, j, k, d)`, `d < D`. -/
theorem hostReduceAdd_last4 {A B C D : ℕ} {φ : FTy} {u : Shape} (x : FVec Ideal ⟨4, ![A, B, C, D]⟩ φ) (init : u.Idx → Ideal φ)
    (h' : (⟨4, ![A, B, C, D]⟩ : Shape).ReducesTo [3] (⟨3, ![A, B, C]⟩ : Shape)) (hu : 0 < u.numel)
    (i : Fin A) (j : Fin B) (k : Fin C) :
    Host.reduceAdd x init h' hu (ix3 i j k) = init (Shape.Idx.first hu) + ∑ d : Fin D, x (ix4 i j k d) := by
  have h : (⟨4, ![A, B, C, D]⟩ : Shape).Reduces [3] (⟨3, ![A, B, C]⟩ : Shape) := ⟨h'.1, Nat.succ_pos 2, h'.2⟩
  rw [hostReduceAdd_apply, Ideal.hostReduceAdd_single h' h]
  have hf : (fun d => x (h.lift (ix3 i j k) d)) = fun d : Fin D => x (ix4 i j k d) :=
    funext fun d => congrArg x (lift_last_ix3 h i j k d)
  exact congrArg (fun f => init (Shape.Idx.first hu) + ∑ d : Fin D, f d) hf

/-- The host's maximum over the MIDDLE axis of a rank-3 array, at the ideal values and at `(i, k)`: the fold of `max`
    from the initial value over the entries `x (i, d, k)`, `d < B`.  The maximum is commutative and associative, so the
    order in which the host visits the axis does not matter. -/
theorem hostReduce_maximumf_mid3 {A B C : ℕ} {φ : FTy} {u : Shape} (x : FVec Ideal ⟨3, ![A, B, C]⟩ φ) (init : u.Idx → Ideal φ)
    (h' : (⟨3, ![A, B, C]⟩ : Shape).ReducesTo [1] (⟨2, ![A, C]⟩ : Shape)) (hu : 0 < u.numel) (i : Fin A) (k : Fin C) :
    Host.reduce FloatOps.maximumf x init h' hu (ix2 i k)
      = (Finset.univ : Finset (Fin B)).fold max (init (Shape.Idx.first hu)) (fun d => x (ix3 i d k)) := by
  have h : (⟨3, ![A, B, C]⟩ : Shape).Reduces [1] (⟨2, ![A, C]⟩ : Shape) := ⟨h'.1, Nat.succ_pos 1, h'.2⟩
  rw [Host.reduce_eq_fold_single FloatOps.maximumf x init h' h hu]
  have hf : (x ∘ h.lift (ix2 i k)) = fun d : Fin B => x (ix3 i d k) :=
    funext fun d => congrArg x (lift_mid_ix2 h i k d)
  exact congrArg (fun f => Finset.fold max (init (Shape.Idx.first hu)) f (Finset.univ : Finset (Fin B))) hf

/-! ## A one-bit word chooses -/

/-- The one-bit word of a truth value chooses the first alternative exactly when the value is true. -/
theorem select_ofBool {α : Type} (v : Bool) (a b : α) : Scalar.select (BitVec.ofBool v) a b = if v = true then a else b := by
  cases v
  · exact select_zero a b
  · exact select_one a b

/-! ## The stages of the reference -/

/-- Row `s` of graph `b` counts: the one-bit word of the signed comparison of the row number with the graph's size. -/
theorem rowMask_apply (a1 : IVec S16 32) (b : Fin 16) (s : Fin 4096) :
    rowMask a1 (ix2 b s) = BitVec.ofBool ((BitVec.ofNat 32 s.val).slt (a1 (ix1 b))) := by
  unfold rowMask
  show IntOp.cmpi .slt (broadcastInDim S16x4096 ![0, 1] bcast_S1x4096_S16x4096_0_1 (broadcastInDim S1x4096 ![1] bcast_S4096_S1x4096_1 (iotaInDim S4096 32 0)) (ix2 b s))
      (broadcastInDim S16x4096 ![0, 1] bcast_S16x1_S16x4096_0_1 (broadcastInDim S16x1 ![0] bcast_S16_S16x1_0 a1) (ix2 b s)) = _
  rw [rowBroadcast_apply, colBroadcast_apply]
  rfl

/-- A chosen value by the row mask is a choice by whether the row counts. -/
theorem select_rowMask {α : Type} (a1 : IVec S16 32) (b : Fin 16) (s : Fin 4096) (x y : α) :
    Scalar.select (rowMask a1 (ix2 b s)) x y = if validRow (a1 (ix1 b)) s then x else y := by
  rw [rowMask_apply, select_ofBool]
  rfl

/-- The row mask copied along the heads reads the row's bit. -/
theorem maskHeads_apply (mk : IVec S16x4096 1) (b : Fin 16) (s : Fin 4096) (h : Fin 4) :
    maskHeads mk (ix3 b s h) = mk (ix2 b s) := by
  unfold maskHeads
  exact alongLast_apply mk _ _ b s h

/-- The score of row `s` of graph `b` for head `h`: the head's tuning vector against the projected row, over the features. -/
theorem scores_apply (a3 : FVec Ideal S1x4x128 .f32) (p : FVec Ideal S16x4096x4x128 .f32) (b : Fin 16) (s : Fin 4096) (h : Fin 4) :
    scores (F := Ideal) a3 p (ix3 b s h) = ∑ c' : Fin 128, a3 (ix3 (0 : Fin 1) h c') * p (ix4 b s h c') := by
  unfold scores
  rw [hostReduceAdd_last4]
  show Ideal.ofBits .f32 0x00000000#32 + _ = _
  rw [Ideal.ofBits_zero_f32, zero_add]
  refine Finset.sum_congr rfl fun c' _ => ?_
  rw [mulf_apply, overRows_apply]

/-- The leaky rectifier at an index: the score where it is not negative, the slope times the score elsewhere. -/
theorem rectified_apply (sc : FVec Ideal S16x4096x4 .f32) (j : S16x4096x4.Idx) :
    rectified (F := Ideal) sc j = leakyNonneg slope (sc j) := by
  unfold rectified
  rw [select_apply, cmpf_apply, mulf_apply, broadcastInDim_scalar_apply, broadcastInDim_scalar_apply]
  show Scalar.select (BitVec.ofBool (decide (Ideal.ofBits .f32 0x00000000#32 ≤ sc j))) (sc j) (Ideal.ofBits .f32 0x3E4CCCCD#32 * sc j) = _
  rw [Ideal.ofBits_zero_f32, select_ofBool]
  unfold leakyNonneg slope
  simp only [decide_eq_true_eq]

/-- The rectified scores with `-∞` on the rows the mask leaves out. -/
theorem maskedScores_apply (mk : IVec S16x4096 1) (r : FVec Ideal S16x4096x4 .f32) (b : Fin 16) (s : Fin 4096) (h : Fin 4) :
    maskedScores (F := Ideal) mk r (ix3 b s h) = Scalar.select (mk (ix2 b s)) (r (ix3 b s h)) ⊥ := by
  unfold maskedScores
  rw [select_apply, maskHeads_apply, broadcastInDim_scalar_apply]
  show Scalar.select (mk (ix2 b s)) (r (ix3 b s h)) (Ideal.ofBits .f32 0xFF800000#32) = _
  rw [RowMax.ofBits_ninf_f32]

/-- The largest masked score of graph `b` and head `h`: the fold of `max` from `-∞` over the graph's rows. -/
theorem rowMax_apply (ms : FVec Ideal S16x4096x4 .f32) (b : Fin 16) (h : Fin 4) :
    rowMax (F := Ideal) ms (ix2 b h) = (Finset.univ : Finset (Fin 4096)).fold max ⊥ (fun s => ms (ix3 b s h)) := by
  unfold rowMax
  rw [hostReduce_maximumf_mid3]
  show (Finset.univ : Finset (Fin 4096)).fold max (Ideal.ofBits .f32 0xFF800000#32) _ = _
  rw [RowMax.ofBits_ninf_f32]

/-- A per-graph, per-head quantity copied along the rows reads the graph's and head's entry. -/
theorem alongRows_apply (q : FVec Ideal S16x4 .f32) (b : Fin 16) (s : Fin 4096) (h : Fin 4) :
    alongRows (F := Ideal) q (ix3 b s h) = q (ix2 b h) := by
  unfold alongRows
  exact alongMiddle_apply q _ _ b s h

/-- The un-normalised weight: the exponential of the score less the maximum, zero on the rows the mask leaves out. -/
theorem expWeights_apply (mk : IVec S16x4096 1) (r : FVec Ideal S16x4096x4 .f32) (mx : FVec Ideal S16x4 .f32)
    (b : Fin 16) (s : Fin 4096) (h : Fin 4) :
    expWeights (F := Ideal) mk r mx (ix3 b s h)
      = Scalar.select (mk (ix2 b s)) (Ideal.exp (r (ix3 b s h) - mx (ix2 b h))) 0 := by
  unfold expWeights
  rw [select_apply, maskHeads_apply, broadcastInDim_scalar_apply]
  show Scalar.select (mk (ix2 b s)) (Ideal.exp (subf r (alongRows mx) (ix3 b s h))) (Ideal.ofBits .f32 0x00000000#32) = _
  rw [Ideal.ofBits_zero_f32, subf_apply, alongRows_apply]

/-! ## The weights from projected rows that are known at every index of one graph -/

/-- If the projected rows of graph `b` are `projR x w bi`, the reference's weights of that graph are the specification's
    `expR` over the rows that count. -/
theorem headWeights_of_rows (a1 : IVec S16 32) (a3 : FVec Ideal S1x4x128 .f32) (p : FVec Ideal S16x4096x4x128 .f32) (b : Fin 16)
    (x : Fin 4096 → Fin 128 → EReal) (w : Fin 128 → Fin 512 → EReal) (bi : Fin 512 → EReal)
    (hp : ∀ (s : Fin 4096) (h : Fin 4) (c' : Fin 128), p (ix4 b s h c') = projR x w bi s (lane h c'))
    (s : Fin 4096) (h : Fin 4) :
    headWeights (F := Ideal) a1 a3 p (ix3 b s h) = expR x w (gtw a3) bi slope (validRow (a1 (ix1 b))) s h := by
  have hr : ∀ s' : Fin 4096, rectified (F := Ideal) (scores (F := Ideal) a3 p) (ix3 b s' h)
      = leakyNonneg slope (scoreR x w (gtw a3) bi s' h) := fun s' => by
    rw [rectified_apply, scores_apply]
    unfold scoreR gtw
    exact congrArg (leakyNonneg slope) (Finset.sum_congr rfl fun c' _ => by rw [hp])
  have hmax : rowMax (F := Ideal) (maskedScores (F := Ideal) (rowMask a1) (rectified (F := Ideal) (scores (F := Ideal) a3 p))) (ix2 b h)
      = maxR x w (gtw a3) bi slope (validRow (a1 (ix1 b))) h := by
    rw [rowMax_apply]
    unfold maxR maskedR
    refine congrArg (fun f => Finset.fold max ⊥ f (Finset.univ : Finset (Fin 4096))) (funext fun s' => ?_)
    rw [maskedScores_apply, select_rowMask, hr]
  unfold headWeights
  rw [expWeights_apply, hmax, hr, select_rowMask]
  rfl

/-- THE SOFT-MAX WEIGHTS AT AN INDEX, from the arguments. -/
theorem headWeights_apply (a0 : FVec Ideal S16x4096x128 .f32) (a1 : IVec S16 32) (a2 : FVec Ideal S128x512 .f32)
    (a3 : FVec Ideal S1x4x128 .f32) (a4 : FVec Ideal S512 .f32) (b : Fin 16) (s : Fin 4096) (h : Fin 4) :
    headWeights (F := Ideal) a1 a3 (projected (F := Ideal) a0 a2 a4) (ix3 b s h)
      = expR (gx a0 b) (gw a2) (gtw a3) (gbi a4) slope (validRow (a1 (ix1 b))) s h :=
  headWeights_of_rows a1 a3 (projected (F := Ideal) a0 a2 a4) b (gx a0 b) (gw a2) (gbi a4)
    (fun s' h' c' => projected_apply a0 a2 a4 b s' h' c') s h

end Cert.ReferenceIdeal.RefHead

end
-- ==== Proof.LibHostScatterIdeal.lean ====
import Idealize.ShloMosaic.PureOps.Ideal

/-!
  THE HOST'S ACCUMULATING SCATTER AT THE IDEAL VALUES, WITHOUT OPENING IT.

  The host program's accumulating float scatter `Host.scatterAdd d x idx upd` is, at the ideal values, the exact
  function `Ideal.hostScatterAdd d x idx upd`: each operand element plus the sum of the update elements that land on it.
  Both steps of this identification are definitional, but at a full-size update array (hundreds of thousands of
  updates) a goal must never be asked to see that by unfolding: the exact function's body is an extended-real sum over
  every update index. So the first step is stated for an ARBITRARY float instance, where the operation is a field of
  an unknown structure and nothing can unfold, and the second is the instance's own equation; a proof rewrites with
  this lemma as a whole and then reads the result with a lemma about `Ideal.hostScatterAdd` (a segment sum read at an
  index, say).
-/

namespace Idealize.ShloMosaic

/-- The host's accumulating scatter is the float instance's `hostScatterAdd` at the single-device schedule, at any
    instance. -/
theorem Host.scatterAdd_eq_hostScatterAdd {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- At the ideal values it is the exact accumulating scatter. -/
theorem Host.scatterAdd_ideal {s si u : Shape} {φ : FTy} {w : Nat}
    (d : ScatterDims s si u) (x : FVec Ideal s φ) (idx : IVec si w) (upd : FVec Ideal u φ) :
    Host.scatterAdd d x idx upd = Ideal.hostScatterAdd d x idx upd :=
  (Host.scatterAdd_eq_hostScatterAdd d x idx upd).trans (Ideal.hostScatterAdd_def d .single x idx upd)

end Idealize.ShloMosaic
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.RefTail.lean ====
/-
  The reference's closing stages read at an index.

  Given the un-normalised soft-max weights e (graph × row × head) and the projected rows p (graph × row × head × feature),
  the reference adds the weights of each graph's rows into one total per graph and head, divides every weight by its
  graph's total, multiplies the projected rows by the normalised weights, adds the weighted rows of each graph into one
  row per graph, head and feature, and lays the heads' features end to end, 128 lanes per head. The two additions are
  accumulating scatters of the 65536 rows (graph b's row s is row 4096 b + s) into zero arrays, addressed by a column of
  row numbers that holds, in row 4096 b + s, the word of b. At the exact values a scatter into zero is the sum of the
  updates that land on the cell, so the result at (b, 128 h + c) is the sum over the rows s of graph b of
  p (b, s, h, c) · e (b, s, h) / Σ_s' e (b, s', h).
-/
import proofs.«160056_g68547678044319_fold_wed_c4_656_5_alg».proof.Proof.RefTerm
import proofs.«160056_g68547678044319_fold_wed_c4_656_5_alg».proof.Proof.LibHostScatterIdeal
import proofs.«160056_g68547678044319_fold_wed_c4_656_5_alg».proof.Proof.LibScatterRows
import Idealize.ShloMosaic.Lib.IdealHost
import Idealize.ShloMosaic.Lib.Pipeline.Value

noncomputable section

open scoped BigOperators

namespace Cert.ReferenceIdeal.RefTail

open Idealize.ShloMosaic Idealize.ShloMosaic.ValueIdx Cert.ReferenceIdeal Cert.ReferenceIdeal.Gen
  Cert.ReferenceIdeal.RefTerm

/-! ## The 65536 rows as 16 graphs of 4096 rows -/

/-- Row s of graph b among the 65536 rows. -/
def row (b : Fin 16) (s : Fin 4096) : Fin 65536 := ⟨4096 * b.val + s.val, by omega⟩

/-- The rows are the pairs (graph, row of the graph): quotient and remainder by 4096. -/
def rowEquiv : Fin 16 × Fin 4096 ≃ Fin 65536 where
  toFun p := row p.1 p.2
  invFun r := (⟨r.val / 4096, by omega⟩, ⟨r.val % 4096, by omega⟩)
  left_inv p := by
    obtain ⟨b, s⟩ := p
    refine Prod.ext (Fin.ext ?_) (Fin.ext ?_)
    · show (4096 * b.val + s.val) / 4096 = b.val
      omega
    · show (4096 * b.val + s.val) % 4096 = s.val
      omega
  right_inv r := by
    refine Fin.ext ?_
    show 4096 * (r.val / 4096) + r.val % 4096 = r.val
    omega

/-- A sum over the 65536 rows is the sum over the graphs of the sums over their rows. -/
theorem sum_rows {M : Type*} [AddCommMonoid M] (g : Fin 65536 → M) :
    ∑ r, g r = ∑ b : Fin 16, ∑ s : Fin 4096, g (row b s) := by
  rw [← Equiv.sum_comp rowEquiv g, Fintype.sum_prod_type]
  rfl

/-- The word of a graph number, read signed, is the graph number: it is far below 2³¹. -/
theorem toInt_word (b : Fin 16) : (BitVec.ofNat 32 b.val).toInt = (b.val : Int) := by
  have hb := b.isLt
  have hn : (BitVec.ofNat 32 b.val).toNat = b.val := by
    rw [BitVec.toNat_ofNat]; omega
  rw [BitVec.toInt_eq_toNat_of_lt (by rw [hn]; omega), hn]

/-- Of the 65536 rows, those whose row number (a word read signed) is b are the 4096 rows of graph b, whenever the
    column of row numbers holds in each row the word of its graph. -/
theorem sum_rows_of_graph {M : Type*} [AddCommMonoid M] (idx : Fin 65536 → BitVec 32)
    (hidx : ∀ (b : Fin 16) (s : Fin 4096), idx (row b s) = BitVec.ofNat 32 b.val) (g : Fin 65536 → M) (b : Fin 16) :
    ∑ r ∈ Finset.univ.filter (fun r : Fin 65536 => (idx r).toInt = (b.val : Int)), g r
      = ∑ s : Fin 4096, g (row b s) := by
  rw [Finset.sum_filter, sum_rows, Finset.sum_eq_single b]
  · refine Finset.sum_congr rfl fun s _ => ?_
    rw [hidx, if_pos (toInt_word b)]
  · intro b' _ hne
    refine Finset.sum_eq_zero fun s _ => ?_
    rw [hidx, toInt_word, if_neg]
    intro h
    exact hne (Fin.ext (by exact_mod_cast h))
  · intro h
    exact absurd (Finset.mem_univ b) h

/-! ## The column of row numbers -/

/-- Row 4096 b + s of the column of row numbers holds the word of b: the numbers 0 … 15 copied along the 4096 rows of
    each graph, laid out as one list of 65536, then as a column. -/
theorem segIds_apply (b : Fin 16) (s : Fin 4096) :
    segIds (ix2 (row b s) (0 : Fin 1)) = BitVec.ofNat 32 b.val := by
  unfold segIds
  refine (broadcastInDim_apply _ _ _ _ (ix1 (row b s)) ?_).trans ?_
  · intro a
    match a with
    | ⟨0, _⟩ => rfl
  refine (shapeCast_apply _ _ _ (ix2 b s) ?_).trans ?_
  · rw [Shape.rowMajor_val_two, Shape.rowMajor_val_one]
    show b.val * 4096 + s.val = 4096 * b.val + s.val
    omega
  refine (broadcastInDim_apply _ _ _ _ (ix1 b) ?_).trans ?_
  · intro a
    match a with
    | ⟨0, _⟩ => rfl
  rfl

/-! ## A graph × row × … array as a list of 65536 rows -/

/-- The weights as 65536 rows of 4 read at row 4096 b + s. -/
theorem rows3_apply {α : Type} (e : S16x4096x4.Idx → α) (b : Fin 16) (s : Fin 4096) (h : Fin 4) :
    shapeCast S65536x4 e shapeCasts_S16x4096x4_S65536x4 (ix2 (row b s) h) = e (ix3 b s h) :=
  shapeCast_apply e _ _ (ix3 b s h) (by
    rw [Shape.rowMajor_val_three, Shape.rowMajor_val_two]
    show (b.val * 4096 + s.val) * 4 + h.val = (4096 * b.val + s.val) * 4 + h.val
    omega)

/-! ## The totals -/

/-- The total of graph b and head h is the sum of the weights of the graph's rows. -/
theorem totals_apply (e : FVec Ideal S16x4096x4 .f32) (b : Fin 16) (h : Fin 4) :
    totals (F := Ideal) e (ix2 b h) = ∑ s : Fin 4096, e (ix3 b s h) := by
  unfold totals
  rw [Host.scatterAdd_ideal, ScatterRows.hostScatterAdd_rows2 _ rfl rfl rfl rfl,
    broadcastInDim_scalar_apply, constant_apply, Ideal.ofBits_zero_f32, zero_add,
    sum_rows_of_graph (fun r => segIds (ix2 r (0 : Fin 1))) segIds_apply]
  exact Finset.sum_congr rfl fun s _ => rows3_apply e b s h

/-! ## The normalised weights and the weighted rows -/

/-- A per-graph, per-head quantity copied along the rows reads the quantity of the row's graph. -/
theorem alongRows_apply (q : FVec Ideal S16x4 .f32) (b : Fin 16) (s : Fin 4096) (h : Fin 4) :
    alongRows (F := Ideal) q (ix3 b s h) = q (ix2 b h) := by
  unfold alongRows
  refine (broadcastInDim_apply _ _ _ _ (ix3 b (0 : Fin 1) h) ?_).trans ?_
  · intro a
    match a with
    | ⟨0, _⟩ => rfl
    | ⟨1, _⟩ => rfl
    | ⟨2, _⟩ => rfl
  refine broadcastInDim_apply _ _ _ _ (ix2 b h) ?_
  intro a
  match a with
  | ⟨0, _⟩ => rfl
  | ⟨1, _⟩ => rfl

/-- A normalised weight is the weight divided by the total of its graph and head. -/
theorem weights_apply (e : FVec Ideal S16x4096x4 .f32) (tot : FVec Ideal S16x4 .f32) (b : Fin 16) (s : Fin 4096)
    (h : Fin 4) :
    weights (F := Ideal) e tot (ix3 b s h) = Ideal.div (e (ix3 b s h)) (tot (ix2 b h)) := by
  unfold weights
  rw [hostDivf_apply, alongRows_apply]

/-- A weighted row is the projected row times the weight of its graph, row and head, the same for every feature. -/
theorem weighted_apply (p : FVec Ideal S16x4096x4x128 .f32) (wt : FVec Ideal S16x4096x4 .f32) (b : Fin 16)
    (s : Fin 4096) (h : Fin 4) (c : Fin 128) :
    weighted (F := Ideal) p wt (ix4 b s h c) = p (ix4 b s h c) * wt (ix3 b s h) := by
  unfold weighted
  rw [mulf_apply]
  congr 1
  refine (broadcastInDim_apply _ _ _ _ (ix4 b s h (0 : Fin 1)) ?_).trans ?_
  · intro a
    match a with
    | ⟨0, _⟩ => rfl
    | ⟨1, _⟩ => rfl
    | ⟨2, _⟩ => rfl
    | ⟨3, _⟩ => rfl
  refine broadcastInDim_apply _ _ _ _ (ix3 b s h) ?_
  intro a
  match a with
  | ⟨0, _⟩ => rfl
  | ⟨1, _⟩ => rfl
  | ⟨2, _⟩ => rfl

/-! ## The weighted sum per graph -/

/-- The weighted rows as 65536 rows of 4 × 128 read at row 4096 b + s. -/
theorem rows4_apply {α : Type} (wp : S16x4096x4x128.Idx → α) (b : Fin 16) (s : Fin 4096) (h : Fin 4) (c : Fin 128) :
    shapeCast S65536x4x128 wp shapeCasts_S16x4096x4x128_S65536x4x128 (ix3 (row b s) h c) = wp (ix4 b s h c) :=
  shapeCast_apply wp _ _ (ix4 b s h c) (by
    rw [Shape.rowMajor_val_four, Shape.rowMajor_val_three]
    show ((b.val * 4096 + s.val) * 4 + h.val) * 128 + c.val = ((4096 * b.val + s.val) * 4 + h.val) * 128 + c.val
    omega)

/-- The pooled row of graph b at head h and feature c is the sum of the graph's weighted rows there. -/
theorem pooled_apply (wp : FVec Ideal S16x4096x4x128 .f32) (b : Fin 16) (h : Fin 4) (c : Fin 128) :
    pooled (F := Ideal) wp (ix3 b h c) = ∑ s : Fin 4096, wp (ix4 b s h c) := by
  unfold pooled
  rw [Host.scatterAdd_ideal, ScatterRows.hostScatterAdd_rows3 _ rfl rfl rfl rfl,
    broadcastInDim_scalar_apply, constant_apply, Ideal.ofBits_zero_f32, zero_add,
    sum_rows_of_graph (fun r => segIds (ix2 r (0 : Fin 1))) segIds_apply]
  exact Finset.sum_congr rfl fun s _ => rows4_apply wp b s h c

/-! ## The result -/

/-- The result at graph b and lane 128 h + c: the sum over the graph's rows of the projected row's feature c of head h
    times the row's weight for head h divided by the graph's total weight for head h. -/
theorem tail_apply (p : FVec Ideal S16x4096x4x128 .f32) (e : FVec Ideal S16x4096x4 .f32) (b : Fin 16) (h : Fin 4)
    (c' : Fin 128) :
    tail (F := Ideal) p e (ix2 b (⟨128 * h.val + c'.val, by omega⟩ : Fin 512))
      = ∑ s : Fin 4096, p (ix4 b s h c') * Ideal.div (e (ix3 b s h)) (∑ s' : Fin 4096, e (ix3 b s' h)) := by
  unfold tail
  refine (shapeCast_apply _ _ _ (ix3 b h c') ?_).trans ?_
  · rw [Shape.rowMajor_val_three, Shape.rowMajor_val_two]
    show (b.val * 4 + h.val) * 128 + c'.val = b.val * 512 + (128 * h.val + c'.val)
    omega
  rw [pooled_apply]
  refine Finset.sum_congr rfl fun s _ => ?_
  rw [weighted_apply, weights_apply, totals_apply]

end Cert.ReferenceIdeal.RefTail

end
-- ==== Proof.RefValue.lean ====
/-
  The reference's result read at an index.

  Lane `k` of graph `b` is head `k / 128`, feature `k % 128`.  The last part of the reference sums, over the rows of the
  graph, the projected row at that head and feature times the row's normalised weight (the weight over the weights'
  total); the projected rows and the weights were read at an index before.  Put together, the result at `(b, k)` is the
  shared specification's `projectedFirst` of the graph's arguments.
-/
import proofs.«160056_g68547678044319_fold_wed_c4_656_5_alg».proof.Proof.RefHead2
import proofs.«160056_g68547678044319_fold_wed_c4_656_5_alg».proof.Proof.RefTail
import proofs.«160056_g68547678044319_fold_wed_c4_656_5_alg».proof.Proof.Spec

noncomputable section

open scoped BigOperators

namespace Cert.ReferenceIdeal.RefHead

open Idealize.ShloMosaic Idealize.ShloMosaic.ValueIdx Cert.ReferenceIdeal Cert.ReferenceIdeal.Gen Cert.ReferenceIdeal.RefTerm
  Cert.Pooling

/-- The result at the lane of head `h` and feature `c'`: the projected rows summed with their normalised weights. -/
theorem refOut_lane (a0 : FVec Ideal S16x4096x128 .f32) (a1 : IVec S16 32) (a2 : FVec Ideal S128x512 .f32)
    (a3 : FVec Ideal S1x4x128 .f32) (a4 : FVec Ideal S512 .f32) (b : Fin 16) (h : Fin 4) (c' : Fin 128) :
    refOut (F := Ideal) a0 a1 a2 a3 a4 (ix2 b (lane h c'))
      = projectedFirst (gx a0 b) (gw a2) (gtw a3) (gbi a4) slope (validRow (a1 (ix1 b))) h c' := by
  unfold refOut
  refine (RefTail.tail_apply _ _ b h c').trans ?_
  -- the weights' total of the graph and head
  have htot : (∑ s' : Fin 4096, headWeights (F := Ideal) a1 a3 (projected (F := Ideal) a0 a2 a4) (ix3 b s' h))
      = totalR (gx a0 b) (gw a2) (gtw a3) (gbi a4) slope (validRow (a1 (ix1 b))) h := by
    unfold totalR
    exact Finset.sum_congr rfl fun s' _ => headWeights_apply a0 a1 a2 a3 a4 b s' h
  rw [htot]
  unfold projectedFirst weightR
  refine Finset.sum_congr rfl fun s _ => ?_
  rw [projected_apply, headWeights_apply]

/-- THE REFERENCE'S RESULT AT AN INDEX: graph `b`, lane `k`. -/
theorem refOut_apply (a0 : FVec Ideal S16x4096x128 .f32) (a1 : IVec S16 32) (a2 : FVec Ideal S128x512 .f32)
    (a3 : FVec Ideal S1x4x128 .f32) (a4 : FVec Ideal S512 .f32) (b : Fin 16) (k : Fin 512) :
    refOut (F := Ideal) a0 a1 a2 a3 a4 (ix2 b k)
      = projectedFirst (gx a0 b) (gw a2) (gtw a3) (gbi a4) slope (validRow (a1 (ix1 b))) (headOf k) (featOf k) := by
  have hl := refOut_lane a0 a1 a2 a3 a4 b (headOf k) (featOf k)
  rwa [lane_headOf_featOf] at hl

end Cert.ReferenceIdeal.RefHead

end
-- ==== Proof.Algebra.lean ====
/-
  The two pooling formulas of module Spec are one function.

  Every entry of the tables is a real number and at least one row counts.  The argument, in order:

  * the score through the folded matrix and the score of the projected row against the tuning vector are the
    same real number (the folded matrix only keeps the 128 lanes of the head in question, and multiplication
    distributes over the finite sums);
  * the two rectifiers differ only at zero, where both give zero, so the masked scores and their maxima agree;
  * the maximum is a real number (some row counts, and every masked score is a real number or minus infinity),
    so every soft-max weight is a non-negative real number, positive on the rows that count: the total is a
    positive real number and dividing by it is ordinary division;
  * over the reals, dividing the pooled row by the total and projecting it afterwards, plus the bias, equals the
    sum of the projected and biased rows with the normalised weights, because those weights sum to one.
-/
import proofs.«160056_g68547678044319_fold_wed_c4_656_5_alg».proof.Proof.Spec
import Mathlib.Data.Finset.Fold
import Mathlib.Algebra.Order.BigOperators.Group.Finset
import Mathlib.Algebra.BigOperators.Ring.Finset

noncomputable section

namespace Cert.Pooling

open Idealize.ShloMosaic

/-! ## Real numbers inside the extended reals -/

/-- The inclusion of the reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Division of a real number by a non-zero real number is ordinary division. -/
theorem div_coe (a d : ℝ) (hd : d ≠ 0) : Ideal.div (a : EReal) (d : EReal) = ((a / d : ℝ) : EReal) := by
  unfold Ideal.div
  rw [if_neg (by exact_mod_cast hd), ← EReal.coe_inv, ← EReal.coe_mul, div_eq_mul_inv]

/-! ## The lanes of one head -/

/-- The 512 lanes are the pairs of a head and a feature. -/
def laneEquiv : Fin 4 × Fin 128 ≃ Fin 512 where
  toFun p := lane p.1 p.2
  invFun k := (headOf k, featOf k)
  left_inv p := by
    show (headOf (lane p.1 p.2), featOf (lane p.1 p.2)) = p
    rw [headOf_lane, featOf_lane]
  right_inv k := lane_headOf_featOf k

/-- A sum over all lanes that only keeps the lanes of head \`h\` is the sum over that head's 128 features. -/
theorem sum_head_indicator {M : Type*} [AddCommMonoid M] (f : Fin 512 → M) (h : Fin 4) :
    (∑ k : Fin 512, if headOf k = h then f k else 0) = ∑ c' : Fin 128, f (lane h c') := by
  calc (∑ k : Fin 512, if headOf k = h then f k else 0)
      = ∑ p : Fin 4 × Fin 128, (if headOf (lane p.1 p.2) = h then f (lane p.1 p.2) else 0) :=
        (laneEquiv.sum_comp (fun k => if headOf k = h then f k else 0)).symm
    _ = ∑ h' : Fin 4, ∑ c' : Fin 128, (if h' = h then f (lane h' c') else 0) := by
        rw [Fintype.sum_prod_type]; simp only [headOf_lane]
    _ = ∑ h' : Fin 4, (if h' = h then ∑ c' : Fin 128, f (lane h' c') else 0) := by
        refine Finset.sum_congr rfl fun h' _ => ?_
        by_cases hh : h' = h
        · simp only [if_pos hh]
        · simp only [if_neg hh, Finset.sum_const_zero]
    _ = ∑ c' : Fin 128, f (lane h c') := by
        rw [Finset.sum_ite_eq' Finset.univ h, if_pos (Finset.mem_univ _)]

section Folded

variable (w : Fin 128 → Fin 512 → EReal) (tw : Fin 4 → Fin 128 → EReal) (bi : Fin 512 → EReal)

/-- The folded matrix only sees the lanes of its head. -/
theorem foldedW_eq (c : Fin 128) (h : Fin 4) :
    foldedW w tw c h = ∑ c' : Fin 128, w c (lane h c') * tw h c' := by
  unfold foldedW tmat
  simp only [mul_ite, mul_zero]
  rw [sum_head_indicator (fun k => w c k * tw (headOf k) (featOf k)) h]
  simp only [headOf_lane, featOf_lane]

/-- The folded bias only sees the lanes of its head. -/
theorem foldedB_eq (h : Fin 4) :
    foldedB tw bi h = ∑ c' : Fin 128, bi (lane h c') * tw h c' := by
  unfold foldedB tmat
  simp only [mul_ite, mul_zero]
  rw [sum_head_indicator (fun k => bi k * tw (headOf k) (featOf k)) h]
  simp only [headOf_lane, featOf_lane]

end Folded

/-! ## The same quantities over the reals -/

section Twins

variable (xr : Fin 4096 → Fin 128 → ℝ) (wr : Fin 128 → Fin 512 → ℝ) (twr : Fin 4 → Fin 128 → ℝ)
  (bir : Fin 512 → ℝ) (lr : ℝ) (valid : Fin 4096 → Prop) [DecidablePred valid]

/-- Row \`s\` projected and biased. -/
def rowReal (s : Fin 4096) (k : Fin 512) : ℝ := (∑ c : Fin 128, xr s c * wr c k) + bir k

/-- The score of row \`s\` for head \`h\`. -/
def scoreReal (s : Fin 4096) (h : Fin 4) : ℝ := ∑ c' : Fin 128, twr h c' * rowReal xr wr bir s (lane h c')

/-- The leaky rectifier. -/
def leakyReal (a : ℝ) : ℝ := if 0 ≤ a then a else lr * a

/-- The rectified score. -/
def maskedReal (s : Fin 4096) (h : Fin 4) : ℝ := leakyReal lr (scoreReal xr wr twr bir s h)

/-- The soft-max weight of row \`s\` against the reference level \`m\`: zero on the rows that do not count. -/
def expReal (m : ℝ) (s : Fin 4096) (h : Fin 4) : ℝ :=
  if valid s then Real.exp (maskedReal xr wr twr bir lr s h - m) else 0

/-- Distributing the tuning vector over the projected row: the folded score is the score. -/
theorem folded_score_real (s : Fin 4096) (h : Fin 4) :
    (∑ c : Fin 128, xr s c * ∑ c' : Fin 128, wr c (lane h c') * twr h c')
        + ∑ c' : Fin 128, bir (lane h c') * twr h c'
      = scoreReal xr wr twr bir s h := by
  unfold scoreReal rowReal
  simp only [mul_add, Finset.sum_add_distrib, Finset.mul_sum]
  congr 1
  · rw [Finset.sum_comm]
    refine Finset.sum_congr rfl fun c' _ => Finset.sum_congr rfl fun c _ => ?_
    ring
  · refine Finset.sum_congr rfl fun c' _ => ?_
    ring

end Twins

/-! ## The extended-real quantities are the real ones -/

/-- Every table of the statement is the image of a real table. -/
structure Lifted (x : Fin 4096 → Fin 128 → EReal) (w : Fin 128 → Fin 512 → EReal) (tw : Fin 4 → Fin 128 → EReal)
    (bi : Fin 512 → EReal) (l : EReal)
    (xr : Fin 4096 → Fin 128 → ℝ) (wr : Fin 128 → Fin 512 → ℝ) (twr : Fin 4 → Fin 128 → ℝ)
    (bir : Fin 512 → ℝ) (lr : ℝ) : Prop where
  hx : ∀ s c, x s c = (xr s c : EReal)
  hw : ∀ c k, w c k = (wr c k : EReal)
  htw : ∀ h c', tw h c' = (twr h c' : EReal)
  hb : ∀ k, bi k = (bir k : EReal)
  hl : l = (lr : EReal)

/-- The two rectifiers differ only at zero, where both give zero. -/
theorem leakyPos_eq_leakyNonneg (l a : EReal) : leakyPos l a = leakyNonneg l a := by
  unfold leakyPos leakyNonneg
  by_cases h : 0 < a
  · rw [if_pos h, if_pos h.le]
  · rw [if_neg h]
    by_cases h0 : 0 ≤ a
    · have ha : a = 0 := le_antisymm (not_lt.mp h) h0
      rw [if_pos h0, ha, mul_zero]
    · rw [if_neg h0]

/-- The rectifier of a real number with a real slope. -/
theorem leakyNonneg_coe (lr a : ℝ) :
    leakyNonneg (lr : EReal) (a : EReal) = ((leakyReal lr a : ℝ) : EReal) := by
  unfold leakyNonneg leakyReal
  by_cases h : 0 ≤ a
  · rw [if_pos (EReal.coe_nonneg.mpr h), if_pos h]
  · rw [if_neg (fun h' => h (EReal.coe_nonneg.mp h')), if_neg h, EReal.coe_mul]

section Lift

variable {x : Fin 4096 → Fin 128 → EReal} {w : Fin 128 → Fin 512 → EReal} {tw : Fin 4 → Fin 128 → EReal}
  {bi : Fin 512 → EReal} {l : EReal} {valid : Fin 4096 → Prop} [DecidablePred valid]
  {xr : Fin 4096 → Fin 128 → ℝ} {wr : Fin 128 → Fin 512 → ℝ} {twr : Fin 4 → Fin 128 → ℝ}
  {bir : Fin 512 → ℝ} {lr : ℝ}

theorem projR_coe (L : Lifted x w tw bi l xr wr twr bir lr) (s : Fin 4096) (k : Fin 512) :
    projR x w bi s k = ((rowReal xr wr bir s k : ℝ) : EReal) := by
  simp only [projR, rowReal, L.hx, L.hw, L.hb, EReal.coe_add, coe_sum, EReal.coe_mul]

theorem scoreR_coe (L : Lifted x w tw bi l xr wr twr bir lr) (s : Fin 4096) (h : Fin 4) :
    scoreR x w tw bi s h = ((scoreReal xr wr twr bir s h : ℝ) : EReal) := by
  simp only [scoreR, scoreReal, projR_coe L, L.htw, coe_sum, EReal.coe_mul]

theorem scoreP_coe (L : Lifted x w tw bi l xr wr twr bir lr) (s : Fin 4096) (h : Fin 4) :
    scoreP x w tw bi s h = ((scoreReal xr wr twr bir s h : ℝ) : EReal) := by
  rw [← folded_score_real xr wr twr bir s h]
  simp only [scoreP, foldedW_eq, foldedB_eq, L.hx, L.hw, L.htw, L.hb, EReal.coe_add, coe_sum, EReal.coe_mul]

/-- The two masked scores agree. -/
theorem maskedP_eq_maskedR (L : Lifted x w tw bi l xr wr twr bir lr) (s : Fin 4096) (h : Fin 4) :
    maskedP x w tw bi l valid s h = maskedR x w tw bi l valid s h := by
  unfold maskedP maskedR
  rw [leakyPos_eq_leakyNonneg, scoreP_coe L, scoreR_coe L]

/-- The masked score is a real number on the rows that count and minus infinity elsewhere. -/
theorem maskedR_eq (L : Lifted x w tw bi l xr wr twr bir lr) (s : Fin 4096) (h : Fin 4) :
    maskedR x w tw bi l valid s h
      = if valid s then ((maskedReal xr wr twr bir lr s h : ℝ) : EReal) else ⊥ := by
  unfold maskedR maskedReal
  rw [scoreR_coe L, L.hl, leakyNonneg_coe]

/-- The two maxima agree. -/
theorem maxP_eq_maxR (L : Lifted x w tw bi l xr wr twr bir lr) (h : Fin 4) :
    maxP x w tw bi l valid h = maxR x w tw bi l valid h := by
  unfold maxP maxR
  simp only [maskedP_eq_maskedR L]

/-- With a row that counts, the maximum is a real number. -/
theorem maxR_real (L : Lifted x w tw bi l xr wr twr bir lr) (hv : ∃ s, valid s) (h : Fin 4) :
    ∃ m : ℝ, maxR x w tw bi l valid h = (m : EReal) := by
  have hlt : maxR x w tw bi l valid h < ⊤ := by
    unfold maxR
    rw [Finset.fold_max_lt]
    refine ⟨bot_lt_top, fun s _ => ?_⟩
    rw [maskedR_eq L]
    by_cases hs : valid s
    · rw [if_pos hs]; exact EReal.coe_lt_top _
    · rw [if_neg hs]; exact bot_lt_top
  have hgt : ⊥ < maxR x w tw bi l valid h := by
    obtain ⟨s1, hs1⟩ := hv
    unfold maxR
    rw [Finset.lt_fold_max]
    refine Or.inr ⟨s1, Finset.mem_univ _, ?_⟩
    rw [maskedR_eq L, if_pos hs1]
    exact EReal.bot_lt_coe _
  exact ⟨(maxR x w tw bi l valid h).toReal, (EReal.coe_toReal hlt.ne hgt.ne').symm⟩

/-- The soft-max weight of the second formula is the real one. -/
theorem expR_coe (L : Lifted x w tw bi l xr wr twr bir lr) {h : Fin 4} {m : ℝ}
    (hm : maxR x w tw bi l valid h = (m : EReal)) (s : Fin 4096) :
    expR x w tw bi l valid s h = ((expReal xr wr twr bir lr valid m s h : ℝ) : EReal) := by
  unfold expR expReal maskedReal
  by_cases hs : valid s
  · rw [if_pos hs, if_pos hs, hm, scoreR_coe L, L.hl, leakyNonneg_coe, ← EReal.coe_sub, Ideal.exp_coe]
  · rw [if_neg hs, if_neg hs, EReal.coe_zero]

/-- The soft-max weights of the two formulas agree: on a row that does not count, minus infinity minus
    anything is minus infinity, whose exponential is zero. -/
theorem expP_eq_expR (L : Lifted x w tw bi l xr wr twr bir lr) (s : Fin 4096) (h : Fin 4) :
    expP x w tw bi l valid s h = expR x w tw bi l valid s h := by
  unfold expP expR
  rw [maxP_eq_maxR L, maskedP_eq_maskedR L]
  unfold maskedR
  by_cases hs : valid s
  · rw [if_pos hs, if_pos hs]
  · rw [if_neg hs, if_neg hs, EReal.bot_sub, Ideal.exp_bot]

end Lift

/-! ## The identity over the reals -/

/-- The total of the real weights is positive: every weight is non-negative and a row that counts has a
    positive one. -/
theorem total_pos (xr : Fin 4096 → Fin 128 → ℝ) (wr : Fin 128 → Fin 512 → ℝ) (twr : Fin 4 → Fin 128 → ℝ)
    (bir : Fin 512 → ℝ) (lr : ℝ) (valid : Fin 4096 → Prop) [DecidablePred valid]
    (hv : ∃ s, valid s) (m : ℝ) (h : Fin 4) :
    0 < ∑ s : Fin 4096, expReal xr wr twr bir lr valid m s h := by
  obtain ⟨s1, hs1⟩ := hv
  refine Finset.sum_pos' (fun s _ => ?_) ⟨s1, Finset.mem_univ _, ?_⟩
  · unfold expReal
    by_cases hs : valid s
    · rw [if_pos hs]; exact (Real.exp_pos _).le
    · rw [if_neg hs]
  · unfold expReal
    rw [if_pos hs1]; exact Real.exp_pos _

/-- Normalising the pooled row before projecting it, and adding the bias once, is the same as summing the
    projected and biased rows with the normalised weights, because the normalised weights sum to one. -/
theorem pool_identity {ι κ : Type*} [Fintype ι] [Fintype κ] (e : ι → ℝ) (xs : ι → κ → ℝ) (ws : κ → ℝ) (b : ℝ)
    (hd : (∑ s : ι, e s) ≠ 0) :
    (∑ c : κ, (∑ s : ι, e s * xs s c) / (∑ s : ι, e s) * ws c) + b
      = ∑ s : ι, ((∑ c : κ, xs s c * ws c) + b) * (e s / ∑ s : ι, e s) := by
  have hone : ∑ s : ι, b * (e s / ∑ s : ι, e s) = b := by
    simp only [div_eq_mul_inv]
    rw [← Finset.mul_sum, ← Finset.sum_mul, mul_inv_cancel₀ hd, mul_one]
  simp only [add_mul, Finset.sum_add_distrib, hone]
  congr 1
  simp only [div_eq_mul_inv, Finset.sum_mul]
  rw [Finset.sum_comm]
  refine Finset.sum_congr rfl fun s _ => Finset.sum_congr rfl fun c _ => ?_
  ring

/-! ## The two formulas -/

section Main

variable {x : Fin 4096 → Fin 128 → EReal} {w : Fin 128 → Fin 512 → EReal} {tw : Fin 4 → Fin 128 → EReal}
  {bi : Fin 512 → EReal} {l : EReal} {valid : Fin 4096 → Prop} [DecidablePred valid]
  {xr : Fin 4096 → Fin 128 → ℝ} {wr : Fin 128 → Fin 512 → ℝ} {twr : Fin 4 → Fin 128 → ℝ}
  {bir : Fin 512 → ℝ} {lr : ℝ}

/-- The first formula, once its weights are known to be the real numbers \`e s\` with a non-zero total. -/
theorem pooledFirst_coe (L : Lifted x w tw bi l xr wr twr bir lr) (k : Fin 512) (e : Fin 4096 → ℝ)
    (he : ∀ s, expP x w tw bi l valid s (headOf k) = (e s : EReal)) (hd : (∑ s : Fin 4096, e s) ≠ 0) :
    pooledFirst x w tw bi l valid k
      = (((∑ c : Fin 128, (∑ s : Fin 4096, e s * xr s c) / (∑ s : Fin 4096, e s) * wr c k) + bir k : ℝ) : EReal) := by
  unfold pooledFirst
  rw [Finset.sum_ite_eq Finset.univ (headOf k) (fun h' => projP x w tw bi l valid h' k),
    if_pos (Finset.mem_univ _)]
  unfold projP pooledP totalP
  simp only [he, L.hx, L.hw, L.hb, ← EReal.coe_mul, ← coe_sum, div_coe _ _ hd, ← EReal.coe_add]

/-- The second formula, once its weights are known to be the real numbers \`e s\` with a non-zero total. -/
theorem projectedFirst_coe (L : Lifted x w tw bi l xr wr twr bir lr) (k : Fin 512) (e : Fin 4096 → ℝ)
    (he : ∀ s, expR x w tw bi l valid s (headOf k) = (e s : EReal)) (hd : (∑ s : Fin 4096, e s) ≠ 0) :
    projectedFirst x w tw bi l valid (headOf k) (featOf k)
      = ((∑ s : Fin 4096, rowReal xr wr bir s k * (e s / ∑ s : Fin 4096, e s) : ℝ) : EReal) := by
  unfold projectedFirst weightR totalR
  rw [lane_headOf_featOf]
  simp only [projR_coe L, he, ← coe_sum, div_coe _ _ hd, ← EReal.coe_mul]

end Main

/-- The pooled-first and the projected-first formulas agree on every lane, when every entry is a real number
    and some row counts. -/
theorem pooledFirst_eq_projectedFirst
    (x : Fin 4096 → Fin 128 → EReal) (w : Fin 128 → Fin 512 → EReal) (tw : Fin 4 → Fin 128 → EReal) (bi : Fin 512 → EReal) (l : EReal)
    (valid : Fin 4096 → Prop) [DecidablePred valid]
    (hx : ∀ s c, ∃ r : ℝ, x s c = (r : EReal)) (hw : ∀ c k, ∃ r : ℝ, w c k = (r : EReal))
    (htw : ∀ h c', ∃ r : ℝ, tw h c' = (r : EReal)) (hbi : ∀ k, ∃ r : ℝ, bi k = (r : EReal)) (hl : ∃ r : ℝ, l = (r : EReal))
    (hv : ∃ s, valid s) (k : Fin 512) :
    pooledFirst x w tw bi l valid k = projectedFirst x w tw bi l valid (headOf k) (featOf k) := by
  choose xr hxr using hx
  choose wr hwr using hw
  choose twr htwr using htw
  choose bir hbir using hbi
  obtain ⟨lr, hlr⟩ := hl
  have L : Lifted x w tw bi l xr wr twr bir lr := ⟨hxr, hwr, htwr, hbir, hlr⟩
  obtain ⟨m, hm⟩ := maxR_real (valid := valid) L hv (headOf k)
  have hd : (∑ s : Fin 4096, expReal xr wr twr bir lr valid m s (headOf k)) ≠ 0 :=
    (total_pos xr wr twr bir lr valid hv m (headOf k)).ne'
  have heR : ∀ s, expR x w tw bi l valid s (headOf k)
      = ((expReal xr wr twr bir lr valid m s (headOf k) : ℝ) : EReal) := fun s => expR_coe L hm s
  have heP : ∀ s, expP x w tw bi l valid s (headOf k)
      = ((expReal xr wr twr bir lr valid m s (headOf k) : ℝ) : EReal) :=
    fun s => (expP_eq_expR L s (headOf k)).trans (heR s)
  rw [pooledFirst_coe L k _ heP hd, projectedFirst_coe L k _ heR hd]
  unfold rowReal
  rw [pool_identity (fun s => expReal xr wr twr bir lr valid m s (headOf k)) xr (fun c => wr c k) (bir k) hd]

end Cert.Pooling

end
-- ==== Proof.PreFacts.lean ====
/-
  What the input precondition says, entry by entry.

  The precondition is a conjunction of five tests, each a conjunction over a whole array: the absolute value of
  every entry of the four real-valued arrays is below plus infinity, and every graph-size word is at least one as a
  signed integer.  An extended real whose absolute value (the larger of it and its negation) is below plus
  infinity is neither infinity, so it is a real number.  The slope constant of the rectifier is an ordinary
  (normal) single-precision pattern, so it denotes a real number as well.
-/
import proofs.«160056_g68547678044319_fold_wed_c4_656_5_alg».proof.Pre_finite_inputs
import proofs.«160056_g68547678044319_fold_wed_c4_656_5_alg».proof.Proof.Gen.Pre_finite_inputs
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.Pre_finite_inputs

/-- The scalar shape has one index. -/
instance subsingleton_scalar_idx : Subsingleton S_.Idx := ⟨fun a b => funext fun d => d.elim0⟩

/-- A one-bit word made from a truth value is the word one exactly when the truth value is true. -/
theorem ofBool_eq_one (b : Bool) : BitVec.ofBool b = 1#1 ↔ b = true := by cases b <;> decide

/-- The pattern of plus infinity denotes plus infinity. -/
theorem ofBits_inf : Ideal.ofBits .f32 0x7F800000#32 = ⊤ := by
  simp [Ideal.ofBits, Ideal.ieee]

/-- An extended real whose absolute value is below plus infinity is a real number: at either infinity the larger
    of the number and its negation is plus infinity. -/
theorem real_of_abs_lt_inf (x : EReal)
    (h : Ideal.cmp .olt (max x (-x)) (Ideal.ofBits .f32 0x7F800000#32) = 1#1) : ∃ r : ℝ, x = (r : EReal) := by
  rw [ofBits_inf] at h
  have hd : decide (max x (-x) < ⊤) = true := (ofBool_eq_one _).1 h
  have hlt : max x (-x) < ⊤ := of_decide_eq_true hd
  induction x using EReal.rec with
  | bot => simp at hlt
  | coe r => exact ⟨r, rfl⟩
  | top => simp at hlt

/-- The precondition, read back: every entry of the four real-valued arrays is a real number, and every graph has
    at least one row. -/
theorem decode [Cert.Pre_finite_inputs.Facts] (a0 : FVec Ideal S16x4096x128 .f32) (a1 : IVec S16 32) (a2 : FVec Ideal S128x512 .f32) (a3 : FVec Ideal S1x4x128 .f32) (a4 : FVec Ideal S512 .f32)
    (h : Cert.Pre_finite_inputs.fn (F := Ideal) a0 a1 a2 a3 a4 = (fun _ => 1#1)) :
    (∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal)) ∧ (∀ b : Fin 16, (1#32).sle (a1 (ix1 b)) = true) := by
  have e := congrFun h ix0
  dsimp only [fn, fn_part1] at e
  simp only [andi, IntOp.andi_eq_one] at e
  obtain ⟨⟨⟨⟨e0, e2⟩, e3⟩, e4⟩, e1⟩ := e
  refine ⟨fun i => ?_, fun i => ?_, fun i => ?_, fun i => ?_, fun b => ?_⟩
  · exact real_of_abs_lt_inf _ (Host.reduce_andi_all _ _ _ _ _ e0 i)
  · exact real_of_abs_lt_inf _ (Host.reduce_andi_all _ _ _ _ _ e2 i)
  · exact real_of_abs_lt_inf _ (Host.reduce_andi_all _ _ _ _ _ e3 i)
  · exact real_of_abs_lt_inf _ (Host.reduce_andi_all _ _ _ _ _ e4 i)
  · exact (ofBool_eq_one _).1 (Host.reduce_andi_all _ _ _ _ _ e1 (ix1 b))

/-- The rectifier's slope constant is a normal single-precision pattern: it denotes a real number. -/
theorem slope_real : ∃ r : ℝ, Ideal.ofBits .f32 0x3E4CCCCD#32 = (r : EReal) := by
  unfold Ideal.ofBits
  simp only [Ideal.ieee]
  rw [if_neg (by decide), if_neg (by decide)]
  exact ⟨_, rfl⟩

end Cert.PreFacts

end
-- ==== Proof.Claims.lean ====
/-
  The five claims.

  Frames: the kernel's two frames are the generated ones; the reference's frame is its run with the result dropped.
  The ideal pass rewrote nothing, so there is nothing to preserve.

  Equality of the results, at the extended reals: the kernel's result at graph `b`, lane `k` is the pooled-first formula
  of graph `b`, the reference's is the projected-first formula at the lane's head and feature; the precondition makes every
  float entry a real number and every graph's size at least one, so row 0 of every graph counts, the soft-max weights of
  every head sum to one, and the two formulas agree.
-/
import proofs.«160056_g68547678044319_fold_wed_c4_656_5_alg».proof.Defs
import proofs.«160056_g68547678044319_fold_wed_c4_656_5_alg».proof.Proof.Gen.Kernel.Frame
import proofs.«160056_g68547678044319_fold_wed_c4_656_5_alg».proof.Proof.Gen.KernelIdeal.Frame
import proofs.«160056_g68547678044319_fold_wed_c4_656_5_alg».proof.Proof.KernelValue
import proofs.«160056_g68547678044319_fold_wed_c4_656_5_alg».proof.Proof.RefRun
import proofs.«160056_g68547678044319_fold_wed_c4_656_5_alg».proof.Proof.RefValue
import proofs.«160056_g68547678044319_fold_wed_c4_656_5_alg».proof.Proof.Algebra
import proofs.«160056_g68547678044319_fold_wed_c4_656_5_alg».proof.Proof.PreFacts

noncomputable section

open Idealize.ShloMosaic Idealize.ShloMosaic.TcCoe Idealize.SL.Sem

namespace Cert.Proof.Claims

open Idealize.ShloMosaic.ValueIdx Cert.Pooling

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run_ideal m ρ)

theorem preserves : Cert.preserves_Kernel_KernelIdeal := trivial

/-- Graph `b`, lane `k`: the reference's value is the kernel's, when the float arguments are real numbers and every
    graph has at least one row. -/
theorem lane_eq (a0 : FVec Ideal Cert.KernelIdeal.S16x4096x128 .f32) (a1 : IVec Cert.KernelIdeal.S16 32) (a2 : FVec Ideal Cert.KernelIdeal.S128x512 .f32)
    (a3 : FVec Ideal Cert.KernelIdeal.S1x4x128 .f32) (a4 : FVec Ideal Cert.KernelIdeal.S512 .f32)
    (h0 : ∀ i, ∃ r : ℝ, a0 i = (r : EReal)) (h2 : ∀ i, ∃ r : ℝ, a2 i = (r : EReal)) (h3 : ∀ i, ∃ r : ℝ, a3 i = (r : EReal))
    (h4 : ∀ i, ∃ r : ℝ, a4 i = (r : EReal)) (hg : ∀ b : Fin 16, (1#32).sle (a1 (ix1 b)) = true) (b : Fin 16) (k : Fin 512) :
    Cert.ReferenceIdeal.RefTerm.refOut (F := Ideal) a0 a1 a2 a3 a4 (ix2 b k) = Cert.KernelIdeal.KValue.laneValue a0 a1 a2 a3 a4 b k := by
  rw [Cert.ReferenceIdeal.RefHead.refOut_apply]
  exact (pooledFirst_eq_projectedFirst (fun s cc => a0 (ix3 b s cc)) (fun cc k => a2 (ix2 cc k)) (fun h c' => a3 (ix3 (0 : Fin 1) h c'))
    (fun k => a4 (ix1 k)) (Ideal.ofBits .f32 0x3E4CCCCD#32) (validRow (a1 (ix1 b)))
    (fun s cc => h0 _) (fun cc k => h2 _) (fun h c' => h3 _) (fun k => h4 _) Cert.PreFacts.slope_real ⟨0, validRow_zero (hg b)⟩ k).symm

theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run_ideal m' ρ')
  rw [(hagree c).1, (hagree c).2.1, (hagree c).2.2.1, (hagree c).2.2.2.1, (hagree c).2.2.2.2]
  obtain ⟨h0, h2, h3, h4, hg⟩ := Cert.PreFacts.decode _ _ _ _ _ (hpre c)
  funext j
  obtain ⟨b, k, rfl⟩ : ∃ (b : Fin 16) (k : Fin 512), j = ix2 b k := ⟨j 0, j 1, eq_ix2 j⟩
  exact lane_eq _ _ _ _ _ h0 h2 h3 h4 hg b k

end Cert.Proof.Claims

end
-- ==== Proof.lean ====
/-
  Multi-head soft-max pooling over sixteen graphs of up to 4096 rows: a kernel that scores every row through the weight
  matrix folded with the tuning vectors, pools the rows with the un-normalised soft-max weights and projects the pooled
  row once, against a reference that projects every row first and sums the projected rows with the normalised weights.
  Over the extended reals the two are one function as soon as every float entry is a real number and every graph has at
  least one row that counts: the normalised weights of a head then sum to one, so the bias leaves the weighted sum and the
  projection commutes with it.

  The pieces: Spec (both formulas per graph), Algebra (they agree), PreFacts (what the precondition says), the kernel's
  value (KernelPieces, KernelBlocks, KernelEntry, KernelHostTerm/Value, KernelPayload1-3, KernelCover, KernelTail,
  KernelValue), the reference's value (RefTerm, RefRun, RefArgs, RefHead1-2, RefTail, RefValue), and Claims, which
  joins them.
-/
import proofs.«160056_g68547678044319_fold_wed_c4_656_5_alg».proof.Defs
import proofs.«160056_g68547678044319_fold_wed_c4_656_5_alg».proof.Proof.Claims
import proofs.«160056_g68547678044319_fold_wed_c4_656_5_alg».proof.Proof.Gen.Kernel
import proofs.«160056_g68547678044319_fold_wed_c4_656_5_alg».proof.Proof.Gen.Kernel.Skeleton
import proofs.«160056_g68547678044319_fold_wed_c4_656_5_alg».proof.Proof.Gen.Kernel.Launch
import proofs.«160056_g68547678044319_fold_wed_c4_656_5_alg».proof.Proof.Gen.Kernel.Points
import proofs.«160056_g68547678044319_fold_wed_c4_656_5_alg».proof.Proof.Gen.Kernel.Frame
import proofs.«160056_g68547678044319_fold_wed_c4_656_5_alg».proof.Proof.Gen.KernelIdeal
import proofs.«160056_g68547678044319_fold_wed_c4_656_5_alg».proof.Proof.Gen.KernelIdeal.Skeleton
import proofs.«160056_g68547678044319_fold_wed_c4_656_5_alg».proof.Proof.Gen.KernelIdeal.Launch
import proofs.«160056_g68547678044319_fold_wed_c4_656_5_alg».proof.Proof.Gen.KernelIdeal.Points
import proofs.«160056_g68547678044319_fold_wed_c4_656_5_alg».proof.Proof.Gen.KernelIdeal.Frame
import proofs.«160056_g68547678044319_fold_wed_c4_656_5_alg».proof.Proof.Gen.ReferenceIdeal
import proofs.«160056_g68547678044319_fold_wed_c4_656_5_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
